-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v83)) (v2 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_v90) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S200000x64 : Shape := ⟨2, ![200000, 64]⟩
abbrev S3x64x64 : Shape := ⟨3, ![3, 64, 64]⟩
abbrev S3x1x64 : Shape := ⟨3, ![3, 1, 64]⟩
abbrev S4000000 : Shape := ⟨1, ![4000000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x1x64 : S_.BroadcastsInDim S3x1x64 (![] : Fin 0 → Fin S3x1x64.rank)
  reducesTo_S3x1x64_S_d0_1_2 : S3x1x64.ReducesTo [0, 1, 2] S_
  bcast_S_S4000000 : S_.BroadcastsInDim S4000000 (![] : Fin 0 → Fin S4000000.rank)
  reducesTo_S4000000_S_d0 : S4000000.ReducesTo [0] S_

variable [Facts]

def fn_part1 {F : FTy → Type} [FloatOps F] (main_arg4 : FVec F S3x64x64 .f32) (main_arg5 : FVec F S3x1x64 .f32) (main_arg6 : FVec F S4000000 .f32) (main_v13 : IVec S_ 1) (main_v16 : IVec S3x1x64 1) : IVec S_ 1 :=
  let main_c_5 : IVec S_ 1 := constantI S_ 1 1#1
  let main_v17 : IVec S_ 1 := (fun x v => Host.reduce IntOp.andi x v reducesTo_S3x1x64_S_d0_1_2 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x1x64 .f32 := Host.absf main_arg5
  let main_cst_8 : FVec F S_ .f32 := constant S_ .f32 0x7F800000#32
  let main_v25 : FVec F S3x1x64 .f32 := broadcastInDim S3x1x64 ![] bcast_S_S3x1x64 main_cst_8
  let main_v26 : IVec S3x1x64 1 := cmpf .olt main_v24 main_v25
  let main_c_9 : IVec S_ 1 := constantI S_ 1 1#1
  let main_v27 : IVec S_ 1 := (fun x v => Host.reduce IntOp.andi x v reducesTo_S3x1x64_S_d0_1_2 h_S_) main_v26 main_c_9
  let main_v28 : IVec S_ 1 := andi main_v23 main_v27
  let main_v29 : FVec F S4000000 .f32 := Host.absf main_arg6
  let main_cst_10 : FVec F S_ .f32 := constant S_ .f32 0x7F800000#32
  let main_v30 : FVec F S4000000 .f32 := broadcastInDim S4000000 ![] bcast_S_S4000000 main_cst_10
  let main_v31 : IVec S4000000 1 := cmpf .olt main_v29 main_v30
  let main_c_11 : IVec S_ 1 := constantI S_ 1 1#1
  let main_v32 : IVec S_ 1 := (fun x v => Host.reduce IntOp.andi x v reducesTo_S4000000_S_d0 h_S_) main_v31 main_c_11
  let main_v33 : IVec S_ 1 := andi main_v28 main_v32
  main_v33

def fn {F : FTy → Type} [FloatOps F] (main_arg0 : FVec F S100000x64 .f32) (main_arg1 : FVec F S200000x64 .f32) (main_arg2 : FVec F S3x64x64 .f32) (main_arg3 : FVec F S3x1x64 .f32) (main_arg4 : FVec F S3x64x64 .f32) (main_arg5 : FVec F S3x1x64 .f32) (main_arg6 : FVec F S4000000 .f32) (main_arg7 : IVec S4000000 32) (main_arg8 : IVec S4000000 32) (main_arg9 : IVec S4096 32) (main_arg10 : IVec S4096 32) (main_arg11 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x1x64 .f32 := Host.absf main_arg3
  let main_cst_4 : FVec F S_ .f32 := constant S_ .f32 0x7F800000#32
  let main_v15 : FVec F S3x1x64 .f32 := broadcastInDim S3x1x64 ![] bcast_S_S3x1x64 main_cst_4
  let main_v16 : IVec S3x1x64 1 := cmpf .olt main_v14 main_v15
  fn_part1 (F := F) main_arg4 main_arg5 main_arg6 main_v13 main_v16
-- ==== Kernel.lean ====
abbrev S100000x64 : Shape := ⟨2, ![100000, 64]⟩
abbrev S200000x64 : Shape := ⟨2, ![200000, 64]⟩
abbrev S3x64x64 : Shape := ⟨3, ![3, 64, 64]⟩
abbrev S3x1x64 : Shape := ⟨3, ![3, 1, 64]⟩
abbrev S4000000 : Shape := ⟨1, ![4000000]⟩
abbrev S4096 : Shape := ⟨1, ![4096]⟩
abbrev S300000x64 : Shape := ⟨2, ![300000, 64]⟩
abbrev S4000000x1 : Shape := ⟨2, ![4000000, 1]⟩
abbrev S_ : Shape := ⟨0, ![]⟩
abbrev S4000000x64 : Shape := ⟨2, ![4000000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S6000x64 : Shape := ⟨2, ![6000, 64]⟩
abbrev S6000 : Shape := ⟨1, ![6000]⟩
abbrev S6000x1 : Shape := ⟨2, ![6000, 1]⟩
abbrev S300000x256 : Shape := ⟨2, ![300000, 256]⟩
abbrev S100000x256 : Shape := ⟨2, ![100000, 256]⟩
abbrev S200000x256 : Shape := ⟨2, ![200000, 256]⟩
abbrev S4096x1 : Shape := ⟨2, ![4096, 1]⟩
abbrev S4096x256 : Shape := ⟨2, ![4096, 256]⟩

abbrev nBuf : Space → Nat
  | .hbm => 121
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S200000x64, .f32⟩
  | .hbm, ⟨2, _⟩ => ⟨S3x64x64, .f32⟩
  | .hbm, ⟨3, _⟩ => ⟨S3x1x64, .f32⟩
  | .hbm, ⟨4, _⟩ => ⟨S3x64x64, .f32⟩
  | .hbm, ⟨5, _⟩ => ⟨S3x1x64, .f32⟩
  | .hbm, ⟨6, _⟩ => ⟨S4000000, .f32⟩
  | .hbm, ⟨7, _⟩ => ⟨S4000000, .i32⟩
  | .hbm, ⟨8, _⟩ => ⟨S4000000, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S300000x64, .f32⟩
  | .hbm, ⟨13, _⟩ => ⟨S4000000x1, .f32⟩
  | .hbm, ⟨14, _⟩ => ⟨S_, .i32⟩
  | .hbm, ⟨15, _⟩ => ⟨S4000000, .i32⟩
  | .hbm, ⟨16, _⟩ => ⟨S4000000, .i1⟩
  | .hbm, ⟨17, _⟩ => ⟨S_, .i32⟩
  | .hbm, ⟨18, _⟩ => ⟨S4000000, .i32⟩
  | .hbm, ⟨19, _⟩ => ⟨S4000000, .i32⟩
  | .hbm, ⟨20, _⟩ => ⟨S4000000, .i32⟩
  | .hbm, ⟨21, _⟩ => ⟨S4000000x1, .i32⟩
  | .hbm, ⟨22, _⟩ => ⟨S4000000x64, .f32⟩
  | .hbm, ⟨23, _⟩ => ⟨S4000000x64, .f32⟩
  | .hbm, ⟨24, _⟩ => ⟨S4000000x64, .f32⟩
  | .hbm, ⟨25, _⟩ => ⟨S_, .f32⟩
  | .hbm, ⟨26, _⟩ => ⟨S300000x64, .f32⟩
  | .hbm, ⟨27, _⟩ => ⟨S4000000x1, .i32⟩
  | .hbm, ⟨28, _⟩ => ⟨S300000x64, .f32⟩
  | .hbm, ⟨29, _⟩ => ⟨S1x64x64, .f32⟩
  | .hbm, ⟨30, _⟩ => ⟨S64x64, .f32⟩
  | .hbm, ⟨31, _⟩ => ⟨S1x1x64, .f32⟩
  | .hbm, ⟨32, _⟩ => ⟨S1x64, .f32⟩
  | .hbm, ⟨33, _⟩ => ⟨S1x64x64, .f32⟩
  | .hbm, ⟨34, _⟩ => ⟨S64x64, .f32⟩
  | .hbm, ⟨35, _⟩ => ⟨S1x1x64, .f32⟩
  | .hbm, ⟨36, _⟩ => ⟨S1x64, .f32⟩
  | .hbm, ⟨37, _⟩ => ⟨S300000x64, .f32⟩
  | .hbm, ⟨38, _⟩ => ⟨S300000x64, .f32⟩
  | .hbm, ⟨39, _⟩ => ⟨S4000000x1, .f32⟩
  | .hbm, ⟨40, _⟩ => ⟨S_, .i32⟩
  | .hbm, ⟨41, _⟩ => ⟨S4000000, .i32⟩
  | .hbm, ⟨42, _⟩ => ⟨S4000000, .i1⟩
  | .hbm, ⟨43, _⟩ => ⟨S_, .i32⟩
  | .hbm, ⟨44, _⟩ => ⟨S4000000, .i32⟩
  | .hbm, ⟨45, _⟩ => ⟨S4000000, .i32⟩
  | .hbm, ⟨46, _⟩ => ⟨S4000000, .i32⟩
  | .hbm, ⟨47, _⟩ => ⟨S4000000x1, .i32⟩
  | .hbm, ⟨48, _⟩ => ⟨S4000000x64, .f32⟩
  | .hbm, ⟨49, _⟩ => ⟨S4000000x64, .f32⟩
  | .hbm, ⟨50, _⟩ => ⟨S4000000x64, .f32⟩
  | .hbm, ⟨51, _⟩ => ⟨S_, .f32⟩
  | .hbm, ⟨52, _⟩ => ⟨S300000x64, .f32⟩
  | .hbm, ⟨53, _⟩ => ⟨S4000000x1, .i32⟩
  | .hbm, ⟨54, _⟩ => ⟨S300000x64, .f32⟩
  | .hbm, ⟨55, _⟩ => ⟨S1x64x64, .f32⟩
  | .hbm, ⟨56, _⟩ => ⟨S64x64, .f32⟩
  | .hbm, ⟨57, _⟩ => ⟨S1x1x64, .f32⟩
  | .hbm, ⟨58, _⟩ => ⟨S1x64, .f32⟩
  | .hbm, ⟨59, _⟩ => ⟨S1x64x64, .f32⟩
  | .hbm, ⟨60, _⟩ => ⟨S64x64, .f32⟩
  | .hbm, ⟨61, _⟩ => ⟨S1x1x64, .f32⟩
  | .hbm, ⟨62, _⟩ => ⟨S1x64, .f32⟩
  | .hbm, ⟨63, _⟩ => ⟨S300000x64, .f32⟩
  | .hbm, ⟨64, _⟩ => ⟨S300000x64, .f32⟩
  | .hbm, ⟨65, _⟩ => ⟨S4000000x1, .f32⟩
  | .hbm, ⟨66, _⟩ => ⟨S_, .i32⟩
  | .hbm, ⟨67, _⟩ => ⟨S4000000, .i32⟩
  | .hbm, ⟨68, _⟩ => ⟨S4000000, .i1⟩
  | .hbm, ⟨69, _⟩ => ⟨S_, .i32⟩
  | .hbm, ⟨70, _⟩ => ⟨S4000000, .i32⟩
  | .hbm, ⟨71, _⟩ => ⟨S4000000, .i32⟩
  | .hbm, ⟨72, _⟩ => ⟨S4000000, .i32⟩
  | .hbm, ⟨73, _⟩ => ⟨S4000000x1, .i32⟩
  | .hbm, ⟨74, _⟩ => ⟨S4000000x64, .f32⟩
  | .hbm, ⟨75, _⟩ => ⟨S4000000x64, .f32⟩
  | .hbm, ⟨76, _⟩ => ⟨S4000000x64, .f32⟩
  | .hbm, ⟨77, _⟩ => ⟨S_, .f32⟩
  | .hbm, ⟨78, _⟩ => ⟨S300000x64, .f32⟩
  | .hbm, ⟨79, _⟩ => ⟨S4000000x1, .i32⟩
  | .hbm, ⟨80, _⟩ => ⟨S300000x64, .f32⟩
  | .hbm, ⟨81, _⟩ => ⟨S1x64x64, .f32⟩
  | .hbm, ⟨82, _⟩ => ⟨S64x64, .f32⟩
  | .hbm, ⟨83, _⟩ => ⟨S1x1x64, .f32⟩
  | .hbm, ⟨84, _⟩ => ⟨S1x64, .f32⟩
  | .hbm, ⟨85, _⟩ => ⟨S1x64x64, .f32⟩
  | .hbm, ⟨86, _⟩ => ⟨S64x64, .f32⟩
  | .hbm, ⟨87, _⟩ => ⟨S1x1x64, .f32⟩
  | .hbm, ⟨88, _⟩ => ⟨S1x64, .f32⟩
  | .hbm, ⟨89, _⟩ => ⟨S300000x64, .f32⟩
  | .hbm, ⟨90, _⟩ => ⟨S300000x64, .f32⟩
  | .hbm, ⟨91, _⟩ => ⟨S300000x256, .f32⟩
  | .hbm, ⟨92, _⟩ => ⟨S100000x256, .f32⟩
  | .hbm, ⟨93, _⟩ => ⟨S200000x256, .f32⟩
  | .hbm, ⟨94, _⟩ => ⟨S_, .i32⟩
  | .hbm, ⟨95, _⟩ => ⟨S4096, .i32⟩
  | .hbm, ⟨96, _⟩ => ⟨S4096, .i1⟩
  | .hbm, ⟨97, _⟩ => ⟨S_, .i32⟩
  | .hbm, ⟨98, _⟩ => ⟨S4096, .i32⟩
  | .hbm, ⟨99, _⟩ => ⟨S4096, .i32⟩
  | .hbm, ⟨100, _⟩ => ⟨S4096, .i32⟩
  | .hbm, ⟨101, _⟩ => ⟨S4096x1, .i32⟩
  | .hbm, ⟨102, _⟩ => ⟨S4096x256, .f32⟩
  | .hbm, ⟨103, _⟩ => ⟨S_, .i32⟩
  | .hbm, ⟨104, _⟩ => ⟨S4096, .i32⟩
  | .hbm, ⟨105, _⟩ => ⟨S4096, .i1⟩
  | .hbm, ⟨106, _⟩ => ⟨S_, .i32⟩
  | .hbm, ⟨107, _⟩ => ⟨S4096, .i32⟩
  | .hbm, ⟨108, _⟩ => ⟨S4096, .i32⟩
  | .hbm, ⟨109, _⟩ => ⟨S4096, .i32⟩
  | .hbm, ⟨110, _⟩ => ⟨S4096x1, .i32⟩
  | .hbm, ⟨111, _⟩ => ⟨S4096x256, .f32⟩
  | .hbm, ⟨112, _⟩ => ⟨S_, .i32⟩
  | .hbm, ⟨113, _⟩ => ⟨S4096, .i32⟩
  | .hbm, ⟨114, _⟩ => ⟨S4096, .i1⟩
  | .hbm, ⟨115, _⟩ => ⟨S_, .i32⟩
  | .hbm, ⟨116, _⟩ => ⟨S4096, .i32⟩
  | .hbm, ⟨117, _⟩ => ⟨S4096, .i32⟩
  | .hbm, ⟨118, _⟩ => ⟨S4096, .i32⟩
  | .hbm, ⟨119, _⟩ => ⟨S4096x1, .i32⟩
  | .hbm, ⟨120, _⟩ => ⟨S4096x256, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S6000x64, .f32⟩
  | .local _ .vmem, ⟨9, _⟩ => ⟨S6000x64, .f32⟩
  | .local _ .vmem, ⟨10, _⟩ => ⟨S6000x64, .f32⟩
  | .local _ .vmem, ⟨11, _⟩ => ⟨S6000x64, .f32⟩
  | .local _ .vmem, ⟨12, _⟩ => ⟨S6000x64, .f32⟩
  | .local _ .vmem, ⟨13, _⟩ => ⟨S6000x64, .f32⟩
  | .local _ .vmem, ⟨14, _⟩ => ⟨S6000x64, .f32⟩
  | .local _ .vmem, ⟨15, _⟩ => ⟨S6000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S6000x64, .f32⟩
  | .local _ .vmem, ⟨21, _⟩ => ⟨S6000x64, .f32⟩
  | .local _ .vmem, ⟨22, _⟩ => ⟨S6000x64, .f32⟩
  | .local _ .vmem, ⟨23, _⟩ => ⟨S6000x64, .f32⟩
  | .local _ .vmem, ⟨24, _⟩ => ⟨S6000x64, .f32⟩
  | .local _ .vmem, ⟨25, _⟩ => ⟨S6000x64, .f32⟩
  | .local _ .vmem, ⟨26, _⟩ => ⟨S6000x64, .f32⟩
  | .local _ .vmem, ⟨27, _⟩ => ⟨S6000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S6000x64, .f32⟩
  | .local _ .vmem, ⟨33, _⟩ => ⟨S6000x64, .f32⟩
  | .local _ .vmem, ⟨34, _⟩ => ⟨S6000x64, .f32⟩
  | .local _ .vmem, ⟨35, _⟩ => ⟨S6000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_v45 : Ref sig .tc := ⟨.hbm, 65, rfl⟩
abbrev main_c_4 : Ref sig .tc := ⟨.hbm, 66, rfl⟩
abbrev main_v46 : Ref sig .tc := ⟨.hbm, 67, rfl⟩
abbrev main_v47 : Ref sig .tc := ⟨.hbm, 68, rfl⟩
abbrev main_c_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66_0 : Ref sig .tc := ⟨.hbm, 89, rfl⟩
abbrev main_v66_1 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_7 : Ref sig .tc := ⟨.hbm, 94, rfl⟩
abbrev main_v70 : Ref sig .tc := ⟨.hbm, 95, rfl⟩
abbrev main_v71 : Ref sig .tc := ⟨.hbm, 96, rfl⟩
abbrev main_c_8 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_9 : Ref sig .tc := ⟨.hbm, 103, rfl⟩
abbrev main_v77 : Ref sig .tc := ⟨.hbm, 104, rfl⟩
abbrev main_v78 : Ref sig .tc := ⟨.hbm, 105, rfl⟩
abbrev main_c_10 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_11 : Ref sig .tc := ⟨.hbm, 112, rfl⟩
abbrev main_v84 : Ref sig .tc := ⟨.hbm, 113, rfl⟩
abbrev main_v85 : Ref sig .tc := ⟨.hbm, 114, rfl⟩
abbrev main_c_12 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S6000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S6000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S6000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S100000x64_S200000x64_S300000x64_d0 : Shape.Concatenates [S100000x64, S200000x64] S300000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S300000x64 : S_.BroadcastsInDim S300000x64 (![] : Fin 0 → Fin S300000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6000x64 : S1x64.Broadcasts S6000x64
  reduces_S6000x64_S6000 : S6000x64.Reduces [1] S6000
  shapeCasts_S6000_S6000x1 : S6000.ShapeCasts S6000x1
  broadcasts_S6000x1_S6000x64 : S6000x1.Broadcasts S6000x64
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S300000x64_S300000x64_S300000x64_S300000x64_S300000x256_d1 : Shape.Concatenates [S300000x64, S300000x64, S300000x64, S300000x64] S300000x256 1
  slices_S300000x256_S100000x256_0_0 : S300000x256.Slices ![0, 0] S100000x256
  slices_S300000x256_S200000x256_100000_0 : S300000x256.Slices ![100000, 0] S200000x256
  bcast_S_S4096 : S_.BroadcastsInDim S4096 (![] : Fin 0 → Fin S4096.rank)
  bcast_S4096_S4096x1_0 : S4096.BroadcastsInDim S4096x1 (![0] : Fin 1 → Fin S4096x1.rank)
  gather_S300000x64_S4000000x1_S4000000x64_1_0_n_n_0_1_164_wf : GatherDims.WF S300000x64 S4000000x1 S4000000x64 [1] [0] [] [0] [] 1 ![1, 64]
  scatter_S300000x64_S4000000x1_S4000000x64_1_0_0_1_wf : ScatterDims.WF S300000x64 S4000000x1 S4000000x64 [1] [0] [0] 1
  dot_S6000x64_S64x64_S6000x64_1_0_0_1_n_n_wf : DotDims.WF S6000x64 S64x64 S6000x64 [1] [0] [0] [1] [] []
  gather_S100000x256_S4096x1_S4096x256_1_0_n_n_0_1_1256_wf : GatherDims.WF S100000x256 S4096x1 S4096x256 [1] [0] [] [0] [] 1 ![1, 256]
  gather_S200000x256_S4096x1_S4096x256_1_0_n_n_0_1_1256_wf : GatherDims.WF S200000x256 S4096x1 S4096x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S300000x64.size a
  hwx0_0 : ∀ i : grid0.Coords, EltTy.bits .f32 = 32 ∨ (Rect.block (s := S300000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S300000x64.size a
  hwx0_1 : ∀ i : grid0.Coords, EltTy.bits .f32 = 32 ∨ (Rect.block (s := S300000x64) S6000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6000x64.size a ≤ S300000x64.size a
  hwx0_6 : ∀ i : grid0.Coords, EltTy.bits .f32 = 32 ∨ (Rect.block (s := S300000x64) S6000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6000x64.size a ≤ S300000x64.size a
  hwx0_7 : ∀ i : grid0.Coords, EltTy.bits .f32 = 32 ∨ (Rect.block (s := S300000x64) S6000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S300000x64.size a
  hwx1_0 : ∀ i : grid1.Coords, EltTy.bits .f32 = 32 ∨ (Rect.block (s := S300000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S300000x64.size a
  hwx1_1 : ∀ i : grid1.Coords, EltTy.bits .f32 = 32 ∨ (Rect.block (s := S300000x64) S6000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6000x64.size a ≤ S300000x64.size a
  hwx1_6 : ∀ i : grid1.Coords, EltTy.bits .f32 = 32 ∨ (Rect.block (s := S300000x64) S6000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6000x64.size a ≤ S300000x64.size a
  hwx1_7 : ∀ i : grid1.Coords, EltTy.bits .f32 = 32 ∨ (Rect.block (s := S300000x64) S6000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S300000x64.size a
  hwx2_0 : ∀ i : grid2.Coords, EltTy.bits .f32 = 32 ∨ (Rect.block (s := S300000x64) S6000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x64.size a ≤ S300000x64.size a
  hwx2_1 : ∀ i : grid2.Coords, EltTy.bits .f32 = 32 ∨ (Rect.block (s := S300000x64) S6000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S6000x64.size a ≤ S300000x64.size a
  hwx2_6 : ∀ i : grid2.Coords, EltTy.bits .f32 = 32 ∨ (Rect.block (s := S300000x64) S6000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6000x64.size a ≤ S300000x64.size a
  hwx2_7 : ∀ i : grid2.Coords, EltTy.bits .f32 = 32 ∨ (Rect.block (s := S300000x64) S6000x64.size (cc2_transform_7 i) (hinb2_7 i)).WholeWords (EltTy.packing .f32)

variable [Facts₀]

def gather_S300000x64_S4000000x1_S4000000x64_1_0_n_n_0_1_164 : GatherDims S300000x64 S4000000x1 S4000000x64 where
  offsetDims := [1]
  collapsedSliceDims := [0]
  operandBatchingDims := []
  startIndicesBatchingDims := []
  startIndexMap := [0]
  indexVectorDim := 1
  sliceSizes := ![1, 64]
  wf := gather_S300000x64_S4000000x1_S4000000x64_1_0_n_n_0_1_164_wf
def scatter_S300000x64_S4000000x1_S4000000x64_1_0_0_1 : ScatterDims S300000x64 S4000000x1 S4000000x64 where
  updateWindowDims := [1]
  insertedWindowDims := [0]
  scatterDimsToOperandDims := [0]
  indexVectorDim := 1
  wf := scatter_S300000x64_S4000000x1_S4000000x64_1_0_0_1_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def gather_S200000x256_S4096x1_S4096x256_1_0_n_n_0_1_1256 : GatherDims S200000x256 S4096x1 S4096x256 where
  offsetDims := [1]
  collapsedSliceDims := [0]
  operandBatchingDims := []
  startIndicesBatchingDims := []
  startIndexMap := [0]
  indexVectorDim := 1
  sliceSizes := ![1, 256]
  wf := gather_S200000x256_S4096x1_S4096x256_1_0_n_n_0_1_1256_wf

abbrev win0_0 : Pipeline.Window sig grid0 :=
  Pipeline.Window.ofSpec (Memref.whole main_v13) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S6000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S6000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v35) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22_0) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_0) S6000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_1) S6000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v57) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44_0) S6000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66_0) S6000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v66_1) S6000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S200000x64 : Shape := ⟨2, ![200000, 64]⟩
abbrev S3x64x64 : Shape := ⟨3, ![3, 64, 64]⟩
abbrev S3x1x64 : Shape := ⟨3, ![3, 1, 64]⟩
abbrev S4000000 : Shape := ⟨1, ![4000000]⟩
abbrev S4096 : Shape := ⟨1, ![4096]⟩
abbrev S300000x64 : Shape := ⟨2, ![300000, 64]⟩
abbrev S4000000x1 : Shape := ⟨2, ![4000000, 1]⟩
abbrev S_ : Shape := ⟨0, ![]⟩
abbrev S4000000x64 : Shape := ⟨2, ![4000000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S300000 : Shape := ⟨1, ![300000]⟩
abbrev S300000x1 : Shape := ⟨2, ![300000, 1]⟩
abbrev S300000x256 : Shape := ⟨2, ![300000, 256]⟩
abbrev S100000x256 : Shape := ⟨2, ![100000, 256]⟩
abbrev S200000x256 : Shape := ⟨2, ![200000, 256]⟩
abbrev S4096x1 : Shape := ⟨2, ![4096, 1]⟩
abbrev S4096x256 : Shape := ⟨2, ![4096, 256]⟩

abbrev nBuf : Space → Nat
  | .hbm => 193
  | .vmem => 0
  | .smem => 0
  | _ => 0

abbrev hbmTy0_0 (i : Nat) : BufTy := match i % 128 with
  | 0 => ⟨S100000x64, .f32⟩
  | 1 => ⟨S200000x64, .f32⟩
  | 2 => ⟨S3x64x64, .f32⟩
  | 3 => ⟨S3x1x64, .f32⟩
  | 4 => ⟨S3x64x64, .f32⟩
  | 5 => ⟨S3x1x64, .f32⟩
  | 6 => ⟨S4000000, .f32⟩
  | 7 => ⟨S4000000, .i32⟩
  | 8 => ⟨S4000000, .i32⟩
  | 9 => ⟨S4096, .i32⟩
  | 10 => ⟨S4096, .i32⟩
  | 11 => ⟨S4096, .i32⟩
  | 12 => ⟨S300000x64, .f32⟩
  | 13 => ⟨S4000000x1, .f32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S4000000x1, .i32⟩
  | 22 => ⟨S4000000x64, .f32⟩
  | 23 => ⟨S4000000x64, .f32⟩
  | 24 => ⟨S4000000x64, .f32⟩
  | 25 => ⟨S_, .f32⟩
  | 26 => ⟨S300000x64, .f32⟩
  | 27 => ⟨S4000000x1, .i32⟩
  | 28 => ⟨S300000x64, .f32⟩
  | 29 => ⟨S1x64x64, .f32⟩
  | 30 => ⟨S64x64, .f32⟩
  | 31 => ⟨S300000x64, .f32⟩
  | 32 => ⟨S1x1x64, .f32⟩
  | 33 => ⟨S1x64, .f32⟩
  | 34 => ⟨S300000x64, .f32⟩
  | 35 => ⟨S300000x64, .f32⟩
  | 36 => ⟨S300000x64, .f32⟩
  | 37 => ⟨S1x64x64, .f32⟩
  | 38 => ⟨S64x64, .f32⟩
  | 39 => ⟨S300000x64, .f32⟩
  | 40 => ⟨S1x1x64, .f32⟩
  | 41 => ⟨S1x64, .f32⟩
  | 42 => ⟨S300000x64, .f32⟩
  | 43 => ⟨S300000x64, .f32⟩
  | 44 => ⟨S300000x64, .f32⟩
  | 45 => ⟨S_, .f32⟩
  | 46 => ⟨S_, .f32⟩
  | 47 => ⟨S300000x64, .f32⟩
  | 48 => ⟨S300000x64, .i1⟩
  | 49 => ⟨S_, .f32⟩
  | 50 => ⟨S300000x64, .f32⟩
  | 51 => ⟨S300000x64, .f32⟩
  | 52 => ⟨S300000x64, .f32⟩
  | 53 => ⟨S300000x64, .f32⟩
  | 54 => ⟨S_, .f32⟩
  | 55 => ⟨S300000, .f32⟩
  | 56 => ⟨S300000x1, .f32⟩
  | 57 => ⟨S300000x1, .f32⟩
  | 58 => ⟨S_, .f32⟩
  | 59 => ⟨S300000x1, .f32⟩
  | 60 => ⟨S300000x1, .f32⟩
  | 61 => ⟨S300000x64, .f32⟩
  | 62 => ⟨S300000x64, .f32⟩
  | 63 => ⟨S4000000x1, .f32⟩
  | 64 => ⟨S_, .i32⟩
  | 65 => ⟨S4000000, .i32⟩
  | 66 => ⟨S4000000, .i1⟩
  | 67 => ⟨S_, .i32⟩
  | 68 => ⟨S4000000, .i32⟩
  | 69 => ⟨S4000000, .i32⟩
  | 70 => ⟨S4000000, .i32⟩
  | 71 => ⟨S4000000x1, .i32⟩
  | 72 => ⟨S4000000x64, .f32⟩
  | 73 => ⟨S4000000x64, .f32⟩
  | 74 => ⟨S4000000x64, .f32⟩
  | 75 => ⟨S_, .f32⟩
  | 76 => ⟨S300000x64, .f32⟩
  | 77 => ⟨S4000000x1, .i32⟩
  | 78 => ⟨S300000x64, .f32⟩
  | 79 => ⟨S1x64x64, .f32⟩
  | 80 => ⟨S64x64, .f32⟩
  | 81 => ⟨S300000x64, .f32⟩
  | 82 => ⟨S1x1x64, .f32⟩
  | 83 => ⟨S1x64, .f32⟩
  | 84 => ⟨S300000x64, .f32⟩
  | 85 => ⟨S300000x64, .f32⟩
  | 86 => ⟨S300000x64, .f32⟩
  | 87 => ⟨S1x64x64, .f32⟩
  | 88 => ⟨S64x64, .f32⟩
  | 89 => ⟨S300000x64, .f32⟩
  | 90 => ⟨S1x1x64, .f32⟩
  | 91 => ⟨S1x64, .f32⟩
  | 92 => ⟨S300000x64, .f32⟩
  | 93 => ⟨S300000x64, .f32⟩
  | 94 => ⟨S300000x64, .f32⟩
  | 95 => ⟨S_, .f32⟩
  | 96 => ⟨S_, .f32⟩
  | 97 => ⟨S300000x64, .f32⟩
  | 98 => ⟨S300000x64, .i1⟩
  | 99 => ⟨S_, .f32⟩
  | 100 => ⟨S300000x64, .f32⟩
  | 101 => ⟨S300000x64, .f32⟩
  | 102 => ⟨S300000x64, .f32⟩
  | 103 => ⟨S300000x64, .f32⟩
  | 104 => ⟨S_, .f32⟩
  | 105 => ⟨S300000, .f32⟩
  | 106 => ⟨S300000x1, .f32⟩
  | 107 => ⟨S300000x1, .f32⟩
  | 108 => ⟨S_, .f32⟩
  | 109 => ⟨S300000x1, .f32⟩
  | 110 => ⟨S300000x1, .f32⟩
  | 111 => ⟨S300000x64, .f32⟩
  | 112 => ⟨S300000x64, .f32⟩
  | 113 => ⟨S4000000x1, .f32⟩
  | 114 => ⟨S_, .i32⟩
  | 115 => ⟨S4000000, .i32⟩
  | 116 => ⟨S4000000, .i1⟩
  | 117 => ⟨S_, .i32⟩
  | 118 => ⟨S4000000, .i32⟩
  | 119 => ⟨S4000000, .i32⟩
  | 120 => ⟨S4000000, .i32⟩
  | 121 => ⟨S4000000x1, .i32⟩
  | 122 => ⟨S4000000x64, .f32⟩
  | 123 => ⟨S4000000x64, .f32⟩
  | 124 => ⟨S4000000x64, .f32⟩
  | 125 => ⟨S_, .f32⟩
  | 126 => ⟨S300000x64, .f32⟩
  | 127 => ⟨S4000000x1, .i32⟩
  | _ => ⟨S100000x64, .f32⟩

abbrev hbmTy0_1 (i : Nat) : BufTy := match i % 128 with
  | 0 => ⟨S300000x64, .f32⟩
  | 1 => ⟨S1x64x64, .f32⟩
  | 2 => ⟨S64x64, .f32⟩
  | 3 => ⟨S300000x64, .f32⟩
  | 4 => ⟨S1x1x64, .f32⟩
  | 5 => ⟨S1x64, .f32⟩
  | 6 => ⟨S300000x64, .f32⟩
  | 7 => ⟨S300000x64, .f32⟩
  | 8 => ⟨S300000x64, .f32⟩
  | 9 => ⟨S1x64x64, .f32⟩
  | 10 => ⟨S64x64, .f32⟩
  | 11 => ⟨S300000x64, .f32⟩
  | 12 => ⟨S1x1x64, .f32⟩
  | 13 => ⟨S1x64, .f32⟩
  | 14 => ⟨S300000x64, .f32⟩
  | 15 => ⟨S300000x64, .f32⟩
  | 16 => ⟨S300000x64, .f32⟩
  | 17 => ⟨S_, .f32⟩
  | 18 => ⟨S_, .f32⟩
  | 19 => ⟨S300000x64, .f32⟩
  | 20 => ⟨S300000x64, .i1⟩
  | 21 => ⟨S_, .f32⟩
  | 22 => ⟨S300000x64, .f32⟩
  | 23 => ⟨S300000x64, .f32⟩
  | 24 => ⟨S300000x64, .f32⟩
  | 25 => ⟨S300000x64, .f32⟩
  | 26 => ⟨S_, .f32⟩
  | 27 => ⟨S300000, .f32⟩
  | 28 => ⟨S300000x1, .f32⟩
  | 29 => ⟨S300000x1, .f32⟩
  | 30 => ⟨S_, .f32⟩
  | 31 => ⟨S300000x1, .f32⟩
  | 32 => ⟨S300000x1, .f32⟩
  | 33 => ⟨S300000x64, .f32⟩
  | 34 => ⟨S300000x64, .f32⟩
  | 35 => ⟨S300000x256, .f32⟩
  | 36 => ⟨S100000x256, .f32⟩
  | 37 => ⟨S200000x256, .f32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S4096x256, .f32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S4096x256, .f32⟩
  | 56 => ⟨S_, .i32⟩
  | 57 => ⟨S4096, .i32⟩
  | 58 => ⟨S4096, .i1⟩
  | 59 => ⟨S_, .i32⟩
  | 60 => ⟨S4096, .i32⟩
  | 61 => ⟨S4096, .i32⟩
  | 62 => ⟨S4096, .i32⟩
  | 63 => ⟨S4096x1, .i32⟩
  | 64 => ⟨S4096x256, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v30 : Ref sig .tc := ⟨.hbm, 52, rfl⟩
abbrev main_call1_v0 : Ref sig .tc := ⟨.hbm, 53, rfl⟩
abbrev main_call1_cst : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_3 : Ref sig .tc := ⟨.hbm, 64, rfl⟩
abbrev main_v37 : Ref sig .tc := ⟨.hbm, 65, rfl⟩
abbrev main_v38 : Ref sig .tc := ⟨.hbm, 66, rfl⟩
abbrev main_c_4 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_6 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_v65 : Ref sig .tc := ⟨.hbm, 102, rfl⟩
abbrev main_call3_v0 : Ref sig .tc := ⟨.hbm, 103, rfl⟩
abbrev main_call3_cst : Ref sig .tc := ⟨.hbm, 104, rfl⟩
abbrev main_call3_v1 : Ref sig .tc := ⟨.hbm, 105, rfl⟩
abbrev main_call3_v2 : Ref sig .tc := ⟨.hbm, 106, rfl⟩
abbrev main_v66 : Ref sig .tc := ⟨.hbm, 107, rfl⟩
abbrev main_cst_7 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_c_8 : Ref sig .tc := ⟨.hbm, 114, rfl⟩
abbrev main_v72 : Ref sig .tc := ⟨.hbm, 115, rfl⟩
abbrev main_v73 : Ref sig .tc := ⟨.hbm, 116, rfl⟩
abbrev main_c_9 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_10 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_11 : Ref sig .tc := ⟨.hbm, 145, rfl⟩
abbrev main_call4_cst : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_v100 : Ref sig .tc := ⟨.hbm, 152, rfl⟩
abbrev main_call5_v0 : Ref sig .tc := ⟨.hbm, 153, rfl⟩
abbrev main_call5_cst : Ref sig .tc := ⟨.hbm, 154, rfl⟩
abbrev main_call5_v1 : Ref sig .tc := ⟨.hbm, 155, rfl⟩
abbrev main_call5_v2 : Ref sig .tc := ⟨.hbm, 156, rfl⟩
abbrev main_v101 : Ref sig .tc := ⟨.hbm, 157, rfl⟩
abbrev main_cst_12 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_c_13 : Ref sig .tc := ⟨.hbm, 166, rfl⟩
abbrev main_v109 : Ref sig .tc := ⟨.hbm, 167, rfl⟩
abbrev main_v110 : Ref sig .tc := ⟨.hbm, 168, rfl⟩
abbrev main_c_14 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_c_15 : Ref sig .tc := ⟨.hbm, 175, rfl⟩
abbrev main_v116 : Ref sig .tc := ⟨.hbm, 176, rfl⟩
abbrev main_v117 : Ref sig .tc := ⟨.hbm, 177, rfl⟩
abbrev main_c_16 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_c_17 : Ref sig .tc := ⟨.hbm, 184, rfl⟩
abbrev main_v123 : Ref sig .tc := ⟨.hbm, 185, rfl⟩
abbrev main_v124 : Ref sig .tc := ⟨.hbm, 186, rfl⟩
abbrev main_c_18 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩

abbrev nD : Nat := 1
abbrev τ : Topo := Topo.v7x

variable {F : FTy → Type} [FloatOps F]

class Facts₀ : Prop where
  concatenates_S100000x64_S200000x64_S300000x64_d0 : Shape.Concatenates [S100000x64, S200000x64] S300000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S300000x64 : S_.BroadcastsInDim S300000x64 (![] : Fin 0 → Fin S300000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  bcast_S1x64_S300000x64_0_1 : S1x64.BroadcastsInDim S300000x64 (![0, 1] : Fin 2 → Fin S300000x64.rank)
  reducesTo_S300000x64_S300000_d1 : S300000x64.ReducesTo [1] S300000
  h_S_ : 0 < S_.numel
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S300000x1_S300000x64_0_1 : S300000x1.BroadcastsInDim S300000x64 (![0, 1] : Fin 2 → Fin S300000x64.rank)
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S300000x64_S300000x64_S300000x64_S300000x64_S300000x256_d1 : Shape.Concatenates [S300000x64, S300000x64, S300000x64, S300000x64] S300000x256 1
  slices_S300000x256_S100000x256_0_0 : S300000x256.Slices ![0, 0] S100000x256
  slices_S300000x256_S200000x256_100000_0 : S300000x256.Slices ![100000, 0] S200000x256
  bcast_S_S4096 : S_.BroadcastsInDim S4096 (![] : Fin 0 → Fin S4096.rank)
  bcast_S4096_S4096x1_0 : S4096.BroadcastsInDim S4096x1 (![0] : Fin 1 → Fin S4096x1.rank)
  gather_S300000x64_S4000000x1_S4000000x64_1_0_n_n_0_1_164_wf : GatherDims.WF S300000x64 S4000000x1 S4000000x64 [1] [0] [] [0] [] 1 ![1, 64]
  scatter_S300000x64_S4000000x1_S4000000x64_1_0_0_1_wf : ScatterDims.WF S300000x64 S4000000x1 S4000000x64 [1] [0] [0] 1
  dot_S300000x64_S64x64_S300000x64_1_0_0_1_n_n_wf : DotDims.WF S300000x64 S64x64 S300000x64 [1] [0] [0] [1] [] []
  gather_S100000x256_S4096x1_S4096x256_1_0_n_n_0_1_1256_wf : GatherDims.WF S100000x256 S4096x1 S4096x256 [1] [0] [] [0] [] 1 ![1, 256]
  gather_S200000x256_S4096x1_S4096x256_1_0_n_n_0_1_1256_wf : GatherDims.WF S200000x256 S4096x1 S4096x256 [1] [0] [] [0] [] 1 ![1, 256]

variable [Facts₀]

def gather_S300000x64_S4000000x1_S4000000x64_1_0_n_n_0_1_164 : GatherDims S300000x64 S4000000x1 S4000000x64 where
  offsetDims := [1]
  collapsedSliceDims := [0]
  operandBatchingDims := []
  startIndicesBatchingDims := []
  startIndexMap := [0]
  indexVectorDim := 1
  sliceSizes := ![1, 64]
  wf := gather_S300000x64_S4000000x1_S4000000x64_1_0_n_n_0_1_164_wf
def scatter_S300000x64_S4000000x1_S4000000x64_1_0_0_1 : ScatterDims S300000x64 S4000000x1 S4000000x64 where
  updateWindowDims := [1]
  insertedWindowDims := [0]
  scatterDimsToOperandDims := [0]
  indexVectorDim := 1
  wf := scatter_S300000x64_S4000000x1_S4000000x64_1_0_0_1_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def gather_S200000x256_S4096x1_S4096x256_1_0_n_n_0_1_1256 : GatherDims S200000x256 S4096x1 S4096x256 where
  offsetDims := [1]
  collapsedSliceDims := [0]
  operandBatchingDims := []
  startIndicesBatchingDims := []
  startIndexMap := [0]
  indexVectorDim := 1
  sliceSizes := ![1, 256]
  wf := gather_S200000x256_S4096x1_S4096x256_1_0_n_n_0_1_1256_wf

class Facts : Prop extends Facts₀ where

variable [Facts]
-- ==== Proof.KBody0.lean ====
/- Region 0 of the kernel program as printed, at an arbitrary entry valuation V of the TensorCore's buffers:
   the blocks the pipeline hands the body at a grid point, what the body leaves in its two output
   staging buffers as closed functions of the six input blocks, the body's separation-logic triple,
   the pipeline's proof data, and the body obligation at every grid point. Everything is generic
   in the float valuation F. -/
import proofs.«152006_j19688130085762_1_alg».proof.Proof.Gen.Kernel.Launch
import proofs.«152006_j19688130085762_1_alg».proof.Proof.Gen.Kernel.Skeleton
import proofs.«152006_j19688130085762_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it (V). -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every grid point, whether or not the pipeline
    fetched it there (an unfetched window's block index has not moved since the last fetch), for any proof
    data whose array is V's and whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: every load and store is of a whole staging buffer -/

theorem zeros0 : (![0, 0] : Fin 2 → Nat) = fun _ => 0 := funext fun a => by fin_cases a <;> rfl

abbrev rA0 : Rect S6000x64 := Rect.unit (s := S6000x64) ![0, 0] S6000x64.size inb_S6000x64_S6000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-! ## What the body leaves in each output window's buffer -/

/-- Window 6's staging buffer after the body, from the input windows' blocks: its one store, of the
    activated sum of the two matrix products. -/
def egoOut0 (x0 x1 : Vec F S6000x64 .f32) (x2 : Vec F S64x64 .f32) (x3 : Vec F S1x64 .f32) (x4 : Vec F S64x64 .f32) (x5 : Vec F S1x64 .f32) : Vec F S6000x64 .f32 :=
  View.canon [⟨rA0, k0_pay1 (View.ld x0 rA0) (View.ld x1 rA0) (View.ld x2 rW0) (View.ld x4 rW0) (View.ld x3 rB0) (View.ld x5 rB0)⟩]

/-- Window 7's staging buffer after the body: its one store, of the row-normalised activation. -/
def normOut0 (x0 x1 : Vec F S6000x64 .f32) (x2 : Vec F S64x64 .f32) (x3 : Vec F S1x64 .f32) (x4 : Vec F S64x64 .f32) (x5 : Vec F S1x64 .f32) : Vec F S6000x64 .f32 :=
  View.canon [⟨rA0, k0_pay2 (View.ld x0 rA0) (View.ld x1 rA0) (View.ld x2 rW0) (View.ld x4 rW0) (View.ld x3 rB0) (View.ld x5 rB0)⟩]

/-- A whole-buffer load reads the buffer and a single whole-buffer store leaves its payload. -/
theorem egoOut0_eq (x0 x1 : Vec F S6000x64 .f32) (x2 : Vec F S64x64 .f32) (x3 : Vec F S1x64 .f32) (x4 : Vec F S64x64 .f32) (x5 : Vec F S1x64 .f32) :
    egoOut0 x0 x1 x2 x3 x4 x5 = k0_pay1 x0 x1 x2 x4 x3 x5 := by
  unfold egoOut0
  rw [View.canon_unit_zero (S := S6000x64) zeros0, View.ld_unit_zero (S := S6000x64) zeros0, View.ld_unit_zero (S := S6000x64) zeros0,
    View.ld_unit_zero (S := S64x64) zeros0, View.ld_unit_zero (S := S64x64) zeros0, View.ld_unit_zero (S := S1x64) zeros0, View.ld_unit_zero (S := S1x64) zeros0]

theorem normOut0_eq (x0 x1 : Vec F S6000x64 .f32) (x2 : Vec F S64x64 .f32) (x3 : Vec F S1x64 .f32) (x4 : Vec F S64x64 .f32) (x5 : Vec F S1x64 .f32) :
    normOut0 x0 x1 x2 x3 x4 x5 = k0_pay2 x0 x1 x2 x4 x3 x5 := by
  unfold normOut0
  rw [View.canon_unit_zero (S := S6000x64) zeros0, View.ld_unit_zero (S := S6000x64) zeros0, View.ld_unit_zero (S := S6000x64) zeros0,
    View.ld_unit_zero (S := S64x64) zeros0, View.ld_unit_zero (S := S64x64) zeros0, View.ld_unit_zero (S := S1x64) zeros0, View.ld_unit_zero (S := S1x64) zeros0]

/-- The single whole-buffer store covers the buffer. -/
theorem cover0 (p0 : Vec F S6000x64 .f32) (y : S6000x64.Idx) :
    ∃ pc ∈ ([⟨rA0, p0⟩] : List (View.Piece (Elt F) S6000x64 .f32)), y ∈ pc.1.set :=
  ⟨_, List.mem_singleton_self _, View.mem_set_unit_zero (S := S6000x64) zeros0 inb_S6000x64_S6000x64_0_0 y⟩

/-! ## The body's triple -/

set_option maxHeartbeats 4000000 in
/-- The kernel body on whole staging buffers, the six inputs' at read contents x0..x5 and the two outputs' at
    anything, runs to a continuation that holds the inputs' as they were and the outputs' at egoOut0 and
    normOut0 of the inputs. -/
theorem sound_kernel0 (c : Dev nD) (E : Set ℕ) (i : grid0.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 x1 : Vec F S6000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (egoOut0 x0 x1 x2 x3 x4 x5) ∗ owns (c : Thread nD τ) arg8 fullShare (normOut0 x0 x1 x2 x3 x4 x5)) -∗ K ⟨⟩))
      ⊢ wp frame (wpE (defs₀ (F := F)) Variants.none c none) E (cc0__transform_kernel i arg1 harg1 arg2 harg2 arg3 harg3 arg4 harg4 arg5 harg5 arg6 harg6 arg7 harg7 arg8 harg8) K := by
  simp only [cc0__transform_kernel_eq_skeleton]; unfold cc0__transform_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The proof data of pipeline 0 on core c: the arrays as the region finds them (V); after the body at grid
    point t each input's buffer at its block and the two outputs' at egoOut0 / normOut0 of the input blocks;
    the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => egoOut0 (blk0 V c 0 t) (blk0 V c 1 t) (blk0 V c 2 t) (blk0 V c 3 t) (blk0 V c 4 t) (blk0 V c 5 t)
    | ⟨7, _⟩ => normOut0 (blk0 V c 0 t) (blk0 V c 1 t) (blk0 V c 2 t) (blk0 V c 3 t) (blk0 V c 4 t) (blk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = egoOut0 (blk0 V c 0 t) (blk0 V c 1 t) (blk0 V c 2 t) (blk0 V c 3 t) (blk0 V c 4 t) (blk0 V c 5 t) := by dsimp only [dat0]
theorem after0_7 (c : Dev nD) (t : Fin cfg0.N) : (dat0 V c).after 7 t = normOut0 (blk0 V c 0 t) (blk0 V c 1 t) (blk0 V c 2 t) (blk0 V c 3 t) (blk0 V c 4 t) (blk0 V c 5 t) := by dsimp only [dat0]

/-- Each input's current staging buffer holds its block at every grid point, fetched there or not. -/
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d

/-! ## The body obligation, at a generic grid point -/

/-- What the body is called with at grid point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any grid point: the inputs' buffers hold their blocks, so the body's triple applies; the
    invariant and the core's owed waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/- Region 1 of the kernel program as printed, at an arbitrary entry valuation V of the TensorCore's buffers:
   the blocks the pipeline hands the body at a grid point, what the body leaves in its two output
   staging buffers as closed functions of the six input blocks, the body's separation-logic triple,
   the pipeline's proof data, and the body obligation at every grid point. Everything is generic
   in the float valuation F. -/
import proofs.«152006_j19688130085762_1_alg».proof.Proof.Gen.Kernel.Launch
import proofs.«152006_j19688130085762_1_alg».proof.Proof.Gen.Kernel.Skeleton
import proofs.«152006_j19688130085762_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it (V). -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every grid point, whether or not the pipeline
    fetched it there (an unfetched window's block index has not moved since the last fetch), for any proof
    data whose array is V's and whose body leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and store is of a whole staging buffer -/

theorem zeros1 : (![0, 0] : Fin 2 → Nat) = fun _ => 0 := funext fun a => by fin_cases a <;> rfl

abbrev rA1 : Rect S6000x64 := Rect.unit (s := S6000x64) ![0, 0] S6000x64.size inb_S6000x64_S6000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-! ## What the body leaves in each output window's buffer -/

/-- Window 6's staging buffer after the body, from the input windows' blocks: its one store, of the
    activated sum of the two matrix products. -/
def egoOut1 (x0 x1 : Vec F S6000x64 .f32) (x2 : Vec F S64x64 .f32) (x3 : Vec F S1x64 .f32) (x4 : Vec F S64x64 .f32) (x5 : Vec F S1x64 .f32) : Vec F S6000x64 .f32 :=
  View.canon [⟨rA1, k1_pay1 (View.ld x0 rA1) (View.ld x1 rA1) (View.ld x2 rW1) (View.ld x4 rW1) (View.ld x3 rB1) (View.ld x5 rB1)⟩]

/-- Window 7's staging buffer after the body: its one store, of the row-normalised activation. -/
def normOut1 (x0 x1 : Vec F S6000x64 .f32) (x2 : Vec F S64x64 .f32) (x3 : Vec F S1x64 .f32) (x4 : Vec F S64x64 .f32) (x5 : Vec F S1x64 .f32) : Vec F S6000x64 .f32 :=
  View.canon [⟨rA1, k1_pay2 (View.ld x0 rA1) (View.ld x1 rA1) (View.ld x2 rW1) (View.ld x4 rW1) (View.ld x3 rB1) (View.ld x5 rB1)⟩]

/-- A whole-buffer load reads the buffer and a single whole-buffer store leaves its payload. -/
theorem egoOut1_eq (x0 x1 : Vec F S6000x64 .f32) (x2 : Vec F S64x64 .f32) (x3 : Vec F S1x64 .f32) (x4 : Vec F S64x64 .f32) (x5 : Vec F S1x64 .f32) :
    egoOut1 x0 x1 x2 x3 x4 x5 = k1_pay1 x0 x1 x2 x4 x3 x5 := by
  unfold egoOut1
  rw [View.canon_unit_zero (S := S6000x64) zeros1, View.ld_unit_zero (S := S6000x64) zeros1, View.ld_unit_zero (S := S6000x64) zeros1,
    View.ld_unit_zero (S := S64x64) zeros1, View.ld_unit_zero (S := S64x64) zeros1, View.ld_unit_zero (S := S1x64) zeros1, View.ld_unit_zero (S := S1x64) zeros1]

theorem normOut1_eq (x0 x1 : Vec F S6000x64 .f32) (x2 : Vec F S64x64 .f32) (x3 : Vec F S1x64 .f32) (x4 : Vec F S64x64 .f32) (x5 : Vec F S1x64 .f32) :
    normOut1 x0 x1 x2 x3 x4 x5 = k1_pay2 x0 x1 x2 x4 x3 x5 := by
  unfold normOut1
  rw [View.canon_unit_zero (S := S6000x64) zeros1, View.ld_unit_zero (S := S6000x64) zeros1, View.ld_unit_zero (S := S6000x64) zeros1,
    View.ld_unit_zero (S := S64x64) zeros1, View.ld_unit_zero (S := S64x64) zeros1, View.ld_unit_zero (S := S1x64) zeros1, View.ld_unit_zero (S := S1x64) zeros1]

/-- The single whole-buffer store covers the buffer. -/
theorem cover1 (p0 : Vec F S6000x64 .f32) (y : S6000x64.Idx) :
    ∃ pc ∈ ([⟨rA1, p0⟩] : List (View.Piece (Elt F) S6000x64 .f32)), y ∈ pc.1.set :=
  ⟨_, List.mem_singleton_self _, View.mem_set_unit_zero (S := S6000x64) zeros1 inb_S6000x64_S6000x64_0_0 y⟩

/-! ## The body's triple -/

set_option maxHeartbeats 4000000 in
/-- The kernel body on whole staging buffers, the six inputs' at read contents x0..x5 and the two outputs' at
    anything, runs to a continuation that holds the inputs' as they were and the outputs' at egoOut1 and
    normOut1 of the inputs. -/
theorem sound_kernel1 (c : Dev nD) (E : Set ℕ) (i : grid1.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 x1 : Vec F S6000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (egoOut1 x0 x1 x2 x3 x4 x5) ∗ owns (c : Thread nD τ) arg8 fullShare (normOut1 x0 x1 x2 x3 x4 x5)) -∗ K ⟨⟩))
      ⊢ wp frame (wpE (defs₀ (F := F)) Variants.none c none) E (cc1__transform_kernel i arg1 harg1 arg2 harg2 arg3 harg3 arg4 harg4 arg5 harg5 arg6 harg6 arg7 harg7 arg8 harg8) K := by
  simp only [cc1__transform_kernel_eq_skeleton]; unfold cc1__transform_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-! ## The pipeline's proof data -/

/-- The proof data of pipeline 1 on core c: the arrays as the region finds them (V); after the body at grid
    point t each input's buffer at its block and the two outputs' at egoOut1 / normOut1 of the input blocks;
    the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => egoOut1 (blk1 V c 0 t) (blk1 V c 1 t) (blk1 V c 2 t) (blk1 V c 3 t) (blk1 V c 4 t) (blk1 V c 5 t)
    | ⟨7, _⟩ => normOut1 (blk1 V c 0 t) (blk1 V c 1 t) (blk1 V c 2 t) (blk1 V c 3 t) (blk1 V c 4 t) (blk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = egoOut1 (blk1 V c 0 t) (blk1 V c 1 t) (blk1 V c 2 t) (blk1 V c 3 t) (blk1 V c 4 t) (blk1 V c 5 t) := by dsimp only [dat1]
theorem after1_7 (c : Dev nD) (t : Fin cfg1.N) : (dat1 V c).after 7 t = normOut1 (blk1 V c 0 t) (blk1 V c 1 t) (blk1 V c 2 t) (blk1 V c 3 t) (blk1 V c 4 t) (blk1 V c 5 t) := by dsimp only [dat1]

/-- Each input's current staging buffer holds its block at every grid point, fetched there or not. -/
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d

/-! ## The body obligation, at a generic grid point -/

/-- What the body is called with at grid point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any grid point: the inputs' buffers hold their blocks, so the body's triple applies; the
    invariant and the core's owed waits pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/- Region 2 of the kernel program as printed, at an arbitrary entry valuation V of the TensorCore's buffers:
   the blocks the pipeline hands the body at a grid point, what the body leaves in its two output
   staging buffers as closed functions of the six input blocks, the body's separation-logic triple,
   the pipeline's proof data, and the body obligation at every grid point. Everything is generic
   in the float valuation F. -/
import proofs.«152006_j19688130085762_1_alg».proof.Proof.Gen.Kernel.Launch
import proofs.«152006_j19688130085762_1_alg».proof.Proof.Gen.Kernel.Skeleton
import proofs.«152006_j19688130085762_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it (V). -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every grid point, whether or not the pipeline
    fetched it there (an unfetched window's block index has not moved since the last fetch), for any proof
    data whose array is V's and whose body leaves the block in place. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: every load and store is of a whole staging buffer -/

theorem zeros2 : (![0, 0] : Fin 2 → Nat) = fun _ => 0 := funext fun a => by fin_cases a <;> rfl

abbrev rA2 : Rect S6000x64 := Rect.unit (s := S6000x64) ![0, 0] S6000x64.size inb_S6000x64_S6000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-! ## What the body leaves in each output window's buffer -/

/-- Window 6's staging buffer after the body, from the input windows' blocks: its one store, of the
    activated sum of the two matrix products. -/
def egoOut2 (x0 x1 : Vec F S6000x64 .f32) (x2 : Vec F S64x64 .f32) (x3 : Vec F S1x64 .f32) (x4 : Vec F S64x64 .f32) (x5 : Vec F S1x64 .f32) : Vec F S6000x64 .f32 :=
  View.canon [⟨rA2, k2_pay1 (View.ld x0 rA2) (View.ld x1 rA2) (View.ld x2 rW2) (View.ld x4 rW2) (View.ld x3 rB2) (View.ld x5 rB2)⟩]

/-- Window 7's staging buffer after the body: its one store, of the row-normalised activation. -/
def normOut2 (x0 x1 : Vec F S6000x64 .f32) (x2 : Vec F S64x64 .f32) (x3 : Vec F S1x64 .f32) (x4 : Vec F S64x64 .f32) (x5 : Vec F S1x64 .f32) : Vec F S6000x64 .f32 :=
  View.canon [⟨rA2, k2_pay2 (View.ld x0 rA2) (View.ld x1 rA2) (View.ld x2 rW2) (View.ld x4 rW2) (View.ld x3 rB2) (View.ld x5 rB2)⟩]

/-- A whole-buffer load reads the buffer and a single whole-buffer store leaves its payload. -/
theorem egoOut2_eq (x0 x1 : Vec F S6000x64 .f32) (x2 : Vec F S64x64 .f32) (x3 : Vec F S1x64 .f32) (x4 : Vec F S64x64 .f32) (x5 : Vec F S1x64 .f32) :
    egoOut2 x0 x1 x2 x3 x4 x5 = k2_pay1 x0 x1 x2 x4 x3 x5 := by
  unfold egoOut2
  rw [View.canon_unit_zero (S := S6000x64) zeros2, View.ld_unit_zero (S := S6000x64) zeros2, View.ld_unit_zero (S := S6000x64) zeros2,
    View.ld_unit_zero (S := S64x64) zeros2, View.ld_unit_zero (S := S64x64) zeros2, View.ld_unit_zero (S := S1x64) zeros2, View.ld_unit_zero (S := S1x64) zeros2]

theorem normOut2_eq (x0 x1 : Vec F S6000x64 .f32) (x2 : Vec F S64x64 .f32) (x3 : Vec F S1x64 .f32) (x4 : Vec F S64x64 .f32) (x5 : Vec F S1x64 .f32) :
    normOut2 x0 x1 x2 x3 x4 x5 = k2_pay2 x0 x1 x2 x4 x3 x5 := by
  unfold normOut2
  rw [View.canon_unit_zero (S := S6000x64) zeros2, View.ld_unit_zero (S := S6000x64) zeros2, View.ld_unit_zero (S := S6000x64) zeros2,
    View.ld_unit_zero (S := S64x64) zeros2, View.ld_unit_zero (S := S64x64) zeros2, View.ld_unit_zero (S := S1x64) zeros2, View.ld_unit_zero (S := S1x64) zeros2]

/-- The single whole-buffer store covers the buffer. -/
theorem cover2 (p0 : Vec F S6000x64 .f32) (y : S6000x64.Idx) :
    ∃ pc ∈ ([⟨rA2, p0⟩] : List (View.Piece (Elt F) S6000x64 .f32)), y ∈ pc.1.set :=
  ⟨_, List.mem_singleton_self _, View.mem_set_unit_zero (S := S6000x64) zeros2 inb_S6000x64_S6000x64_0_0 y⟩

/-! ## The body's triple -/

set_option maxHeartbeats 4000000 in
/-- The kernel body on whole staging buffers, the six inputs' at read contents x0..x5 and the two outputs' at
    anything, runs to a continuation that holds the inputs' as they were and the outputs' at egoOut2 and
    normOut2 of the inputs. -/
theorem sound_kernel2 (c : Dev nD) (E : Set ℕ) (i : grid2.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 x1 : Vec F S6000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (egoOut2 x0 x1 x2 x3 x4 x5) ∗ owns (c : Thread nD τ) arg8 fullShare (normOut2 x0 x1 x2 x3 x4 x5)) -∗ K ⟨⟩))
      ⊢ wp frame (wpE (defs₀ (F := F)) Variants.none c none) E (cc2__transform_kernel i arg1 harg1 arg2 harg2 arg3 harg3 arg4 harg4 arg5 harg5 arg6 harg6 arg7 harg7 arg8 harg8) K := by
  simp only [cc2__transform_kernel_eq_skeleton]; unfold cc2__transform_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

/-! ## The pipeline's proof data -/

/-- The proof data of pipeline 2 on core c: the arrays as the region finds them (V); after the body at grid
    point t each input's buffer at its block and the two outputs' at egoOut2 / normOut2 of the input blocks;
    the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => egoOut2 (blk2 V c 0 t) (blk2 V c 1 t) (blk2 V c 2 t) (blk2 V c 3 t) (blk2 V c 4 t) (blk2 V c 5 t)
    | ⟨7, _⟩ => normOut2 (blk2 V c 0 t) (blk2 V c 1 t) (blk2 V c 2 t) (blk2 V c 3 t) (blk2 V c 4 t) (blk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = egoOut2 (blk2 V c 0 t) (blk2 V c 1 t) (blk2 V c 2 t) (blk2 V c 3 t) (blk2 V c 4 t) (blk2 V c 5 t) := by dsimp only [dat2]
theorem after2_7 (c : Dev nD) (t : Fin cfg2.N) : (dat2 V c).after 7 t = normOut2 (blk2 V c 0 t) (blk2 V c 1 t) (blk2 V c 2 t) (blk2 V c 3 t) (blk2 V c 4 t) (blk2 V c 5 t) := by dsimp only [dat2]

/-- Each input's current staging buffer holds its block at every grid point, fetched there or not. -/
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d
theorem before2_5 (c : Dev nD) (t : Fin cfg2.N) (d) : (dat2 V c).before 5 t d = blk2 V c 5 t :=
  before2_5_of V (dat2 V c) (A_eq2 V c 5) (after2_5 V c) t d

/-! ## The body obligation, at a generic grid point -/

/-- What the body is called with at grid point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
/-- The body at any grid point: the inputs' buffers hold their blocks, so the body's triple applies; the
    invariant and the core's owed waits pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (blk2 V c 0 t) (blk2 V c 1 t) (blk2 V c 2 t) (blk2 V c 3 t) (blk2 V c 4 t) (blk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/- The run of @main as seven segments — four stretches of host operations around three kernel regions — from the
   launch to the return: the buffer contents at every boundary between segments as a fold from the launch memory, each
   region a pipeline over its windows' arrays at its entry contents, and the conclusion that every execution
   terminates with each unscoped buffer at the last boundary's contents; in particular every argument array ends
   as launched, no host operation writing one and none being an array of a region's windows. -/
import proofs.«152006_j19688130085762_1_alg».proof.Proof.KBody0
import proofs.«152006_j19688130085762_1_alg».proof.Proof.KBody1
import proofs.«152006_j19688130085762_1_alg».proof.Proof.KBody2
import proofs.«152006_j19688130085762_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: host stretches and kernel regions in order, from the launch to the return

## The buffer contents at each boundary between segments -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its windows' arrays at what the pipeline leaves (inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At the exit each of the region's arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its windows' arrays at what the pipeline leaves (inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
/-- At the exit each of the region's arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its windows' arrays at what the pipeline leaves (inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
/-- At the exit each of the region's arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: what @main returns with. -/
abbrev W7 : Dev nD → Valuation τ sig (Elt F) := fun c => StableHlo.after hostOps3 (W6 m ρ c)

/-! ### The arguments end as launched: no host operation writes one, and none is an array of any region's windows,
    so the fold at an argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Kernel region 0 as a segment over the thread state "every unscoped buffer whole at the boundary's contents, the
    generator register at some state, nothing owed": entered at `W1`, left at `W2`. Its windows' arrays are split out of
    the unscoped buffers and joined back at the exit contents; the generator register passes through the invariant. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 as a segment over the thread state "every unscoped buffer whole at the boundary's contents, the
    generator register at some state, nothing owed": entered at `W3`, left at `W4`. Its windows' arrays are split out of
    the unscoped buffers and joined back at the exit contents; the generator register passes through the invariant. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 as a segment over the thread state "every unscoped buffer whole at the boundary's contents, the
    generator register at some state, nothing owed": entered at `W5`, left at `W6`. Its windows' arrays are split out of
    the unscoped buffers and joined back at the exit contents; the generator register passes through the invariant. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

set_option backward.isDefEq.respectTransparency.types false in
/-- The run: from any memory with zero counters, every weakly fair execution of @main on the TensorCores terminates,
    nothing faulting, and in every final state each unscoped buffer holds the last boundary's contents `W7`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- Every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c)⟩)
    (run_all m ρ)

end Cert.Kernel.Hand

end
-- ==== Proof.KIBody0.lean ====
/- Region 0 of the kernel program, at an arbitrary entry valuation V of the TensorCore's buffers:
   the blocks the pipeline hands the body at a grid point, what the body leaves in its two output
   staging buffers as closed functions of the six input blocks, the body's separation-logic triple,
   the pipeline's proof data, and the body obligation at every grid point. Everything is generic
   in the float valuation F. -/
import proofs.«152006_j19688130085762_1_alg».proof.Proof.Gen.KernelIdeal.Launch
import proofs.«152006_j19688130085762_1_alg».proof.Proof.Gen.KernelIdeal.Skeleton
import proofs.«152006_j19688130085762_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it (V). -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every grid point, whether or not the pipeline
    fetched it there (an unfetched window's block index has not moved since the last fetch), for any proof
    data whose array is V's and whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: every load and store is of a whole staging buffer -/

theorem zeros0 : (![0, 0] : Fin 2 → Nat) = fun _ => 0 := funext fun a => by fin_cases a <;> rfl

abbrev rA0 : Rect S6000x64 := Rect.unit (s := S6000x64) ![0, 0] S6000x64.size inb_S6000x64_S6000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-! ## What the body leaves in each output window's buffer -/

/-- Window 6's staging buffer after the body, from the input windows' blocks: its one store, of the
    activated sum of the two matrix products. -/
def egoOut0 (x0 x1 : Vec F S6000x64 .f32) (x2 : Vec F S64x64 .f32) (x3 : Vec F S1x64 .f32) (x4 : Vec F S64x64 .f32) (x5 : Vec F S1x64 .f32) : Vec F S6000x64 .f32 :=
  View.canon [⟨rA0, k0_pay1 (View.ld x0 rA0) (View.ld x1 rA0) (View.ld x2 rW0) (View.ld x4 rW0) (View.ld x3 rB0) (View.ld x5 rB0)⟩]

/-- Window 7's staging buffer after the body: its one store, of the row-normalised activation. -/
def normOut0 (x0 x1 : Vec F S6000x64 .f32) (x2 : Vec F S64x64 .f32) (x3 : Vec F S1x64 .f32) (x4 : Vec F S64x64 .f32) (x5 : Vec F S1x64 .f32) : Vec F S6000x64 .f32 :=
  View.canon [⟨rA0, k0_pay2 (View.ld x0 rA0) (View.ld x1 rA0) (View.ld x2 rW0) (View.ld x4 rW0) (View.ld x3 rB0) (View.ld x5 rB0)⟩]

/-- A whole-buffer load reads the buffer and a single whole-buffer store leaves its payload. -/
theorem egoOut0_eq (x0 x1 : Vec F S6000x64 .f32) (x2 : Vec F S64x64 .f32) (x3 : Vec F S1x64 .f32) (x4 : Vec F S64x64 .f32) (x5 : Vec F S1x64 .f32) :
    egoOut0 x0 x1 x2 x3 x4 x5 = k0_pay1 x0 x1 x2 x4 x3 x5 := by
  unfold egoOut0
  rw [View.canon_unit_zero (S := S6000x64) zeros0, View.ld_unit_zero (S := S6000x64) zeros0, View.ld_unit_zero (S := S6000x64) zeros0,
    View.ld_unit_zero (S := S64x64) zeros0, View.ld_unit_zero (S := S64x64) zeros0, View.ld_unit_zero (S := S1x64) zeros0, View.ld_unit_zero (S := S1x64) zeros0]

theorem normOut0_eq (x0 x1 : Vec F S6000x64 .f32) (x2 : Vec F S64x64 .f32) (x3 : Vec F S1x64 .f32) (x4 : Vec F S64x64 .f32) (x5 : Vec F S1x64 .f32) :
    normOut0 x0 x1 x2 x3 x4 x5 = k0_pay2 x0 x1 x2 x4 x3 x5 := by
  unfold normOut0
  rw [View.canon_unit_zero (S := S6000x64) zeros0, View.ld_unit_zero (S := S6000x64) zeros0, View.ld_unit_zero (S := S6000x64) zeros0,
    View.ld_unit_zero (S := S64x64) zeros0, View.ld_unit_zero (S := S64x64) zeros0, View.ld_unit_zero (S := S1x64) zeros0, View.ld_unit_zero (S := S1x64) zeros0]

/-- The single whole-buffer store covers the buffer. -/
theorem cover0 (p0 : Vec F S6000x64 .f32) (y : S6000x64.Idx) :
    ∃ pc ∈ ([⟨rA0, p0⟩] : List (View.Piece (Elt F) S6000x64 .f32)), y ∈ pc.1.set :=
  ⟨_, List.mem_singleton_self _, View.mem_set_unit_zero (S := S6000x64) zeros0 inb_S6000x64_S6000x64_0_0 y⟩

/-! ## The body's triple -/

set_option maxHeartbeats 4000000 in
/-- The kernel body on whole staging buffers, the six inputs' at read contents x0..x5 and the two outputs' at
    anything, runs to a continuation that holds the inputs' as they were and the outputs' at egoOut0 and
    normOut0 of the inputs. -/
theorem sound_kernel0 (c : Dev nD) (E : Set ℕ) (i : grid0.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 x1 : Vec F S6000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (egoOut0 x0 x1 x2 x3 x4 x5) ∗ owns (c : Thread nD τ) arg8 fullShare (normOut0 x0 x1 x2 x3 x4 x5)) -∗ K ⟨⟩))
      ⊢ wp frame (wpE (defs₀ (F := F)) Variants.none c none) E (cc0__transform_kernel i arg1 harg1 arg2 harg2 arg3 harg3 arg4 harg4 arg5 harg5 arg6 harg6 arg7 harg7 arg8 harg8) K := by
  simp only [cc0__transform_kernel_eq_skeleton]; unfold cc0__transform_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The proof data of pipeline 0 on core c: the arrays as the region finds them (V); after the body at grid
    point t each input's buffer at its block and the two outputs' at egoOut0 / normOut0 of the input blocks;
    the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => egoOut0 (blk0 V c 0 t) (blk0 V c 1 t) (blk0 V c 2 t) (blk0 V c 3 t) (blk0 V c 4 t) (blk0 V c 5 t)
    | ⟨7, _⟩ => normOut0 (blk0 V c 0 t) (blk0 V c 1 t) (blk0 V c 2 t) (blk0 V c 3 t) (blk0 V c 4 t) (blk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = egoOut0 (blk0 V c 0 t) (blk0 V c 1 t) (blk0 V c 2 t) (blk0 V c 3 t) (blk0 V c 4 t) (blk0 V c 5 t) := by dsimp only [dat0]
theorem after0_7 (c : Dev nD) (t : Fin cfg0.N) : (dat0 V c).after 7 t = normOut0 (blk0 V c 0 t) (blk0 V c 1 t) (blk0 V c 2 t) (blk0 V c 3 t) (blk0 V c 4 t) (blk0 V c 5 t) := by dsimp only [dat0]

/-- Each input's current staging buffer holds its block at every grid point, fetched there or not. -/
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d

/-! ## The body obligation, at a generic grid point -/

/-- What the body is called with at grid point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any grid point: the inputs' buffers hold their blocks, so the body's triple applies; the
    invariant and the core's owed waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/- Region 1 of the kernel program, at an arbitrary entry valuation V of the TensorCore's buffers:
   the blocks the pipeline hands the body at a grid point, what the body leaves in its two output
   staging buffers as closed functions of the six input blocks, the body's separation-logic triple,
   the pipeline's proof data, and the body obligation at every grid point. Everything is generic
   in the float valuation F. -/
import proofs.«152006_j19688130085762_1_alg».proof.Proof.Gen.KernelIdeal.Launch
import proofs.«152006_j19688130085762_1_alg».proof.Proof.Gen.KernelIdeal.Skeleton
import proofs.«152006_j19688130085762_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it (V). -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every grid point, whether or not the pipeline
    fetched it there (an unfetched window's block index has not moved since the last fetch), for any proof
    data whose array is V's and whose body leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and store is of a whole staging buffer -/

theorem zeros1 : (![0, 0] : Fin 2 → Nat) = fun _ => 0 := funext fun a => by fin_cases a <;> rfl

abbrev rA1 : Rect S6000x64 := Rect.unit (s := S6000x64) ![0, 0] S6000x64.size inb_S6000x64_S6000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-! ## What the body leaves in each output window's buffer -/

/-- Window 6's staging buffer after the body, from the input windows' blocks: its one store, of the
    activated sum of the two matrix products. -/
def egoOut1 (x0 x1 : Vec F S6000x64 .f32) (x2 : Vec F S64x64 .f32) (x3 : Vec F S1x64 .f32) (x4 : Vec F S64x64 .f32) (x5 : Vec F S1x64 .f32) : Vec F S6000x64 .f32 :=
  View.canon [⟨rA1, k1_pay1 (View.ld x0 rA1) (View.ld x1 rA1) (View.ld x2 rW1) (View.ld x4 rW1) (View.ld x3 rB1) (View.ld x5 rB1)⟩]

/-- Window 7's staging buffer after the body: its one store, of the row-normalised activation. -/
def normOut1 (x0 x1 : Vec F S6000x64 .f32) (x2 : Vec F S64x64 .f32) (x3 : Vec F S1x64 .f32) (x4 : Vec F S64x64 .f32) (x5 : Vec F S1x64 .f32) : Vec F S6000x64 .f32 :=
  View.canon [⟨rA1, k1_pay2 (View.ld x0 rA1) (View.ld x1 rA1) (View.ld x2 rW1) (View.ld x4 rW1) (View.ld x3 rB1) (View.ld x5 rB1)⟩]

/-- A whole-buffer load reads the buffer and a single whole-buffer store leaves its payload. -/
theorem egoOut1_eq (x0 x1 : Vec F S6000x64 .f32) (x2 : Vec F S64x64 .f32) (x3 : Vec F S1x64 .f32) (x4 : Vec F S64x64 .f32) (x5 : Vec F S1x64 .f32) :
    egoOut1 x0 x1 x2 x3 x4 x5 = k1_pay1 x0 x1 x2 x4 x3 x5 := by
  unfold egoOut1
  rw [View.canon_unit_zero (S := S6000x64) zeros1, View.ld_unit_zero (S := S6000x64) zeros1, View.ld_unit_zero (S := S6000x64) zeros1,
    View.ld_unit_zero (S := S64x64) zeros1, View.ld_unit_zero (S := S64x64) zeros1, View.ld_unit_zero (S := S1x64) zeros1, View.ld_unit_zero (S := S1x64) zeros1]

theorem normOut1_eq (x0 x1 : Vec F S6000x64 .f32) (x2 : Vec F S64x64 .f32) (x3 : Vec F S1x64 .f32) (x4 : Vec F S64x64 .f32) (x5 : Vec F S1x64 .f32) :
    normOut1 x0 x1 x2 x3 x4 x5 = k1_pay2 x0 x1 x2 x4 x3 x5 := by
  unfold normOut1
  rw [View.canon_unit_zero (S := S6000x64) zeros1, View.ld_unit_zero (S := S6000x64) zeros1, View.ld_unit_zero (S := S6000x64) zeros1,
    View.ld_unit_zero (S := S64x64) zeros1, View.ld_unit_zero (S := S64x64) zeros1, View.ld_unit_zero (S := S1x64) zeros1, View.ld_unit_zero (S := S1x64) zeros1]

/-- The single whole-buffer store covers the buffer. -/
theorem cover1 (p0 : Vec F S6000x64 .f32) (y : S6000x64.Idx) :
    ∃ pc ∈ ([⟨rA1, p0⟩] : List (View.Piece (Elt F) S6000x64 .f32)), y ∈ pc.1.set :=
  ⟨_, List.mem_singleton_self _, View.mem_set_unit_zero (S := S6000x64) zeros1 inb_S6000x64_S6000x64_0_0 y⟩

/-! ## The body's triple -/

set_option maxHeartbeats 4000000 in
/-- The kernel body on whole staging buffers, the six inputs' at read contents x0..x5 and the two outputs' at
    anything, runs to a continuation that holds the inputs' as they were and the outputs' at egoOut1 and
    normOut1 of the inputs. -/
theorem sound_kernel1 (c : Dev nD) (E : Set ℕ) (i : grid1.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 x1 : Vec F S6000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (egoOut1 x0 x1 x2 x3 x4 x5) ∗ owns (c : Thread nD τ) arg8 fullShare (normOut1 x0 x1 x2 x3 x4 x5)) -∗ K ⟨⟩))
      ⊢ wp frame (wpE (defs₀ (F := F)) Variants.none c none) E (cc1__transform_kernel i arg1 harg1 arg2 harg2 arg3 harg3 arg4 harg4 arg5 harg5 arg6 harg6 arg7 harg7 arg8 harg8) K := by
  simp only [cc1__transform_kernel_eq_skeleton]; unfold cc1__transform_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-! ## The pipeline's proof data -/

/-- The proof data of pipeline 1 on core c: the arrays as the region finds them (V); after the body at grid
    point t each input's buffer at its block and the two outputs' at egoOut1 / normOut1 of the input blocks;
    the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => egoOut1 (blk1 V c 0 t) (blk1 V c 1 t) (blk1 V c 2 t) (blk1 V c 3 t) (blk1 V c 4 t) (blk1 V c 5 t)
    | ⟨7, _⟩ => normOut1 (blk1 V c 0 t) (blk1 V c 1 t) (blk1 V c 2 t) (blk1 V c 3 t) (blk1 V c 4 t) (blk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = egoOut1 (blk1 V c 0 t) (blk1 V c 1 t) (blk1 V c 2 t) (blk1 V c 3 t) (blk1 V c 4 t) (blk1 V c 5 t) := by dsimp only [dat1]
theorem after1_7 (c : Dev nD) (t : Fin cfg1.N) : (dat1 V c).after 7 t = normOut1 (blk1 V c 0 t) (blk1 V c 1 t) (blk1 V c 2 t) (blk1 V c 3 t) (blk1 V c 4 t) (blk1 V c 5 t) := by dsimp only [dat1]

/-- Each input's current staging buffer holds its block at every grid point, fetched there or not. -/
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d

/-! ## The body obligation, at a generic grid point -/

/-- What the body is called with at grid point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any grid point: the inputs' buffers hold their blocks, so the body's triple applies; the
    invariant and the core's owed waits pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIBody2.lean ====
/- Region 2 of the kernel program, at an arbitrary entry valuation V of the TensorCore's buffers:
   the blocks the pipeline hands the body at a grid point, what the body leaves in its two output
   staging buffers as closed functions of the six input blocks, the body's separation-logic triple,
   the pipeline's proof data, and the body obligation at every grid point. Everything is generic
   in the float valuation F. -/
import proofs.«152006_j19688130085762_1_alg».proof.Proof.Gen.KernelIdeal.Launch
import proofs.«152006_j19688130085762_1_alg».proof.Proof.Gen.KernelIdeal.Skeleton
import proofs.«152006_j19688130085762_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it (V). -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every grid point, whether or not the pipeline
    fetched it there (an unfetched window's block index has not moved since the last fetch), for any proof
    data whose array is V's and whose body leaves the block in place. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)

/-! ## The body's accesses: every load and store is of a whole staging buffer -/

theorem zeros2 : (![0, 0] : Fin 2 → Nat) = fun _ => 0 := funext fun a => by fin_cases a <;> rfl

abbrev rA2 : Rect S6000x64 := Rect.unit (s := S6000x64) ![0, 0] S6000x64.size inb_S6000x64_S6000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-! ## What the body leaves in each output window's buffer -/

/-- Window 6's staging buffer after the body, from the input windows' blocks: its one store, of the
    activated sum of the two matrix products. -/
def egoOut2 (x0 x1 : Vec F S6000x64 .f32) (x2 : Vec F S64x64 .f32) (x3 : Vec F S1x64 .f32) (x4 : Vec F S64x64 .f32) (x5 : Vec F S1x64 .f32) : Vec F S6000x64 .f32 :=
  View.canon [⟨rA2, k2_pay1 (View.ld x0 rA2) (View.ld x1 rA2) (View.ld x2 rW2) (View.ld x4 rW2) (View.ld x3 rB2) (View.ld x5 rB2)⟩]

/-- Window 7's staging buffer after the body: its one store, of the row-normalised activation. -/
def normOut2 (x0 x1 : Vec F S6000x64 .f32) (x2 : Vec F S64x64 .f32) (x3 : Vec F S1x64 .f32) (x4 : Vec F S64x64 .f32) (x5 : Vec F S1x64 .f32) : Vec F S6000x64 .f32 :=
  View.canon [⟨rA2, k2_pay2 (View.ld x0 rA2) (View.ld x1 rA2) (View.ld x2 rW2) (View.ld x4 rW2) (View.ld x3 rB2) (View.ld x5 rB2)⟩]

/-- A whole-buffer load reads the buffer and a single whole-buffer store leaves its payload. -/
theorem egoOut2_eq (x0 x1 : Vec F S6000x64 .f32) (x2 : Vec F S64x64 .f32) (x3 : Vec F S1x64 .f32) (x4 : Vec F S64x64 .f32) (x5 : Vec F S1x64 .f32) :
    egoOut2 x0 x1 x2 x3 x4 x5 = k2_pay1 x0 x1 x2 x4 x3 x5 := by
  unfold egoOut2
  rw [View.canon_unit_zero (S := S6000x64) zeros2, View.ld_unit_zero (S := S6000x64) zeros2, View.ld_unit_zero (S := S6000x64) zeros2,
    View.ld_unit_zero (S := S64x64) zeros2, View.ld_unit_zero (S := S64x64) zeros2, View.ld_unit_zero (S := S1x64) zeros2, View.ld_unit_zero (S := S1x64) zeros2]

theorem normOut2_eq (x0 x1 : Vec F S6000x64 .f32) (x2 : Vec F S64x64 .f32) (x3 : Vec F S1x64 .f32) (x4 : Vec F S64x64 .f32) (x5 : Vec F S1x64 .f32) :
    normOut2 x0 x1 x2 x3 x4 x5 = k2_pay2 x0 x1 x2 x4 x3 x5 := by
  unfold normOut2
  rw [View.canon_unit_zero (S := S6000x64) zeros2, View.ld_unit_zero (S := S6000x64) zeros2, View.ld_unit_zero (S := S6000x64) zeros2,
    View.ld_unit_zero (S := S64x64) zeros2, View.ld_unit_zero (S := S64x64) zeros2, View.ld_unit_zero (S := S1x64) zeros2, View.ld_unit_zero (S := S1x64) zeros2]

/-- The single whole-buffer store covers the buffer. -/
theorem cover2 (p0 : Vec F S6000x64 .f32) (y : S6000x64.Idx) :
    ∃ pc ∈ ([⟨rA2, p0⟩] : List (View.Piece (Elt F) S6000x64 .f32)), y ∈ pc.1.set :=
  ⟨_, List.mem_singleton_self _, View.mem_set_unit_zero (S := S6000x64) zeros2 inb_S6000x64_S6000x64_0_0 y⟩

/-! ## The body's triple -/

set_option maxHeartbeats 4000000 in
/-- The kernel body on whole staging buffers, the six inputs' at read contents x0..x5 and the two outputs' at
    anything, runs to a continuation that holds the inputs' as they were and the outputs' at egoOut2 and
    normOut2 of the inputs. -/
theorem sound_kernel2 (c : Dev nD) (E : Set ℕ) (i : grid2.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 x1 : Vec F S6000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (egoOut2 x0 x1 x2 x3 x4 x5) ∗ owns (c : Thread nD τ) arg8 fullShare (normOut2 x0 x1 x2 x3 x4 x5)) -∗ K ⟨⟩))
      ⊢ wp frame (wpE (defs₀ (F := F)) Variants.none c none) E (cc2__transform_kernel i arg1 harg1 arg2 harg2 arg3 harg3 arg4 harg4 arg5 harg5 arg6 harg6 arg7 harg7 arg8 harg8) K := by
  simp only [cc2__transform_kernel_eq_skeleton]; unfold cc2__transform_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

/-! ## The pipeline's proof data -/

/-- The proof data of pipeline 2 on core c: the arrays as the region finds them (V); after the body at grid
    point t each input's buffer at its block and the two outputs' at egoOut2 / normOut2 of the input blocks;
    the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => egoOut2 (blk2 V c 0 t) (blk2 V c 1 t) (blk2 V c 2 t) (blk2 V c 3 t) (blk2 V c 4 t) (blk2 V c 5 t)
    | ⟨7, _⟩ => normOut2 (blk2 V c 0 t) (blk2 V c 1 t) (blk2 V c 2 t) (blk2 V c 3 t) (blk2 V c 4 t) (blk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = egoOut2 (blk2 V c 0 t) (blk2 V c 1 t) (blk2 V c 2 t) (blk2 V c 3 t) (blk2 V c 4 t) (blk2 V c 5 t) := by dsimp only [dat2]
theorem after2_7 (c : Dev nD) (t : Fin cfg2.N) : (dat2 V c).after 7 t = normOut2 (blk2 V c 0 t) (blk2 V c 1 t) (blk2 V c 2 t) (blk2 V c 3 t) (blk2 V c 4 t) (blk2 V c 5 t) := by dsimp only [dat2]

/-- Each input's current staging buffer holds its block at every grid point, fetched there or not. -/
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d
theorem before2_5 (c : Dev nD) (t : Fin cfg2.N) (d) : (dat2 V c).before 5 t d = blk2 V c 5 t :=
  before2_5_of V (dat2 V c) (A_eq2 V c 5) (after2_5 V c) t d

/-! ## The body obligation, at a generic grid point -/

/-- What the body is called with at grid point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
/-- The body at any grid point: the inputs' buffers hold their blocks, so the body's triple applies; the
    invariant and the core's owed waits pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (blk2 V c 0 t) (blk2 V c 1 t) (blk2 V c 2 t) (blk2 V c 3 t) (blk2 V c 4 t) (blk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/- The run of @main as seven segments — four stretches of host operations around three kernel regions — from the
   launch to the return: the buffer contents at every boundary between segments as a fold from the launch memory, each
   region a pipeline over its windows' arrays at its entry contents, and the conclusion that every execution
   terminates with each unscoped buffer at the last boundary's contents; in particular every argument array ends
   as launched, no host operation writing one and none being an array of a region's windows. -/
import proofs.«152006_j19688130085762_1_alg».proof.Proof.KIBody0
import proofs.«152006_j19688130085762_1_alg».proof.Proof.KIBody1
import proofs.«152006_j19688130085762_1_alg».proof.Proof.KIBody2
import proofs.«152006_j19688130085762_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: host stretches and kernel regions in order, from the launch to the return

## The buffer contents at each boundary between segments -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its windows' arrays at what the pipeline leaves (inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At the exit each of the region's arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its windows' arrays at what the pipeline leaves (inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
/-- At the exit each of the region's arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its windows' arrays at what the pipeline leaves (inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
/-- At the exit each of the region's arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: what @main returns with. -/
abbrev W7 : Dev nD → Valuation τ sig (Elt F) := fun c => StableHlo.after hostOps3 (W6 m ρ c)

/-! ### The arguments end as launched: no host operation writes one, and none is an array of any region's windows,
    so the fold at an argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Kernel region 0 as a segment over the thread state "every unscoped buffer whole at the boundary's contents, the
    generator register at some state, nothing owed": entered at `W1`, left at `W2`. Its windows' arrays are split out of
    the unscoped buffers and joined back at the exit contents; the generator register passes through the invariant. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 as a segment over the thread state "every unscoped buffer whole at the boundary's contents, the
    generator register at some state, nothing owed": entered at `W3`, left at `W4`. Its windows' arrays are split out of
    the unscoped buffers and joined back at the exit contents; the generator register passes through the invariant. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 as a segment over the thread state "every unscoped buffer whole at the boundary's contents, the
    generator register at some state, nothing owed": entered at `W5`, left at `W6`. Its windows' arrays are split out of
    the unscoped buffers and joined back at the exit contents; the generator register passes through the invariant. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

set_option backward.isDefEq.respectTransparency.types false in
/-- The run: from any memory with zero counters, every weakly fair execution of @main on the TensorCores terminates,
    nothing faulting, and in every final state each unscoped buffer holds the last boundary's contents `W7`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- Every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c)⟩)
    (run_all m ρ)

end Cert.KernelIdeal.Hand

end
-- ==== Proof.LayerSpec.lean ====
import Idealize.ShloMosaic.PureOps.Ideal
import Idealize.ShloMosaic.PureOps.Ideal.Laws
import Idealize.ShloMosaic.Lib.ValueIdx

/-!
One layer of the dense transform, row by row, on the extended reals.

For a node (a row) with aggregated neighbourhood `sd` and current embedding `eg`, two weight matrices and two bias
rows, the pre-activation at column `j` is
  `(∑ k, sd k * w1 k j + b1 j) + (∑ k, (eg k * sd k) * w2 k j + b2 j)`,
the new embedding is its leaky rectification (slope the shared literal), and the normalized embedding divides by the
larger of the row's Euclidean norm and the shared small literal. Both programs compute exactly this, the kernel on
blocks of 6000 rows and the reference on all 300000 rows at once; no law beyond reading each operation at an index
joins them, so nothing here needs the inputs to be finite.
-/

noncomputable section

namespace Cert.Layer

open Idealize.ShloMosaic Idealize.ShloMosaic.ValueIdx
open scoped BigOperators

/-- The leaky rectification of one value: itself where it is at least the zero literal, else the slope literal times it. -/
def leaky (x : EReal) : EReal :=
  Scalar.select (FloatOps.cmpf (F := Ideal) (φ := .f32) .oge x (Ideal.ofBits .f32 0x00000000#32)) x
    (Ideal.ofBits .f32 0x3E4CCCCD#32 * x)

/-- The pre-activation of one row at column `j`. -/
def preRow (sd eg : Fin 64 → EReal) (w1 w2 : Fin 64 → Fin 64 → EReal) (b1 b2 : Fin 64 → EReal) (j : Fin 64) : EReal :=
  ((∑ k : Fin 64, sd k * w1 k j) + b1 j) + ((∑ k : Fin 64, (eg k * sd k) * w2 k j) + b2 j)

/-- The new embedding of one row at column `j`. -/
def egoRow (sd eg : Fin 64 → EReal) (w1 w2 : Fin 64 → Fin 64 → EReal) (b1 b2 : Fin 64 → EReal) (j : Fin 64) : EReal :=
  leaky (preRow sd eg w1 w2 b1 b2 j)

/-- The normalized new embedding of one row at column `j`: divided by the larger of the row's norm and the small literal. -/
def normRow (sd eg : Fin 64 → EReal) (w1 w2 : Fin 64 → Fin 64 → EReal) (b1 b2 : Fin 64 → EReal) (j : Fin 64) : EReal :=
  Ideal.div (egoRow sd eg w1 w2 b1 b2 j)
    (max (Ideal.sqrt (∑ q : Fin 64, egoRow sd eg w1 w2 b1 b2 q * egoRow sd eg w1 w2 b1 b2 q))
      (Ideal.ofBits .f32 0x2B8CBCCC#32))

/-- A product of an `M × 64` by a `64 × N` matrix whose dimension numbers contract the left's axis 1 with the right's axis 0
    and keep the other two in order, read at an index: the sum over the 64 middle positions. -/
theorem dot_sum {M N : Nat} (d : DotDims ⟨2, ![M, 64]⟩ ⟨2, ![64, N]⟩ ⟨2, ![M, N]⟩)
    (hl : d.lhsContracting = [1]) (hr : d.rhsContracting = [0]) (hln : d.lhsNonContracting = [0]) (hrn : d.rhsNonContracting = [1])
    (hlb : d.lhsBatch = []) (hrb : d.rhsBatch = [])
    (f : (⟨2, ![M, 64]⟩ : Shape).Idx → EReal) (g : (⟨2, ![64, N]⟩ : Shape).Idx → EReal) (r : Fin M) (j : Fin N) :
    ∑ k : d.contr.Idx, f (d.lhsIdx (ix2 r j) k) * g (d.rhsIdx (ix2 r j) k) = ∑ k : Fin 64, f (ix2 r k) * g (ix2 k j) := by
  obtain ⟨lc, rc, ln, rn, lb, rb, wf⟩ := d
  simp only at hl hr hln hrn hlb hrb
  subst hl hr hln hrn hlb hrb
  generalize hD : (⟨[1], [0], [0], [1], [], [], wf⟩ : DotDims ⟨2, ![M, 64]⟩ ⟨2, ![64, N]⟩ ⟨2, ![M, N]⟩) = D
  have hlc : D.lhsContracting = [1] := by rw [← hD]
  have hrc : D.rhsContracting = [0] := by rw [← hD]
  have hrk : D.contr.rank = 1 := by rw [← hD]; rfl
  have hsz : D.contr.size ⟨0, by omega⟩ = 64 := by subst hD; rfl
  rw [← Equiv.sum_comp (contrEquiv1 D 64 hrk hsz).symm]
  refine Finset.sum_congr rfl fun k _ => ?_
  have e1 : D.lhsIdx (ix2 r j) ((contrEquiv1 D 64 hrk hsz).symm k) = ix2 r k := by
    funext a; apply Fin.ext
    match a with
    | ⟨0, _⟩ => subst hD; rfl
    | ⟨1, _⟩ => exact (D.lhsIdx_val_of_single hlc _ _).trans (contrEquiv1_symm_val D 64 hrk hsz k)
  have e2 : D.rhsIdx (ix2 r j) ((contrEquiv1 D 64 hrk hsz).symm k) = ix2 k j := by
    funext a; apply Fin.ext
    match a with
    | ⟨0, _⟩ => exact (D.rhsIdx_val_of_single hrc _ _).trans (contrEquiv1_symm_val D 64 hrk hsz k)
    | ⟨1, _⟩ => subst hD; rfl
  rw [e1, e2]

end Cert.Layer

end
-- ==== Proof.LayerIdx.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
Layout operations of a row-wise norm, read at an index: a vector of `a` row sums becomes an `a × 1` column (a cast in the
kernel, a broadcast along axis 0 on the host), and the column is laid along every one of `b` columns.
-/

noncomputable section

namespace Cert.Layer

open Idealize.ShloMosaic Idealize.ShloMosaic.ValueIdx
open scoped BigOperators

variable {α : Type}

/-- A vector cast to a column reads, at row `p`, the vector's entry `p`. -/
theorem shapeCast_a_a1_apply {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-- A column laid along `b` columns reads, at `(p, c)`, the column's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spelling of the same: a column broadcast in dimensions `[0, 1]`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

/-- The host's vector-to-column: a vector broadcast in dimension `[0]` to `a × 1`. -/
theorem broadcastInDim_a_a1_apply {a : ℕ} (hbc : (⟨1, ![a]⟩ : Shape).BroadcastsInDim ⟨2, ![a, 1]⟩ ![0])
    (v : (⟨1, ![a]⟩ : Shape).Idx → α) (p : Fin a) :
    broadcastInDim ⟨2, ![a, 1]⟩ ![0] hbc v (ix2 p (0 : Fin 1)) = v (ix1 p) := by
  refine broadcastInDim_apply ![0] hbc v (ix2 p (0 : Fin 1)) (ix1 p) fun ax => ?_
  match ax with
  | ⟨0, _⟩ =>
    show p.val = if a = 1 then 0 else p.val
    split
    · have := p.isLt; omega
    · rfl

/-- The kernel's lane sum of an `a × 64` block into the zero accumulator, at row `p`: the sum of the row. -/
theorem laneSum_apply {a : ℕ} (src : FVec Ideal ⟨2, ![a, 64]⟩ .f32) (h : (⟨2, ![a, 64]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ q : Fin 64, src (ix2 p q) := by
  refine (Ideal.multiReduction_add_single src 0x00000000#32 h hφ hacc (ix1 p)).trans ?_
  refine Finset.sum_congr rfl fun q _ => congrArg src ?_
  funext c
  apply Fin.ext
  match c with
  | ⟨0, _⟩ => rfl
  | ⟨1, _⟩ => rfl

end Cert.Layer

end
-- ==== Proof.KIPay.lean ====
/-
  The body's two payloads read at an index, on the extended reals: at row `y` and column `j` of a block the stored new
  embedding is the row function `Cert.Layer.egoRow` of the block's row `y` of neighbourhood sums and of embeddings, and
  the stored normalized embedding is `Cert.Layer.normRow` of the same. The matrix products are sums over the 64 middle
  positions (the rounding to the narrow format on the way in is the identity here), the lane sum is the row's sum.
-/
import proofs.«152006_j19688130085762_1_alg».proof.Proof.Gen.KernelIdeal.Skeleton
import proofs.«152006_j19688130085762_1_alg».proof.Proof.LayerSpec
import proofs.«152006_j19688130085762_1_alg».proof.Proof.LayerIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen Cert.Layer
open scoped BigOperators

variable [hK : Cert.KernelIdeal.Facts]

/-- A block's row `y` as a function of the column. -/
abbrev rowOf {M : Nat} (x : (⟨2, ![M, 64]⟩ : Shape).Idx → EReal) (y : Fin M) : Fin 64 → EReal := fun k => x (ix2 y k)
abbrev matOf (w : (⟨2, ![64, 64]⟩ : Shape).Idx → EReal) : Fin 64 → Fin 64 → EReal := fun k j => w (ix2 k j)
abbrev biasOf (b : (⟨2, ![1, 64]⟩ : Shape).Idx → EReal) : Fin 64 → EReal := fun j => b (ix2 (0 : Fin 1) j)

/-- A block's product with a 64 × 64 matrix (both rounded to the narrow format on the way in, which changes nothing here)
    into the zero accumulator, at row `y` and column `j`: the sum over the 64 middle positions. -/
theorem mm_apply (x : Vec Ideal S6000x64 .f32) (w : Vec Ideal S64x64 .f32) (y : Fin 6000) (j : Fin 64) :
    matmul (F := Ideal) dot_S6000x64_S64x64_S6000x64_1_0_0_1_n_n none (truncf .bf16 x bitsLt_bf16_f32) (truncf .bf16 w bitsLt_bf16_f32)
        (constant (F := Ideal) S6000x64 .f32 0x00000000#32) (ix2 y j)
      = ∑ k : Fin 64, x (ix2 y k) * w (ix2 k j) :=
  (Ideal.matmul_constant_zero_apply dot_S6000x64_S64x64_S6000x64_1_0_0_1_n_n none _ _ (ix2 y j)).trans
    (dot_sum dot_S6000x64_S64x64_S6000x64_1_0_0_1_n_n rfl rfl rfl rfl rfl rfl (fun i => x i) (fun i => w i) y j)

/-- The pre-activation of a block at row `y`, column `j`. -/
theorem pre_apply (x0 x1 : Vec Ideal S6000x64 .f32) (w1 w2 : Vec Ideal S64x64 .f32) (b1 b2 : Vec Ideal S1x64 .f32)
    (y : Fin 6000) (j : Fin 64) :
    addf (F := Ideal) (addf (matmul (F := Ideal) dot_S6000x64_S64x64_S6000x64_1_0_0_1_n_n none (truncf .bf16 x0 bitsLt_bf16_f32) (truncf .bf16 w1 bitsLt_bf16_f32) (constant (F := Ideal) S6000x64 .f32 0x00000000#32))
          (broadcastTo S6000x64 b1 broadcasts_S1x64_S6000x64))
        (addf (matmul (F := Ideal) dot_S6000x64_S64x64_S6000x64_1_0_0_1_n_n none (truncf .bf16 (mulf x1 x0) bitsLt_bf16_f32) (truncf .bf16 w2 bitsLt_bf16_f32) (constant (F := Ideal) S6000x64 .f32 0x00000000#32))
          (broadcastTo S6000x64 b2 broadcasts_S1x64_S6000x64)) (ix2 y j)
      = preRow (rowOf x0 y) (rowOf x1 y) (matOf w1) (matOf w2) (biasOf b1) (biasOf b2) j := by
  show (_ + _) + (_ + _) = _
  exact congrArg₂ (· + ·) (congrArg₂ (· + ·) (mm_apply x0 w1 y j) (broadcastTo_1b_ab_apply b1 _ y j))
    (congrArg₂ (· + ·) (mm_apply (mulf (F := Ideal) x1 x0) w2 y j) (broadcastTo_1b_ab_apply b2 _ y j))

theorem pay1_apply (x0 x1 : Vec Ideal S6000x64 .f32) (w1 w2 : Vec Ideal S64x64 .f32) (b1 b2 : Vec Ideal S1x64 .f32)
    (y : Fin 6000) (j : Fin 64) :
    k0_pay1 x0 x1 w1 w2 b1 b2 (ix2 y j)
      = egoRow (rowOf x0 y) (rowOf x1 y) (matOf w1) (matOf w2) (biasOf b1) (biasOf b2) j := by
  unfold k0_pay1
  simp only [shapeCast_self]
  unfold egoRow leaky
  rw [← pre_apply x0 x1 w1 w2 b1 b2 y j]
  rfl

theorem pay2_apply (x0 x1 : Vec Ideal S6000x64 .f32) (w1 w2 : Vec Ideal S64x64 .f32) (b1 b2 : Vec Ideal S1x64 .f32)
    (y : Fin 6000) (j : Fin 64) :
    k0_pay2 x0 x1 w1 w2 b1 b2 (ix2 y j)
      = normRow (rowOf x0 y) (rowOf x1 y) (matOf w1) (matOf w2) (biasOf b1) (biasOf b2) j := by
  unfold k0_pay2 normRow
  refine congrArg₂ Ideal.div (pay1_apply x0 x1 w1 w2 b1 b2 y j) ?_
  refine (broadcastTo_a1_ab_apply _ _ y j).trans ?_
  refine congrArg₂ max (congrArg Ideal.sqrt ?_) rfl
  refine (shapeCast_a_a1_apply _ _ y).trans ?_
  refine (laneSum_apply _ _ _ _ y).trans ?_
  refine Finset.sum_congr rfl fun q _ => ?_
  exact congrArg₂ (· * ·) (pay1_apply x0 x1 w1 w2 b1 b2 y q) (pay1_apply x0 x1 w1 w2 b1 b2 y q)

/-- The three regions' bodies are one text: their payloads are the same functions. -/
theorem pay1_1 (x0 x1 : Vec Ideal S6000x64 .f32) (w1 w2 : Vec Ideal S64x64 .f32) (b1 b2 : Vec Ideal S1x64 .f32) :
    k1_pay1 x0 x1 w1 w2 b1 b2 = k0_pay1 x0 x1 w1 w2 b1 b2 := rfl
theorem pay2_1 (x0 x1 : Vec Ideal S6000x64 .f32) (w1 w2 : Vec Ideal S64x64 .f32) (b1 b2 : Vec Ideal S1x64 .f32) :
    k1_pay2 x0 x1 w1 w2 b1 b2 = k0_pay2 x0 x1 w1 w2 b1 b2 := rfl
theorem pay1_2 (x0 x1 : Vec Ideal S6000x64 .f32) (w1 w2 : Vec Ideal S64x64 .f32) (b1 b2 : Vec Ideal S1x64 .f32) :
    k2_pay1 x0 x1 w1 w2 b1 b2 = k0_pay1 x0 x1 w1 w2 b1 b2 := rfl
theorem pay2_2 (x0 x1 : Vec Ideal S6000x64 .f32) (w1 w2 : Vec Ideal S64x64 .f32) (b1 b2 : Vec Ideal S1x64 .f32) :
    k2_pay2 x0 x1 w1 w2 b1 b2 = k0_pay2 x0 x1 w1 w2 b1 b2 := rfl

end Cert.KernelIdeal.Hand

end
-- ==== Proof.LayerFull.lean ====
import proofs.«152006_j19688130085762_1_alg».proof.Proof.LayerSpec

/-!
One layer of the dense transform on whole arrays: row `r` of the result depends on row `r` of the aggregated
neighbourhoods and of the embeddings and on the layer's two weight matrices and two bias rows, by the row functions
`Cert.Layer.egoRow` and `Cert.Layer.normRow`.
-/

noncomputable section

namespace Cert.Layer

open Idealize.ShloMosaic Idealize.ShloMosaic.ValueIdx

/-- The new embeddings of `n` nodes. -/
def egoFull {n : Nat} (side ego : (⟨2, ![n, 64]⟩ : Shape).Idx → EReal) (w1 : (⟨2, ![64, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) : (⟨2, ![n, 64]⟩ : Shape).Idx → EReal :=
  fun i => egoRow (fun k => side (ix2 (i 0) k)) (fun k => ego (ix2 (i 0) k)) (fun k j => w1 (ix2 k j)) (fun k j => w2 (ix2 k j))
    (fun j => b1 (ix2 (0 : Fin 1) j)) (fun j => b2 (ix2 (0 : Fin 1) j)) (i 1)

/-- The normalized new embeddings of `n` nodes. -/
def normFull {n : Nat} (side ego : (⟨2, ![n, 64]⟩ : Shape).Idx → EReal) (w1 : (⟨2, ![64, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) : (⟨2, ![n, 64]⟩ : Shape).Idx → EReal :=
  fun i => normRow (fun k => side (ix2 (i 0) k)) (fun k => ego (ix2 (i 0) k)) (fun k j => w1 (ix2 k j)) (fun k j => w2 (ix2 k j))
    (fun j => b1 (ix2 (0 : Fin 1) j)) (fun j => b2 (ix2 (0 : Fin 1) j)) (i 1)

end Cert.Layer

end
-- ==== Proof.KIValue0.lean ====
/-
  What region 0's two output arrays hold after the region, as whole-array functions of the arrays the region is
  entered with: block `t` of each output is the body's payload of block `t` of the two node arrays (rows
  6000·t … 6000·t + 5999) and of the whole weight and bias arrays, and row by row that payload is the layer's row
  function; the fifty blocks cover the 300000 rows.
-/
import proofs.«152006_j19688130085762_1_alg».proof.Proof.KIBody0
import proofs.«152006_j19688130085762_1_alg».proof.Proof.KIPay
import proofs.«152006_j19688130085762_1_alg».proof.Proof.LayerFull

set_option maxRecDepth 16384

noncomputable section

namespace Cert.KernelIdeal.Hand

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the node windows (the two inputs and the two outputs) sit at block row `t`,
    the weight and bias windows at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `6000·T + p` of a 300000-row array. -/
abbrev rowIx0 (T : Nat) (hT : T < 50) (p : Fin 6000) : Fin 300000 := ⟨6000 * T + p.val, by have := p.isLt; omega⟩

/-- A block's payload of the new embedding, at row `p` and column `j`, when the node blocks are rows `6000·T + ·` of
    whole arrays and the weight and bias blocks are the whole arrays: the whole-array function at row `6000·T + p`. -/
theorem ego_block0 (A0 A1 : (⟨2, ![300000, 64]⟩ : Shape).Idx → EReal) (A2 A4 : (⟨2, ![64, 64]⟩ : Shape).Idx → EReal)
    (A3 A5 : (⟨2, ![1, 64]⟩ : Shape).Idx → EReal)
    (x0 x1 : Vec Ideal S6000x64 .f32) (x2 x4 : Vec Ideal S64x64 .f32) (x3 x5 : Vec Ideal S1x64 .f32) (T : Nat) (hT : T < 50)
    (h0 : ∀ (p : Fin 6000) (k : Fin 64), x0 (ix2 p k) = A0 (ix2 (rowIx0 T hT p) k))
    (h1 : ∀ (p : Fin 6000) (k : Fin 64), x1 (ix2 p k) = A1 (ix2 (rowIx0 T hT p) k))
    (h2 : x2 = A2) (h3 : x3 = A3) (h4 : x4 = A4) (h5 : x5 = A5) (p : Fin 6000) (j : Fin 64) :
    k0_pay1 x0 x1 x2 x4 x3 x5 (ix2 p j) = egoFull A0 A1 A2 A3 A4 A5 (ix2 (rowIx0 T hT p) j) := by
  subst h2 h3 h4 h5
  rw [pay1_apply]
  unfold egoFull
  show egoRow (fun k => x0 (ix2 p k)) (fun k => x1 (ix2 p k)) _ _ _ _ j = egoRow (fun k => A0 (ix2 (rowIx0 T hT p) k)) (fun k => A1 (ix2 (rowIx0 T hT p) k)) _ _ _ _ j
  rw [funext (h0 p), funext (h1 p)]

/-- The same for the normalized embedding. -/
theorem norm_block0 (A0 A1 : (⟨2, ![300000, 64]⟩ : Shape).Idx → EReal) (A2 A4 : (⟨2, ![64, 64]⟩ : Shape).Idx → EReal)
    (A3 A5 : (⟨2, ![1, 64]⟩ : Shape).Idx → EReal)
    (x0 x1 : Vec Ideal S6000x64 .f32) (x2 x4 : Vec Ideal S64x64 .f32) (x3 x5 : Vec Ideal S1x64 .f32) (T : Nat) (hT : T < 50)
    (h0 : ∀ (p : Fin 6000) (k : Fin 64), x0 (ix2 p k) = A0 (ix2 (rowIx0 T hT p) k))
    (h1 : ∀ (p : Fin 6000) (k : Fin 64), x1 (ix2 p k) = A1 (ix2 (rowIx0 T hT p) k))
    (h2 : x2 = A2) (h3 : x3 = A3) (h4 : x4 = A4) (h5 : x5 = A5) (p : Fin 6000) (j : Fin 64) :
    k0_pay2 x0 x1 x2 x4 x3 x5 (ix2 p j) = normFull A0 A1 A2 A3 A4 A5 (ix2 (rowIx0 T hT p) j) := by
  subst h2 h3 h4 h5
  rw [pay2_apply]
  unfold normFull
  show normRow (fun k => x0 (ix2 p k)) (fun k => x1 (ix2 p k)) _ _ _ _ j = normRow (fun k => A0 (ix2 (rowIx0 T hT p) k)) (fun k => A1 (ix2 (rowIx0 T hT p) k)) _ _ _ _ j
  rw [funext (h0 p), funext (h1 p)]

/-! ## The windows' blocks read off the entry arrays -/

theorem blk0_0_apply (c : Dev nD) (t : Fin cfg0.N) (p : Fin 6000) (k : Fin 64) :
    blk0 V c 0 t (ix2 p k) = V c main_v13 (ix2 (rowIx0 t.val (by have h1 := t.isLt; have h2 : cfg0.N = 50 := N_0; omega) p) k) := by
  obtain ⟨e0, e1, -⟩ := idx_facts0 t
  unfold blk0
  rw [View.read_apply]
  show V c main_v13 _ = V c main_v13 _
  refine congrArg (V c main_v13) ?_
  funext a; apply Fin.ext
  match a with
  | ⟨0, _⟩ => show win0_0.index t (0 : Fin 2) * 6000 + 1 * p.val = 6000 * t.val + p.val; rw [e0]; omega
  | ⟨1, _⟩ => show win0_0.index t (1 : Fin 2) * 64 + 1 * k.val = k.val; rw [e1]; omega

theorem blk0_1_apply (c : Dev nD) (t : Fin cfg0.N) (p : Fin 6000) (k : Fin 64) :
    blk0 V c 1 t (ix2 p k) = V c main_v0 (ix2 (rowIx0 t.val (by have h1 := t.isLt; have h2 : cfg0.N = 50 := N_0; omega) p) k) := by
  obtain ⟨-, -, e0, e1, -⟩ := idx_facts0 t
  unfold blk0
  rw [View.read_apply]
  show V c main_v0 _ = V c main_v0 _
  refine congrArg (V c main_v0) ?_
  funext a; apply Fin.ext
  match a with
  | ⟨0, _⟩ => show win0_1.index t (0 : Fin 2) * 6000 + 1 * p.val = 6000 * t.val + p.val; rw [e0]; omega
  | ⟨1, _⟩ => show win0_1.index t (1 : Fin 2) * 64 + 1 * k.val = k.val; rw [e1]; omega

theorem blk0_2_eq (c : Dev nD) (t : Fin cfg0.N) : (blk0 V c 2 t : Vec Ideal S64x64 .f32) = V c main_v15 := by
  obtain ⟨-, -, -, -, e0, e1, -⟩ := idx_facts0 t
  funext y
  unfold blk0
  rw [View.read_apply]
  show V c main_v15 _ = V c main_v15 _
  refine congrArg (V c main_v15) ?_
  funext a; apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

theorem blk0_3_eq (c : Dev nD) (t : Fin cfg0.N) : (blk0 V c 3 t : Vec Ideal S1x64 .f32) = V c main_v17 := by
  obtain ⟨-, -, -, -, -, -, e0, e1, -⟩ := idx_facts0 t
  funext y
  unfold blk0
  rw [View.read_apply]
  show V c main_v17 _ = V c main_v17 _
  refine congrArg (V c main_v17) ?_
  funext a; apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

theorem blk0_4_eq (c : Dev nD) (t : Fin cfg0.N) : (blk0 V c 4 t : Vec Ideal S64x64 .f32) = V c main_v19 := by
  obtain ⟨-, -, -, -, -, -, -, -, e0, e1, -⟩ := idx_facts0 t
  funext y
  unfold blk0
  rw [View.read_apply]
  show V c main_v19 _ = V c main_v19 _
  refine congrArg (V c main_v19) ?_
  funext a; apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

theorem blk0_5_eq (c : Dev nD) (t : Fin cfg0.N) : (blk0 V c 5 t : Vec Ideal S1x64 .f32) = V c main_v21 := by
  obtain ⟨-, -, -, -, -, -, -, -, -, -, e0, e1, -⟩ := idx_facts0 t
  funext y
  unfold blk0
  rw [View.read_apply]
  show V c main_v21 _ = V c main_v21 _
  refine congrArg (V c main_v21) ?_
  funext a; apply Fin.ext
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-! ## The two outputs -/

/-- The new embeddings of all nodes, from the arrays the region is entered with. -/
abbrev egoOf0 (c : Dev nD) : (⟨2, ![300000, 64]⟩ : Shape).Idx → EReal :=
  egoFull (V c main_v13) (V c main_v0) (V c main_v15) (V c main_v17) (V c main_v19) (V c main_v21)
/-- The normalized new embeddings of all nodes. -/
abbrev normOf0 (c : Dev nD) : (⟨2, ![300000, 64]⟩ : Shape).Idx → EReal :=
  normFull (V c main_v13) (V c main_v0) (V c main_v15) (V c main_v17) (V c main_v19) (V c main_v21)

/-- What point `t` writes back into the first output is block `t` of `egoOf0`. -/
theorem flushed0_6 (c : Dev nD) (t : Fin cfg0.N) :
    (dat0 V c).flushed 6 t = ((cfg0.win 6).blk t).view.read (Elt Ideal) (egoOf0 V c) := by
  obtain ⟨-, -, -, -, -, -, -, -, -, -, -, -, e0, e1, -⟩ := idx_facts0 t
  have hT : t.val < 50 := by have h1 := t.isLt; have h2 : cfg0.N = 50 := N_0; omega
  show (cfg0.win 6).cut (grid0.coords t) ((dat0 V c).after 6 t) = _
  rw [after0_6, egoOut0_eq]
  funext y
  show k0_pay1 (blk0 V c 0 t) (blk0 V c 1 t) (blk0 V c 2 t) (blk0 V c 4 t) (blk0 V c 3 t) (blk0 V c 5 t) y
    = egoOf0 V c (((cfg0.win 6).blk t).view.emb y)
  refine (congrArg (k0_pay1 (blk0 V c 0 t) (blk0 V c 1 t) (blk0 V c 2 t) (blk0 V c 4 t) (blk0 V c 3 t) (blk0 V c 5 t)) (eq_ix2 (n0 := 6000) (n1 := 64) y)).trans ?_
  refine (ego_block0 (V c main_v13) (V c main_v0) (V c main_v15) (V c main_v19) (V c main_v17) (V c main_v21) _ _ _ _ _ _ t.val hT
    (blk0_0_apply V c t) (blk0_1_apply V c t) (blk0_2_eq V c t) (blk0_3_eq V c t) (blk0_4_eq V c t) (blk0_5_eq V c t) (y 0) (y 1)).trans ?_
  refine congrArg (egoOf0 V c) ?_
  funext a; apply Fin.ext
  match a with
  | ⟨0, _⟩ => show 6000 * t.val + (y 0).val = win0_6.index t (0 : Fin 2) * 6000 + 1 * (y 0).val; rw [e0]; omega
  | ⟨1, _⟩ => show (y 1).val = win0_6.index t (1 : Fin 2) * 64 + 1 * (y 1).val; rw [e1]; omega

/-- What point `t` writes back into the second output is block `t` of `normOf0`. -/
theorem flushed0_7 (c : Dev nD) (t : Fin cfg0.N) :
    (dat0 V c).flushed 7 t = ((cfg0.win 7).blk t).view.read (Elt Ideal) (normOf0 V c) := by
  obtain ⟨-, -, -, -, -, -, -, -, -, -, -, -, -, -, e0, e1⟩ := idx_facts0 t
  have hT : t.val < 50 := by have h1 := t.isLt; have h2 : cfg0.N = 50 := N_0; omega
  show (cfg0.win 7).cut (grid0.coords t) ((dat0 V c).after 7 t) = _
  rw [after0_7, normOut0_eq]
  funext y
  show k0_pay2 (blk0 V c 0 t) (blk0 V c 1 t) (blk0 V c 2 t) (blk0 V c 4 t) (blk0 V c 3 t) (blk0 V c 5 t) y
    = normOf0 V c (((cfg0.win 7).blk t).view.emb y)
  refine (congrArg (k0_pay2 (blk0 V c 0 t) (blk0 V c 1 t) (blk0 V c 2 t) (blk0 V c 4 t) (blk0 V c 3 t) (blk0 V c 5 t)) (eq_ix2 (n0 := 6000) (n1 := 64) y)).trans ?_
  refine (norm_block0 (V c main_v13) (V c main_v0) (V c main_v15) (V c main_v19) (V c main_v17) (V c main_v21) _ _ _ _ _ _ t.val hT
    (blk0_0_apply V c t) (blk0_1_apply V c t) (blk0_2_eq V c t) (blk0_3_eq V c t) (blk0_4_eq V c t) (blk0_5_eq V c t) (y 0) (y 1)).trans ?_
  refine congrArg (normOf0 V c) ?_
  funext a; apply Fin.ext
  match a with
  | ⟨0, _⟩ => show 6000 * t.val + (y 0).val = win0_7.index t (0 : Fin 2) * 6000 + 1 * (y 0).val; rw [e0]; omega
  | ⟨1, _⟩ => show (y 1).val = win0_7.index t (1 : Fin 2) * 64 + 1 * (y 1).val; rw [e1]; omega

/-- An index of an output array is in point `t`'s block iff each coordinate is in the block's range. -/
theorem mem_blk0_6 (t : Fin cfg0.N) (i : S300000x64.Idx) :
    i ∈ ((cfg0.win 6).blk t).view.set ↔ ∀ a : Fin 2, win0_6.index t a * S6000x64.size a ≤ (i a).val ∧ (i a).val < win0_6.index t a * S6000x64.size a + S6000x64.size a := by
  show i ∈ ((View.whole main_v22_0).slice (win0_6.rect t)).set ↔ _
  rw [View.set_slice_whole, Rect.mem_set_unit]
  exact Iff.rfl
theorem mem_blk0_7 (t : Fin cfg0.N) (i : S300000x64.Idx) :
    i ∈ ((cfg0.win 7).blk t).view.set ↔ ∀ a : Fin 2, win0_7.index t a * S6000x64.size a ≤ (i a).val ∧ (i a).val < win0_7.index t a * S6000x64.size a + S6000x64.size a := by
  show i ∈ ((View.whole main_v22_1).slice (win0_7.rect t)).set ↔ _
  rw [View.set_slice_whole, Rect.mem_set_unit]
  exact Iff.rfl

/-- Row `r` is in the block of point `r / 6000`. -/
theorem cover0_6 (i : S300000x64.Idx) : ∃ t : Fin cfg0.N, (cfg0.win 6).flush t = true ∧ i ∈ ((cfg0.win 6).blk t).view.set := by
  have h0 : (i 0).val < 300000 := (i 0).isLt
  have h1 : (i 1).val < 64 := (i 1).isLt
  have hN : cfg0.N = 50 := N_0
  let t : Fin cfg0.N := ⟨(i 0).val / 6000, by rw [hN]; omega⟩
  obtain ⟨-, -, -, -, -, -, -, -, -, -, -, -, e0, e1, -⟩ := idx_facts0 t
  refine ⟨t, flush0_6 t, ?_⟩
  rw [mem_blk0_6]
  intro a
  match a with
  | ⟨0, _⟩ => show win0_6.index t (0 : Fin 2) * 6000 ≤ (i 0).val ∧ (i 0).val < win0_6.index t (0 : Fin 2) * 6000 + 6000
              rw [e0]; show (i 0).val / 6000 * 6000 ≤ (i 0).val ∧ (i 0).val < (i 0).val / 6000 * 6000 + 6000; omega
  | ⟨1, _⟩ => show win0_6.index t (1 : Fin 2) * 64 ≤ (i 1).val ∧ (i 1).val < win0_6.index t (1 : Fin 2) * 64 + 64
              rw [e1]; omega
theorem cover0_7 (i : S300000x64.Idx) : ∃ t : Fin cfg0.N, (cfg0.win 7).flush t = true ∧ i ∈ ((cfg0.win 7).blk t).view.set := by
  have h0 : (i 0).val < 300000 := (i 0).isLt
  have h1 : (i 1).val < 64 := (i 1).isLt
  have hN : cfg0.N = 50 := N_0
  let t : Fin cfg0.N := ⟨(i 0).val / 6000, by rw [hN]; omega⟩
  obtain ⟨-, -, -, -, -, -, -, -, -, -, -, -, -, -, e0, e1⟩ := idx_facts0 t
  refine ⟨t, flush0_7 t, ?_⟩
  rw [mem_blk0_7]
  intro a
  match a with
  | ⟨0, _⟩ => show win0_7.index t (0 : Fin 2) * 6000 ≤ (i 0).val ∧ (i 0).val < win0_7.index t (0 : Fin 2) * 6000 + 6000
              rw [e0]; show (i 0).val / 6000 * 6000 ≤ (i 0).val ∧ (i 0).val < (i 0).val / 6000 * 6000 + 6000; omega
  | ⟨1, _⟩ => show win0_7.index t (1 : Fin 2) * 64 ≤ (i 1).val ∧ (i 1).val < win0_7.index t (1 : Fin 2) * 64 + 64
              rw [e1]; omega

/-- After the region the first output array holds the new embeddings of all nodes, -/
theorem final0_6 (c : Dev nD) : (dat0 V c).arrAt 6 cfg0.N = egoOf0 V c :=
  (dat0 V c).arrAt_eq_of_cover 6 (egoOf0 V c) (fun t _ => flushed0_6 V c t) cover0_6
/-- and the second the normalized ones. -/
theorem final0_7 (c : Dev nD) : (dat0 V c).arrAt 7 cfg0.N = normOf0 V c :=
  (dat0 V c).arrAt_eq_of_cover 7 (normOf0 V c) (fun t _ => flushed0_7 V c t) cover0_7

end Cert.KernelIdeal.Hand

end
-- ==== Proof.KIValue1.lean ====
/-
  What region 1's two output arrays hold after the region, as whole-array functions of the arrays the region is
  entered with: block `t` of each output is the body's payload of block `t` of the two node arrays (rows
  6000·t … 6000·t + 5999) and of the whole weight and bias arrays, and row by row that payload is the layer's row
  function; the fifty blocks cover the 300000 rows.
-/
import proofs.«152006_j19688130085762_1_alg».proof.Proof.KIBody1
import proofs.«152006_j19688130085762_1_alg».proof.Proof.KIPay
import proofs.«152006_j19688130085762_1_alg».proof.Proof.LayerFull

set_option maxRecDepth 16384

noncomputable section

namespace Cert.KernelIdeal.Hand

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the node windows (the two inputs and the two outputs) sit at block row `t`,
    the weight and bias windows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Row `6000·T + p` of a 300000-row array. -/
abbrev rowIx1 (T : Nat) (hT : T < 50) (p : Fin 6000) : Fin 300000 := ⟨6000 * T + p.val, by have := p.isLt; omega⟩

/-- A block's payload of the new embedding, at row `p` and column `j`, when the node blocks are rows `6000·T + ·` of
    whole arrays and the weight and bias blocks are the whole arrays: the whole-array function at row `6000·T + p`. -/
theorem ego_block1 (A0 A1 : (⟨2, ![300000, 64]⟩ : Shape).Idx → EReal) (A2 A4 : (⟨2, ![64, 64]⟩ : Shape).Idx → EReal)
    (A3 A5 : (⟨2, ![1, 64]⟩ : Shape).Idx → EReal)
    (x0 x1 : Vec Ideal S6000x64 .f32) (x2 x4 : Vec Ideal S64x64 .f32) (x3 x5 : Vec Ideal S1x64 .f32) (T : Nat) (hT : T < 50)
    (h0 : ∀ (p : Fin 6000) (k : Fin 64), x0 (ix2 p k) = A0 (ix2 (rowIx1 T hT p) k))
    (h1 : ∀ (p : Fin 6000) (k : Fin 64), x1 (ix2 p k) = A1 (ix2 (rowIx1 T hT p) k))
    (h2 : x2 = A2) (h3 : x3 = A3) (h4 : x4 = A4) (h5 : x5 = A5) (p : Fin 6000) (j : Fin 64) :
    k0_pay1 x0 x1 x2 x4 x3 x5 (ix2 p j) = egoFull A0 A1 A2 A3 A4 A5 (ix2 (rowIx1 T hT p) j) := by
  subst h2 h3 h4 h5
  rw [pay1_apply]
  unfold egoFull
  show egoRow (fun k => x0 (ix2 p k)) (fun k => x1 (ix2 p k)) _ _ _ _ j = egoRow (fun k => A0 (ix2 (rowIx1 T hT p) k)) (fun k => A1 (ix2 (rowIx1 T hT p) k)) _ _ _ _ j
  rw [funext (h0 p), funext (h1 p)]

/-- The same for the normalized embedding. -/
theorem norm_block1 (A0 A1 : (⟨2, ![300000, 64]⟩ : Shape).Idx → EReal) (A2 A4 : (⟨2, ![64, 64]⟩ : Shape).Idx → EReal)
    (A3 A5 : (⟨2, ![1, 64]⟩ : Shape).Idx → EReal)
    (x0 x1 : Vec Ideal S6000x64 .f32) (x2 x4 : Vec Ideal S64x64 .f32) (x3 x5 : Vec Ideal S1x64 .f32) (T : Nat) (hT : T < 50)
    (h0 : ∀ (p : Fin 6000) (k : Fin 64), x0 (ix2 p k) = A0 (ix2 (rowIx1 T hT p) k))
    (h1 : ∀ (p : Fin 6000) (k : Fin 64), x1 (ix2 p k) = A1 (ix2 (rowIx1 T hT p) k))
    (h2 : x2 = A2) (h3 : x3 = A3) (h4 : x4 = A4) (h5 : x5 = A5) (p : Fin 6000) (j : Fin 64) :
    k0_pay2 x0 x1 x2 x4 x3 x5 (ix2 p j) = normFull A0 A1 A2 A3 A4 A5 (ix2 (rowIx1 T hT p) j) := by
  subst h2 h3 h4 h5
  rw [pay2_apply]
  unfold normFull
  show normRow (fun k => x0 (ix2 p k)) (fun k => x1 (ix2 p k)) _ _ _ _ j = normRow (fun k => A0 (ix2 (rowIx1 T hT p) k)) (fun k => A1 (ix2 (rowIx1 T hT p) k)) _ _ _ _ j
  rw [funext (h0 p), funext (h1 p)]

/-! ## The windows' blocks read off the entry arrays -/

theorem blk1_0_apply (c : Dev nD) (t : Fin cfg1.N) (p : Fin 6000) (k : Fin 64) :
    blk1 V c 0 t (ix2 p k) = V c main_v35 (ix2 (rowIx1 t.val (by have h1 := t.isLt; have h2 : cfg1.N = 50 := N_1; omega) p) k) := by
  obtain ⟨e0, e1, -⟩ := idx_facts1 t
  unfold blk1
  rw [View.read_apply]
  show V c main_v35 _ = V c main_v35 _
  refine congrArg (V c main_v35) ?_
  funext a; apply Fin.ext
  match a with
  | ⟨0, _⟩ => show win1_0.index t (0 : Fin 2) * 6000 + 1 * p.val = 6000 * t.val + p.val; rw [e0]; omega
  | ⟨1, _⟩ => show win1_0.index t (1 : Fin 2) * 64 + 1 * k.val = k.val; rw [e1]; omega

theorem blk1_1_apply (c : Dev nD) (t : Fin cfg1.N) (p : Fin 6000) (k : Fin 64) :
    blk1 V c 1 t (ix2 p k) = V c main_v22_0 (ix2 (rowIx1 t.val (by have h1 := t.isLt; have h2 : cfg1.N = 50 := N_1; omega) p) k) := by
  obtain ⟨-, -, e0, e1, -⟩ := idx_facts1 t
  unfold blk1
  rw [View.read_apply]
  show V c main_v22_0 _ = V c main_v22_0 _
  refine congrArg (V c main_v22_0) ?_
  funext a; apply Fin.ext
  match a with
  | ⟨0, _⟩ => show win1_1.index t (0 : Fin 2) * 6000 + 1 * p.val = 6000 * t.val + p.val; rw [e0]; omega
  | ⟨1, _⟩ => show win1_1.index t (1 : Fin 2) * 64 + 1 * k.val = k.val; rw [e1]; omega

theorem blk1_2_eq (c : Dev nD) (t : Fin cfg1.N) : (blk1 V c 2 t : Vec Ideal S64x64 .f32) = V c main_v37 := by
  obtain ⟨-, -, -, -, e0, e1, -⟩ := idx_facts1 t
  funext y
  unfold blk1
  rw [View.read_apply]
  show V c main_v37 _ = V c main_v37 _
  refine congrArg (V c main_v37) ?_
  funext a; apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

theorem blk1_3_eq (c : Dev nD) (t : Fin cfg1.N) : (blk1 V c 3 t : Vec Ideal S1x64 .f32) = V c main_v39 := by
  obtain ⟨-, -, -, -, -, -, e0, e1, -⟩ := idx_facts1 t
  funext y
  unfold blk1
  rw [View.read_apply]
  show V c main_v39 _ = V c main_v39 _
  refine congrArg (V c main_v39) ?_
  funext a; apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

theorem blk1_4_eq (c : Dev nD) (t : Fin cfg1.N) : (blk1 V c 4 t : Vec Ideal S64x64 .f32) = V c main_v41 := by
  obtain ⟨-, -, -, -, -, -, -, -, e0, e1, -⟩ := idx_facts1 t
  funext y
  unfold blk1
  rw [View.read_apply]
  show V c main_v41 _ = V c main_v41 _
  refine congrArg (V c main_v41) ?_
  funext a; apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

theorem blk1_5_eq (c : Dev nD) (t : Fin cfg1.N) : (blk1 V c 5 t : Vec Ideal S1x64 .f32) = V c main_v43 := by
  obtain ⟨-, -, -, -, -, -, -, -, -, -, e0, e1, -⟩ := idx_facts1 t
  funext y
  unfold blk1
  rw [View.read_apply]
  show V c main_v43 _ = V c main_v43 _
  refine congrArg (V c main_v43) ?_
  funext a; apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-! ## The two outputs -/

/-- The new embeddings of all nodes, from the arrays the region is entered with. -/
abbrev egoOf1 (c : Dev nD) : (⟨2, ![300000, 64]⟩ : Shape).Idx → EReal :=
  egoFull (V c main_v35) (V c main_v22_0) (V c main_v37) (V c main_v39) (V c main_v41) (V c main_v43)
/-- The normalized new embeddings of all nodes. -/
abbrev normOf1 (c : Dev nD) : (⟨2, ![300000, 64]⟩ : Shape).Idx → EReal :=
  normFull (V c main_v35) (V c main_v22_0) (V c main_v37) (V c main_v39) (V c main_v41) (V c main_v43)

/-- What point `t` writes back into the first output is block `t` of `egoOf1`. -/
theorem flushed1_6 (c : Dev nD) (t : Fin cfg1.N) :
    (dat1 V c).flushed 6 t = ((cfg1.win 6).blk t).view.read (Elt Ideal) (egoOf1 V c) := by
  obtain ⟨-, -, -, -, -, -, -, -, -, -, -, -, e0, e1, -⟩ := idx_facts1 t
  have hT : t.val < 50 := by have h1 := t.isLt; have h2 : cfg1.N = 50 := N_1; omega
  show (cfg1.win 6).cut (grid1.coords t) ((dat1 V c).after 6 t) = _
  rw [after1_6, egoOut1_eq]
  funext y
  show k1_pay1 (blk1 V c 0 t) (blk1 V c 1 t) (blk1 V c 2 t) (blk1 V c 4 t) (blk1 V c 3 t) (blk1 V c 5 t) y
    = egoOf1 V c (((cfg1.win 6).blk t).view.emb y)
  rw [pay1_1]
  refine (congrArg (k0_pay1 (blk1 V c 0 t) (blk1 V c 1 t) (blk1 V c 2 t) (blk1 V c 4 t) (blk1 V c 3 t) (blk1 V c 5 t)) (eq_ix2 (n0 := 6000) (n1 := 64) y)).trans ?_
  refine (ego_block1 (V c main_v35) (V c main_v22_0) (V c main_v37) (V c main_v41) (V c main_v39) (V c main_v43) _ _ _ _ _ _ t.val hT
    (blk1_0_apply V c t) (blk1_1_apply V c t) (blk1_2_eq V c t) (blk1_3_eq V c t) (blk1_4_eq V c t) (blk1_5_eq V c t) (y 0) (y 1)).trans ?_
  refine congrArg (egoOf1 V c) ?_
  funext a; apply Fin.ext
  match a with
  | ⟨0, _⟩ => show 6000 * t.val + (y 0).val = win1_6.index t (0 : Fin 2) * 6000 + 1 * (y 0).val; rw [e0]; omega
  | ⟨1, _⟩ => show (y 1).val = win1_6.index t (1 : Fin 2) * 64 + 1 * (y 1).val; rw [e1]; omega

/-- What point `t` writes back into the second output is block `t` of `normOf1`. -/
theorem flushed1_7 (c : Dev nD) (t : Fin cfg1.N) :
    (dat1 V c).flushed 7 t = ((cfg1.win 7).blk t).view.read (Elt Ideal) (normOf1 V c) := by
  obtain ⟨-, -, -, -, -, -, -, -, -, -, -, -, -, -, e0, e1⟩ := idx_facts1 t
  have hT : t.val < 50 := by have h1 := t.isLt; have h2 : cfg1.N = 50 := N_1; omega
  show (cfg1.win 7).cut (grid1.coords t) ((dat1 V c).after 7 t) = _
  rw [after1_7, normOut1_eq]
  funext y
  show k1_pay2 (blk1 V c 0 t) (blk1 V c 1 t) (blk1 V c 2 t) (blk1 V c 4 t) (blk1 V c 3 t) (blk1 V c 5 t) y
    = normOf1 V c (((cfg1.win 7).blk t).view.emb y)
  rw [pay2_1]
  refine (congrArg (k0_pay2 (blk1 V c 0 t) (blk1 V c 1 t) (blk1 V c 2 t) (blk1 V c 4 t) (blk1 V c 3 t) (blk1 V c 5 t)) (eq_ix2 (n0 := 6000) (n1 := 64) y)).trans ?_
  refine (norm_block1 (V c main_v35) (V c main_v22_0) (V c main_v37) (V c main_v41) (V c main_v39) (V c main_v43) _ _ _ _ _ _ t.val hT
    (blk1_0_apply V c t) (blk1_1_apply V c t) (blk1_2_eq V c t) (blk1_3_eq V c t) (blk1_4_eq V c t) (blk1_5_eq V c t) (y 0) (y 1)).trans ?_
  refine congrArg (normOf1 V c) ?_
  funext a; apply Fin.ext
  match a with
  | ⟨0, _⟩ => show 6000 * t.val + (y 0).val = win1_7.index t (0 : Fin 2) * 6000 + 1 * (y 0).val; rw [e0]; omega
  | ⟨1, _⟩ => show (y 1).val = win1_7.index t (1 : Fin 2) * 64 + 1 * (y 1).val; rw [e1]; omega

/-- An index of an output array is in point `t`'s block iff each coordinate is in the block's range. -/
theorem mem_blk1_6 (t : Fin cfg1.N) (i : S300000x64.Idx) :
    i ∈ ((cfg1.win 6).blk t).view.set ↔ ∀ a : Fin 2, win1_6.index t a * S6000x64.size a ≤ (i a).val ∧ (i a).val < win1_6.index t a * S6000x64.size a + S6000x64.size a := by
  show i ∈ ((View.whole main_v44_0).slice (win1_6.rect t)).set ↔ _
  rw [View.set_slice_whole, Rect.mem_set_unit]
  exact Iff.rfl
theorem mem_blk1_7 (t : Fin cfg1.N) (i : S300000x64.Idx) :
    i ∈ ((cfg1.win 7).blk t).view.set ↔ ∀ a : Fin 2, win1_7.index t a * S6000x64.size a ≤ (i a).val ∧ (i a).val < win1_7.index t a * S6000x64.size a + S6000x64.size a := by
  show i ∈ ((View.whole main_v44_1).slice (win1_7.rect t)).set ↔ _
  rw [View.set_slice_whole, Rect.mem_set_unit]
  exact Iff.rfl

/-- Row `r` is in the block of point `r / 6000`. -/
theorem cover1_6 (i : S300000x64.Idx) : ∃ t : Fin cfg1.N, (cfg1.win 6).flush t = true ∧ i ∈ ((cfg1.win 6).blk t).view.set := by
  have h0 : (i 0).val < 300000 := (i 0).isLt
  have h1 : (i 1).val < 64 := (i 1).isLt
  have hN : cfg1.N = 50 := N_1
  let t : Fin cfg1.N := ⟨(i 0).val / 6000, by rw [hN]; omega⟩
  obtain ⟨-, -, -, -, -, -, -, -, -, -, -, -, e0, e1, -⟩ := idx_facts1 t
  refine ⟨t, flush1_6 t, ?_⟩
  rw [mem_blk1_6]
  intro a
  match a with
  | ⟨0, _⟩ => show win1_6.index t (0 : Fin 2) * 6000 ≤ (i 0).val ∧ (i 0).val < win1_6.index t (0 : Fin 2) * 6000 + 6000
              rw [e0]; show (i 0).val / 6000 * 6000 ≤ (i 0).val ∧ (i 0).val < (i 0).val / 6000 * 6000 + 6000; omega
  | ⟨1, _⟩ => show win1_6.index t (1 : Fin 2) * 64 ≤ (i 1).val ∧ (i 1).val < win1_6.index t (1 : Fin 2) * 64 + 64
              rw [e1]; omega
theorem cover1_7 (i : S300000x64.Idx) : ∃ t : Fin cfg1.N, (cfg1.win 7).flush t = true ∧ i ∈ ((cfg1.win 7).blk t).view.set := by
  have h0 : (i 0).val < 300000 := (i 0).isLt
  have h1 : (i 1).val < 64 := (i 1).isLt
  have hN : cfg1.N = 50 := N_1
  let t : Fin cfg1.N := ⟨(i 0).val / 6000, by rw [hN]; omega⟩
  obtain ⟨-, -, -, -, -, -, -, -, -, -, -, -, -, -, e0, e1⟩ := idx_facts1 t
  refine ⟨t, flush1_7 t, ?_⟩
  rw [mem_blk1_7]
  intro a
  match a with
  | ⟨0, _⟩ => show win1_7.index t (0 : Fin 2) * 6000 ≤ (i 0).val ∧ (i 0).val < win1_7.index t (0 : Fin 2) * 6000 + 6000
              rw [e0]; show (i 0).val / 6000 * 6000 ≤ (i 0).val ∧ (i 0).val < (i 0).val / 6000 * 6000 + 6000; omega
  | ⟨1, _⟩ => show win1_7.index t (1 : Fin 2) * 64 ≤ (i 1).val ∧ (i 1).val < win1_7.index t (1 : Fin 2) * 64 + 64
              rw [e1]; omega

/-- After the region the first output array holds the new embeddings of all nodes, -/
theorem final1_6 (c : Dev nD) : (dat1 V c).arrAt 6 cfg1.N = egoOf1 V c :=
  (dat1 V c).arrAt_eq_of_cover 6 (egoOf1 V c) (fun t _ => flushed1_6 V c t) cover1_6
/-- and the second the normalized ones. -/
theorem final1_7 (c : Dev nD) : (dat1 V c).arrAt 7 cfg1.N = normOf1 V c :=
  (dat1 V c).arrAt_eq_of_cover 7 (normOf1 V c) (fun t _ => flushed1_7 V c t) cover1_7

end Cert.KernelIdeal.Hand

end
-- ==== Proof.KIValue2.lean ====
/-
  What region 2's two output arrays hold after the region, as whole-array functions of the arrays the region is
  entered with: block `t` of each output is the body's payload of block `t` of the two node arrays (rows
  6000·t … 6000·t + 5999) and of the whole weight and bias arrays, and row by row that payload is the layer's row
  function; the fifty blocks cover the 300000 rows.
-/
import proofs.«152006_j19688130085762_1_alg».proof.Proof.KIBody2
import proofs.«152006_j19688130085762_1_alg».proof.Proof.KIPay
import proofs.«152006_j19688130085762_1_alg».proof.Proof.LayerFull

set_option maxRecDepth 16384

noncomputable section

namespace Cert.KernelIdeal.Hand

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the node windows (the two inputs and the two outputs) sit at block row `t`,
    the weight and bias windows at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Row `6000·T + p` of a 300000-row array. -/
abbrev rowIx2 (T : Nat) (hT : T < 50) (p : Fin 6000) : Fin 300000 := ⟨6000 * T + p.val, by have := p.isLt; omega⟩

/-- A block's payload of the new embedding, at row `p` and column `j`, when the node blocks are rows `6000·T + ·` of
    whole arrays and the weight and bias blocks are the whole arrays: the whole-array function at row `6000·T + p`. -/
theorem ego_block2 (A0 A1 : (⟨2, ![300000, 64]⟩ : Shape).Idx → EReal) (A2 A4 : (⟨2, ![64, 64]⟩ : Shape).Idx → EReal)
    (A3 A5 : (⟨2, ![1, 64]⟩ : Shape).Idx → EReal)
    (x0 x1 : Vec Ideal S6000x64 .f32) (x2 x4 : Vec Ideal S64x64 .f32) (x3 x5 : Vec Ideal S1x64 .f32) (T : Nat) (hT : T < 50)
    (h0 : ∀ (p : Fin 6000) (k : Fin 64), x0 (ix2 p k) = A0 (ix2 (rowIx2 T hT p) k))
    (h1 : ∀ (p : Fin 6000) (k : Fin 64), x1 (ix2 p k) = A1 (ix2 (rowIx2 T hT p) k))
    (h2 : x2 = A2) (h3 : x3 = A3) (h4 : x4 = A4) (h5 : x5 = A5) (p : Fin 6000) (j : Fin 64) :
    k0_pay1 x0 x1 x2 x4 x3 x5 (ix2 p j) = egoFull A0 A1 A2 A3 A4 A5 (ix2 (rowIx2 T hT p) j) := by
  subst h2 h3 h4 h5
  rw [pay1_apply]
  unfold egoFull
  show egoRow (fun k => x0 (ix2 p k)) (fun k => x1 (ix2 p k)) _ _ _ _ j = egoRow (fun k => A0 (ix2 (rowIx2 T hT p) k)) (fun k => A1 (ix2 (rowIx2 T hT p) k)) _ _ _ _ j
  rw [funext (h0 p), funext (h1 p)]

/-- The same for the normalized embedding. -/
theorem norm_block2 (A0 A1 : (⟨2, ![300000, 64]⟩ : Shape).Idx → EReal) (A2 A4 : (⟨2, ![64, 64]⟩ : Shape).Idx → EReal)
    (A3 A5 : (⟨2, ![1, 64]⟩ : Shape).Idx → EReal)
    (x0 x1 : Vec Ideal S6000x64 .f32) (x2 x4 : Vec Ideal S64x64 .f32) (x3 x5 : Vec Ideal S1x64 .f32) (T : Nat) (hT : T < 50)
    (h0 : ∀ (p : Fin 6000) (k : Fin 64), x0 (ix2 p k) = A0 (ix2 (rowIx2 T hT p) k))
    (h1 : ∀ (p : Fin 6000) (k : Fin 64), x1 (ix2 p k) = A1 (ix2 (rowIx2 T hT p) k))
    (h2 : x2 = A2) (h3 : x3 = A3) (h4 : x4 = A4) (h5 : x5 = A5) (p : Fin 6000) (j : Fin 64) :
    k0_pay2 x0 x1 x2 x4 x3 x5 (ix2 p j) = normFull A0 A1 A2 A3 A4 A5 (ix2 (rowIx2 T hT p) j) := by
  subst h2 h3 h4 h5
  rw [pay2_apply]
  unfold normFull
  show normRow (fun k => x0 (ix2 p k)) (fun k => x1 (ix2 p k)) _ _ _ _ j = normRow (fun k => A0 (ix2 (rowIx2 T hT p) k)) (fun k => A1 (ix2 (rowIx2 T hT p) k)) _ _ _ _ j
  rw [funext (h0 p), funext (h1 p)]

/-! ## The windows' blocks read off the entry arrays -/

theorem blk2_0_apply (c : Dev nD) (t : Fin cfg2.N) (p : Fin 6000) (k : Fin 64) :
    blk2 V c 0 t (ix2 p k) = V c main_v57 (ix2 (rowIx2 t.val (by have h1 := t.isLt; have h2 : cfg2.N = 50 := N_2; omega) p) k) := by
  obtain ⟨e0, e1, -⟩ := idx_facts2 t
  unfold blk2
  rw [View.read_apply]
  show V c main_v57 _ = V c main_v57 _
  refine congrArg (V c main_v57) ?_
  funext a; apply Fin.ext
  match a with
  | ⟨0, _⟩ => show win2_0.index t (0 : Fin 2) * 6000 + 1 * p.val = 6000 * t.val + p.val; rw [e0]; omega
  | ⟨1, _⟩ => show win2_0.index t (1 : Fin 2) * 64 + 1 * k.val = k.val; rw [e1]; omega

theorem blk2_1_apply (c : Dev nD) (t : Fin cfg2.N) (p : Fin 6000) (k : Fin 64) :
    blk2 V c 1 t (ix2 p k) = V c main_v44_0 (ix2 (rowIx2 t.val (by have h1 := t.isLt; have h2 : cfg2.N = 50 := N_2; omega) p) k) := by
  obtain ⟨-, -, e0, e1, -⟩ := idx_facts2 t
  unfold blk2
  rw [View.read_apply]
  show V c main_v44_0 _ = V c main_v44_0 _
  refine congrArg (V c main_v44_0) ?_
  funext a; apply Fin.ext
  match a with
  | ⟨0, _⟩ => show win2_1.index t (0 : Fin 2) * 6000 + 1 * p.val = 6000 * t.val + p.val; rw [e0]; omega
  | ⟨1, _⟩ => show win2_1.index t (1 : Fin 2) * 64 + 1 * k.val = k.val; rw [e1]; omega

theorem blk2_2_eq (c : Dev nD) (t : Fin cfg2.N) : (blk2 V c 2 t : Vec Ideal S64x64 .f32) = V c main_v59 := by
  obtain ⟨-, -, -, -, e0, e1, -⟩ := idx_facts2 t
  funext y
  unfold blk2
  rw [View.read_apply]
  show V c main_v59 _ = V c main_v59 _
  refine congrArg (V c main_v59) ?_
  funext a; apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

theorem blk2_3_eq (c : Dev nD) (t : Fin cfg2.N) : (blk2 V c 3 t : Vec Ideal S1x64 .f32) = V c main_v61 := by
  obtain ⟨-, -, -, -, -, -, e0, e1, -⟩ := idx_facts2 t
  funext y
  unfold blk2
  rw [View.read_apply]
  show V c main_v61 _ = V c main_v61 _
  refine congrArg (V c main_v61) ?_
  funext a; apply Fin.ext
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

theorem blk2_4_eq (c : Dev nD) (t : Fin cfg2.N) : (blk2 V c 4 t : Vec Ideal S64x64 .f32) = V c main_v63 := by
  obtain ⟨-, -, -, -, -, -, -, -, e0, e1, -⟩ := idx_facts2 t
  funext y
  unfold blk2
  rw [View.read_apply]
  show V c main_v63 _ = V c main_v63 _
  refine congrArg (V c main_v63) ?_
  funext a; apply Fin.ext
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

theorem blk2_5_eq (c : Dev nD) (t : Fin cfg2.N) : (blk2 V c 5 t : Vec Ideal S1x64 .f32) = V c main_v65 := by
  obtain ⟨-, -, -, -, -, -, -, -, -, -, e0, e1, -⟩ := idx_facts2 t
  funext y
  unfold blk2
  rw [View.read_apply]
  show V c main_v65 _ = V c main_v65 _
  refine congrArg (V c main_v65) ?_
  funext a; apply Fin.ext
  match a with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

/-! ## The two outputs -/

/-- The new embeddings of all nodes, from the arrays the region is entered with. -/
abbrev egoOf2 (c : Dev nD) : (⟨2, ![300000, 64]⟩ : Shape).Idx → EReal :=
  egoFull (V c main_v57) (V c main_v44_0) (V c main_v59) (V c main_v61) (V c main_v63) (V c main_v65)
/-- The normalized new embeddings of all nodes. -/
abbrev normOf2 (c : Dev nD) : (⟨2, ![300000, 64]⟩ : Shape).Idx → EReal :=
  normFull (V c main_v57) (V c main_v44_0) (V c main_v59) (V c main_v61) (V c main_v63) (V c main_v65)

/-- What point `t` writes back into the first output is block `t` of `egoOf2`. -/
theorem flushed2_6 (c : Dev nD) (t : Fin cfg2.N) :
    (dat2 V c).flushed 6 t = ((cfg2.win 6).blk t).view.read (Elt Ideal) (egoOf2 V c) := by
  obtain ⟨-, -, -, -, -, -, -, -, -, -, -, -, e0, e1, -⟩ := idx_facts2 t
  have hT : t.val < 50 := by have h1 := t.isLt; have h2 : cfg2.N = 50 := N_2; omega
  show (cfg2.win 6).cut (grid2.coords t) ((dat2 V c).after 6 t) = _
  rw [after2_6, egoOut2_eq]
  funext y
  show k2_pay1 (blk2 V c 0 t) (blk2 V c 1 t) (blk2 V c 2 t) (blk2 V c 4 t) (blk2 V c 3 t) (blk2 V c 5 t) y
    = egoOf2 V c (((cfg2.win 6).blk t).view.emb y)
  rw [pay1_2]
  refine (congrArg (k0_pay1 (blk2 V c 0 t) (blk2 V c 1 t) (blk2 V c 2 t) (blk2 V c 4 t) (blk2 V c 3 t) (blk2 V c 5 t)) (eq_ix2 (n0 := 6000) (n1 := 64) y)).trans ?_
  refine (ego_block2 (V c main_v57) (V c main_v44_0) (V c main_v59) (V c main_v63) (V c main_v61) (V c main_v65) _ _ _ _ _ _ t.val hT
    (blk2_0_apply V c t) (blk2_1_apply V c t) (blk2_2_eq V c t) (blk2_3_eq V c t) (blk2_4_eq V c t) (blk2_5_eq V c t) (y 0) (y 1)).trans ?_
  refine congrArg (egoOf2 V c) ?_
  funext a; apply Fin.ext
  match a with
  | ⟨0, _⟩ => show 6000 * t.val + (y 0).val = win2_6.index t (0 : Fin 2) * 6000 + 1 * (y 0).val; rw [e0]; omega
  | ⟨1, _⟩ => show (y 1).val = win2_6.index t (1 : Fin 2) * 64 + 1 * (y 1).val; rw [e1]; omega

/-- What point `t` writes back into the second output is block `t` of `normOf2`. -/
theorem flushed2_7 (c : Dev nD) (t : Fin cfg2.N) :
    (dat2 V c).flushed 7 t = ((cfg2.win 7).blk t).view.read (Elt Ideal) (normOf2 V c) := by
  obtain ⟨-, -, -, -, -, -, -, -, -, -, -, -, -, -, e0, e1⟩ := idx_facts2 t
  have hT : t.val < 50 := by have h1 := t.isLt; have h2 : cfg2.N = 50 := N_2; omega
  show (cfg2.win 7).cut (grid2.coords t) ((dat2 V c).after 7 t) = _
  rw [after2_7, normOut2_eq]
  funext y
  show k2_pay2 (blk2 V c 0 t) (blk2 V c 1 t) (blk2 V c 2 t) (blk2 V c 4 t) (blk2 V c 3 t) (blk2 V c 5 t) y
    = normOf2 V c (((cfg2.win 7).blk t).view.emb y)
  rw [pay2_2]
  refine (congrArg (k0_pay2 (blk2 V c 0 t) (blk2 V c 1 t) (blk2 V c 2 t) (blk2 V c 4 t) (blk2 V c 3 t) (blk2 V c 5 t)) (eq_ix2 (n0 := 6000) (n1 := 64) y)).trans ?_
  refine (norm_block2 (V c main_v57) (V c main_v44_0) (V c main_v59) (V c main_v63) (V c main_v61) (V c main_v65) _ _ _ _ _ _ t.val hT
    (blk2_0_apply V c t) (blk2_1_apply V c t) (blk2_2_eq V c t) (blk2_3_eq V c t) (blk2_4_eq V c t) (blk2_5_eq V c t) (y 0) (y 1)).trans ?_
  refine congrArg (normOf2 V c) ?_
  funext a; apply Fin.ext
  match a with
  | ⟨0, _⟩ => show 6000 * t.val + (y 0).val = win2_7.index t (0 : Fin 2) * 6000 + 1 * (y 0).val; rw [e0]; omega
  | ⟨1, _⟩ => show (y 1).val = win2_7.index t (1 : Fin 2) * 64 + 1 * (y 1).val; rw [e1]; omega

/-- An index of an output array is in point `t`'s block iff each coordinate is in the block's range. -/
theorem mem_blk2_6 (t : Fin cfg2.N) (i : S300000x64.Idx) :
    i ∈ ((cfg2.win 6).blk t).view.set ↔ ∀ a : Fin 2, win2_6.index t a * S6000x64.size a ≤ (i a).val ∧ (i a).val < win2_6.index t a * S6000x64.size a + S6000x64.size a := by
  show i ∈ ((View.whole main_v66_0).slice (win2_6.rect t)).set ↔ _
  rw [View.set_slice_whole, Rect.mem_set_unit]
  exact Iff.rfl
theorem mem_blk2_7 (t : Fin cfg2.N) (i : S300000x64.Idx) :
    i ∈ ((cfg2.win 7).blk t).view.set ↔ ∀ a : Fin 2, win2_7.index t a * S6000x64.size a ≤ (i a).val ∧ (i a).val < win2_7.index t a * S6000x64.size a + S6000x64.size a := by
  show i ∈ ((View.whole main_v66_1).slice (win2_7.rect t)).set ↔ _
  rw [View.set_slice_whole, Rect.mem_set_unit]
  exact Iff.rfl

/-- Row `r` is in the block of point `r / 6000`. -/
theorem cover2_6 (i : S300000x64.Idx) : ∃ t : Fin cfg2.N, (cfg2.win 6).flush t = true ∧ i ∈ ((cfg2.win 6).blk t).view.set := by
  have h0 : (i 0).val < 300000 := (i 0).isLt
  have h1 : (i 1).val < 64 := (i 1).isLt
  have hN : cfg2.N = 50 := N_2
  let t : Fin cfg2.N := ⟨(i 0).val / 6000, by rw [hN]; omega⟩
  obtain ⟨-, -, -, -, -, -, -, -, -, -, -, -, e0, e1, -⟩ := idx_facts2 t
  refine ⟨t, flush2_6 t, ?_⟩
  rw [mem_blk2_6]
  intro a
  match a with
  | ⟨0, _⟩ => show win2_6.index t (0 : Fin 2) * 6000 ≤ (i 0).val ∧ (i 0).val < win2_6.index t (0 : Fin 2) * 6000 + 6000
              rw [e0]; show (i 0).val / 6000 * 6000 ≤ (i 0).val ∧ (i 0).val < (i 0).val / 6000 * 6000 + 6000; omega
  | ⟨1, _⟩ => show win2_6.index t (1 : Fin 2) * 64 ≤ (i 1).val ∧ (i 1).val < win2_6.index t (1 : Fin 2) * 64 + 64
              rw [e1]; omega
theorem cover2_7 (i : S300000x64.Idx) : ∃ t : Fin cfg2.N, (cfg2.win 7).flush t = true ∧ i ∈ ((cfg2.win 7).blk t).view.set := by
  have h0 : (i 0).val < 300000 := (i 0).isLt
  have h1 : (i 1).val < 64 := (i 1).isLt
  have hN : cfg2.N = 50 := N_2
  let t : Fin cfg2.N := ⟨(i 0).val / 6000, by rw [hN]; omega⟩
  obtain ⟨-, -, -, -, -, -, -, -, -, -, -, -, -, -, e0, e1⟩ := idx_facts2 t
  refine ⟨t, flush2_7 t, ?_⟩
  rw [mem_blk2_7]
  intro a
  match a with
  | ⟨0, _⟩ => show win2_7.index t (0 : Fin 2) * 6000 ≤ (i 0).val ∧ (i 0).val < win2_7.index t (0 : Fin 2) * 6000 + 6000
              rw [e0]; show (i 0).val / 6000 * 6000 ≤ (i 0).val ∧ (i 0).val < (i 0).val / 6000 * 6000 + 6000; omega
  | ⟨1, _⟩ => show win2_7.index t (1 : Fin 2) * 64 ≤ (i 1).val ∧ (i 1).val < win2_7.index t (1 : Fin 2) * 64 + 64
              rw [e1]; omega

/-- After the region the first output array holds the new embeddings of all nodes, -/
theorem final2_6 (c : Dev nD) : (dat2 V c).arrAt 6 cfg2.N = egoOf2 V c :=
  (dat2 V c).arrAt_eq_of_cover 6 (egoOf2 V c) (fun t _ => flushed2_6 V c t) cover2_6
/-- and the second the normalized ones. -/
theorem final2_7 (c : Dev nD) : (dat2 V c).arrAt 7 cfg2.N = normOf2 V c :=
  (dat2 V c).arrAt_eq_of_cover 7 (normOf2 V c) (fun t _ => flushed2_7 V c t) cover2_7

end Cert.KernelIdeal.Hand

end
-- ==== Proof.KIRead.lean ====
/- The host stretches of the kernel program read back at exact reals: the named host terms (the stacking of the
   two embedding tables, the sparse product in coordinate form, each layer's slices of the stacked parameters,
   the three gathered results) and, for any contents V of the TensorCore's buffers, what each stretch leaves in
   the buffers the next region (or the caller) reads, as those terms of V. -/
import proofs.«152006_j19688130085762_1_alg».proof.Proof.Gen.KernelIdeal.Launch
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-! ## The named host terms -/

/-- The two embedding tables stacked: 100000 user rows above 200000 item rows. -/
def concatK (a0 : FVec Ideal S100000x64 .f32) (a1 : FVec Ideal S200000x64 .f32) : FVec Ideal S300000x64 .f32 :=
  concatenate S300000x64 0 [⟨S100000x64, a0⟩, ⟨S200000x64, a1⟩] concatenates_S100000x64_S200000x64_S300000x64_d0

/-- The sparse product of the adjacency in coordinate form (values vals, row indices rows, column indices cols)
    with the embeddings: each entry gathers its column's row of ego (a negative column index first wrapped by the
    number of rows), scales it by the entry's value, and the scaled rows are added into the zero array at the
    entries' row indices. -/
def spmmK (vals : FVec Ideal S4000000 .f32) (rows cols : IVec S4000000 32) (ego : FVec Ideal S300000x64 .f32) :
    FVec Ideal S300000x64 .f32 :=
  Host.scatterAdd (F := Ideal) scatter_S300000x64_S4000000x1_S4000000x64_1_0_0_1
    (broadcastInDim S300000x64 ![] bcast_S_S300000x64 (constant (F := Ideal) S_ .f32 0x00000000#32))
    (broadcastInDim S4000000x1 ![0] bcast_S4000000_S4000000x1_0 rows)
    (mulf (F := Ideal)
      (broadcastInDim S4000000x64 ![0, 1] bcast_S4000000x1_S4000000x64_0_1
        (broadcastInDim S4000000x1 ![0] bcast_S4000000_S4000000x1_0 vals))
      (Host.gather gather_S300000x64_S4000000x1_S4000000x64_1_0_n_n_0_1_164 ego
        (broadcastInDim S4000000x1 ![0] bcast_S4000000_S4000000x1_0
          (select (cmpi .slt cols (broadcastInDim S4000000 ![] bcast_S_S4000000 (constantI S_ 32 0#32)))
            (addi cols (broadcastInDim S4000000 ![] bcast_S_S4000000 (constantI S_ 32 300000#32))) cols))))

/-- Layer 0's slice of a stack of three 64 × 64 matrices, as a matrix. -/
def w1K0 (a : FVec Ideal S3x64x64 .f32) : FVec Ideal S64x64 .f32 :=
  shapeCast S64x64 (extractStridedSlice S1x64x64 ![0, 0, 0] a slices_S3x64x64_S1x64x64_0_0_0) shapeCasts_S1x64x64_S64x64

/-- Layer 0's slice of a stack of three 64 × 64 matrices, as a matrix. -/
def w2K0 (a : FVec Ideal S3x64x64 .f32) : FVec Ideal S64x64 .f32 :=
  shapeCast S64x64 (extractStridedSlice S1x64x64 ![0, 0, 0] a slices_S3x64x64_S1x64x64_0_0_0) shapeCasts_S1x64x64_S64x64

/-- Layer 0's slice of a stack of three bias rows, as a row. -/
def b1K0 (a : FVec Ideal S3x1x64 .f32) : FVec Ideal S1x64 .f32 :=
  shapeCast S1x64 (extractStridedSlice S1x1x64 ![0, 0, 0] a slices_S3x1x64_S1x1x64_0_0_0) shapeCasts_S1x1x64_S1x64

/-- Layer 0's slice of a stack of three bias rows, as a row. -/
def b2K0 (a : FVec Ideal S3x1x64 .f32) : FVec Ideal S1x64 .f32 :=
  shapeCast S1x64 (extractStridedSlice S1x1x64 ![0, 0, 0] a slices_S3x1x64_S1x1x64_0_0_0) shapeCasts_S1x1x64_S1x64

/-- Layer 1's slice of a stack of three 64 × 64 matrices, as a matrix. -/
def w1K1 (a : FVec Ideal S3x64x64 .f32) : FVec Ideal S64x64 .f32 :=
  shapeCast S64x64 (extractStridedSlice S1x64x64 ![1, 0, 0] a slices_S3x64x64_S1x64x64_1_0_0) shapeCasts_S1x64x64_S64x64

/-- Layer 1's slice of a stack of three 64 × 64 matrices, as a matrix. -/
def w2K1 (a : FVec Ideal S3x64x64 .f32) : FVec Ideal S64x64 .f32 :=
  shapeCast S64x64 (extractStridedSlice S1x64x64 ![1, 0, 0] a slices_S3x64x64_S1x64x64_1_0_0) shapeCasts_S1x64x64_S64x64

/-- Layer 1's slice of a stack of three bias rows, as a row. -/
def b1K1 (a : FVec Ideal S3x1x64 .f32) : FVec Ideal S1x64 .f32 :=
  shapeCast S1x64 (extractStridedSlice S1x1x64 ![1, 0, 0] a slices_S3x1x64_S1x1x64_1_0_0) shapeCasts_S1x1x64_S1x64

/-- Layer 1's slice of a stack of three bias rows, as a row. -/
def b2K1 (a : FVec Ideal S3x1x64 .f32) : FVec Ideal S1x64 .f32 :=
  shapeCast S1x64 (extractStridedSlice S1x1x64 ![1, 0, 0] a slices_S3x1x64_S1x1x64_1_0_0) shapeCasts_S1x1x64_S1x64

/-- Layer 2's slice of a stack of three 64 × 64 matrices, as a matrix. -/
def w1K2 (a : FVec Ideal S3x64x64 .f32) : FVec Ideal S64x64 .f32 :=
  shapeCast S64x64 (extractStridedSlice S1x64x64 ![2, 0, 0] a slices_S3x64x64_S1x64x64_2_0_0) shapeCasts_S1x64x64_S64x64

/-- Layer 2's slice of a stack of three 64 × 64 matrices, as a matrix. -/
def w2K2 (a : FVec Ideal S3x64x64 .f32) : FVec Ideal S64x64 .f32 :=
  shapeCast S64x64 (extractStridedSlice S1x64x64 ![2, 0, 0] a slices_S3x64x64_S1x64x64_2_0_0) shapeCasts_S1x64x64_S64x64

/-- Layer 2's slice of a stack of three bias rows, as a row. -/
def b1K2 (a : FVec Ideal S3x1x64 .f32) : FVec Ideal S1x64 .f32 :=
  shapeCast S1x64 (extractStridedSlice S1x1x64 ![2, 0, 0] a slices_S3x1x64_S1x1x64_2_0_0) shapeCasts_S1x1x64_S1x64

/-- Layer 2's slice of a stack of three bias rows, as a row. -/
def b2K2 (a : FVec Ideal S3x1x64 .f32) : FVec Ideal S1x64 .f32 :=
  shapeCast S1x64 (extractStridedSlice S1x1x64 ![2, 0, 0] a slices_S3x1x64_S1x1x64_2_0_0) shapeCasts_S1x1x64_S1x64

/-- The four 64-column blocks side by side. -/
def allK (e0 n1 n2 n3 : FVec Ideal S300000x64 .f32) : FVec Ideal S300000x256 .f32 :=
  concatenate S300000x256 1 [⟨S300000x64, e0⟩, ⟨S300000x64, n1⟩, ⟨S300000x64, n2⟩, ⟨S300000x64, n3⟩]
    concatenates_S300000x64_S300000x64_S300000x64_S300000x64_S300000x256_d1

/-- The user rows at the indices idx (a negative index first wrapped by the number of user rows). -/
def tailUK (e0 n1 n2 n3 : FVec Ideal S300000x64 .f32) (idx : IVec S4096 32) : FVec Ideal S4096x256 .f32 :=
  Host.gather gather_S100000x256_S4096x1_S4096x256_1_0_n_n_0_1_1256
    (extractStridedSlice S100000x256 ![0, 0] (allK e0 n1 n2 n3) slices_S300000x256_S100000x256_0_0)
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 100000#32))) idx))

/-- The item rows at the indices idx (a negative index first wrapped by the number of item rows). -/
def tailPK (e0 n1 n2 n3 : FVec Ideal S300000x64 .f32) (idx : IVec S4096 32) : FVec Ideal S4096x256 .f32 :=
  Host.gather gather_S200000x256_S4096x1_S4096x256_1_0_n_n_0_1_1256
    (extractStridedSlice S200000x256 ![100000, 0] (allK e0 n1 n2 n3) slices_S300000x256_S200000x256_100000_0)
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 200000#32))) idx))

/-- The item rows at a second list of indices: the same function. -/
def tailNK (e0 n1 n2 n3 : FVec Ideal S300000x64 .f32) (idx : IVec S4096 32) : FVec Ideal S4096x256 .f32 :=
  tailPK e0 n1 n2 n3 idx

/-! ## The first stretch: the stacked table, the first sparse product, layer 0's parameters -/

theorem rd0_e0 (V : Valuation τ sig (Elt Ideal)) :
    StableHlo.after (hostOps0 (F := Ideal)) V (Proc.devRef .tc main_v0) = concatK (V (Proc.devRef .tc main_arg0)) (V (Proc.devRef .tc main_arg1)) := by
  after_results_simp
  rfl

theorem rd0_side (V : Valuation τ sig (Elt Ideal)) :
    StableHlo.after (hostOps0 (F := Ideal)) V (Proc.devRef .tc main_v13) = spmmK (V (Proc.devRef .tc main_arg6)) (V (Proc.devRef .tc main_arg7)) (V (Proc.devRef .tc main_arg8)) (concatK (V (Proc.devRef .tc main_arg0)) (V (Proc.devRef .tc main_arg1))) := by
  after_results_simp
  rfl

theorem rd0_w1 (V : Valuation τ sig (Elt Ideal)) :
    StableHlo.after (hostOps0 (F := Ideal)) V (Proc.devRef .tc main_v15) = w1K0 (V (Proc.devRef .tc main_arg2)) := by
  after_results_simp
  rfl

theorem rd0_b1 (V : Valuation τ sig (Elt Ideal)) :
    StableHlo.after (hostOps0 (F := Ideal)) V (Proc.devRef .tc main_v17) = b1K0 (V (Proc.devRef .tc main_arg3)) := by
  after_results_simp
  rfl

theorem rd0_w2 (V : Valuation τ sig (Elt Ideal)) :
    StableHlo.after (hostOps0 (F := Ideal)) V (Proc.devRef .tc main_v19) = w2K0 (V (Proc.devRef .tc main_arg4)) := by
  after_results_simp
  rfl

theorem rd0_b2 (V : Valuation τ sig (Elt Ideal)) :
    StableHlo.after (hostOps0 (F := Ideal)) V (Proc.devRef .tc main_v21) = b2K0 (V (Proc.devRef .tc main_arg5)) := by
  after_results_simp
  rfl

/-! ## The second and third stretches: the sparse product of the previous layer's output, the layer's parameters -/

theorem rd1_side (V : Valuation τ sig (Elt Ideal)) :
    StableHlo.after (hostOps1 (F := Ideal)) V (Proc.devRef .tc main_v35) = spmmK (V (Proc.devRef .tc main_arg6)) (V (Proc.devRef .tc main_arg7)) (V (Proc.devRef .tc main_arg8)) (V (Proc.devRef .tc main_v22_0)) := by
  after_results_simp
  rfl

theorem rd1_w1 (V : Valuation τ sig (Elt Ideal)) :
    StableHlo.after (hostOps1 (F := Ideal)) V (Proc.devRef .tc main_v37) = w1K1 (V (Proc.devRef .tc main_arg2)) := by
  after_results_simp
  rfl

theorem rd1_b1 (V : Valuation τ sig (Elt Ideal)) :
    StableHlo.after (hostOps1 (F := Ideal)) V (Proc.devRef .tc main_v39) = b1K1 (V (Proc.devRef .tc main_arg3)) := by
  after_results_simp
  rfl

theorem rd1_w2 (V : Valuation τ sig (Elt Ideal)) :
    StableHlo.after (hostOps1 (F := Ideal)) V (Proc.devRef .tc main_v41) = w2K1 (V (Proc.devRef .tc main_arg4)) := by
  after_results_simp
  rfl

theorem rd1_b2 (V : Valuation τ sig (Elt Ideal)) :
    StableHlo.after (hostOps1 (F := Ideal)) V (Proc.devRef .tc main_v43) = b2K1 (V (Proc.devRef .tc main_arg5)) := by
  after_results_simp
  rfl

theorem rd2_side (V : Valuation τ sig (Elt Ideal)) :
    StableHlo.after (hostOps2 (F := Ideal)) V (Proc.devRef .tc main_v57) = spmmK (V (Proc.devRef .tc main_arg6)) (V (Proc.devRef .tc main_arg7)) (V (Proc.devRef .tc main_arg8)) (V (Proc.devRef .tc main_v44_0)) := by
  after_results_simp
  rfl

theorem rd2_w1 (V : Valuation τ sig (Elt Ideal)) :
    StableHlo.after (hostOps2 (F := Ideal)) V (Proc.devRef .tc main_v59) = w1K2 (V (Proc.devRef .tc main_arg2)) := by
  after_results_simp
  rfl

theorem rd2_b1 (V : Valuation τ sig (Elt Ideal)) :
    StableHlo.after (hostOps2 (F := Ideal)) V (Proc.devRef .tc main_v61) = b1K2 (V (Proc.devRef .tc main_arg3)) := by
  after_results_simp
  rfl

theorem rd2_w2 (V : Valuation τ sig (Elt Ideal)) :
    StableHlo.after (hostOps2 (F := Ideal)) V (Proc.devRef .tc main_v63) = w2K2 (V (Proc.devRef .tc main_arg4)) := by
  after_results_simp
  rfl

theorem rd2_b2 (V : Valuation τ sig (Elt Ideal)) :
    StableHlo.after (hostOps2 (F := Ideal)) V (Proc.devRef .tc main_v65) = b2K2 (V (Proc.devRef .tc main_arg5)) := by
  after_results_simp
  rfl

/-! ## The last stretch: the three gathered results -/

theorem rd3_u (V : Valuation τ sig (Elt Ideal)) :
    StableHlo.after (hostOps3 (F := Ideal)) V (Proc.devRef .tc main_v76) = tailUK (V (Proc.devRef .tc main_v0)) (V (Proc.devRef .tc main_v22_1)) (V (Proc.devRef .tc main_v44_1)) (V (Proc.devRef .tc main_v66_1)) (V (Proc.devRef .tc main_arg9)) := by
  after_results_simp
  rfl

theorem rd3_p (V : Valuation τ sig (Elt Ideal)) :
    StableHlo.after (hostOps3 (F := Ideal)) V (Proc.devRef .tc main_v83) = tailPK (V (Proc.devRef .tc main_v0)) (V (Proc.devRef .tc main_v22_1)) (V (Proc.devRef .tc main_v44_1)) (V (Proc.devRef .tc main_v66_1)) (V (Proc.devRef .tc main_arg10)) := by
  after_results_simp
  rfl

theorem rd3_n (V : Valuation τ sig (Elt Ideal)) :
    StableHlo.after (hostOps3 (F := Ideal)) V (Proc.devRef .tc main_v90) = tailNK (V (Proc.devRef .tc main_v0)) (V (Proc.devRef .tc main_v22_1)) (V (Proc.devRef .tc main_v44_1)) (V (Proc.devRef .tc main_v66_1)) (V (Proc.devRef .tc main_arg11)) := by
  after_results_simp
  rfl

end Cert.KernelIdeal.Hand

end
-- ==== Proof.Net.lean ====
import proofs.«152006_j19688130085762_1_alg».proof.Proof.LayerFull

/-!
The three layers chained: from the initial embeddings `e0`, a neighbourhood aggregation `spmm` (the same sparse
product in every layer) and each layer's two weight matrices and two bias rows, the embeddings after layers one and
two and the normalized embeddings after each of the three layers — the four arrays the programs concatenate.
-/

noncomputable section

namespace Cert.Layer

open Idealize.ShloMosaic

/-- An array of 300000 node embeddings of width 64, a 64 × 64 weight matrix, a 1 × 64 bias row. -/
abbrev Emb : Type := (⟨2, ![300000, 64]⟩ : Shape).Idx → EReal
abbrev Mat : Type := (⟨2, ![64, 64]⟩ : Shape).Idx → EReal
abbrev Row : Type := (⟨2, ![1, 64]⟩ : Shape).Idx → EReal

/-- The weights of the three layers. -/
structure Params where
  w10 : Mat
  b10 : Row
  w20 : Mat
  b20 : Row
  w11 : Mat
  b11 : Row
  w21 : Mat
  b21 : Row
  w12 : Mat
  b12 : Row
  w22 : Mat
  b22 : Row

/-- The embeddings after layer one, and their normalization. -/
def ego1 (spmm : Emb → Emb) (e0 : Emb) (P : Params) : Emb := egoFull (spmm e0) e0 P.w10 P.b10 P.w20 P.b20
def nrm1 (spmm : Emb → Emb) (e0 : Emb) (P : Params) : Emb := normFull (spmm e0) e0 P.w10 P.b10 P.w20 P.b20
/-- After layer two. -/
def ego2 (spmm : Emb → Emb) (e0 : Emb) (P : Params) : Emb :=
  egoFull (spmm (ego1 spmm e0 P)) (ego1 spmm e0 P) P.w11 P.b11 P.w21 P.b21
def nrm2 (spmm : Emb → Emb) (e0 : Emb) (P : Params) : Emb :=
  normFull (spmm (ego1 spmm e0 P)) (ego1 spmm e0 P) P.w11 P.b11 P.w21 P.b21
/-- The normalized embeddings after layer three. -/
def nrm3 (spmm : Emb → Emb) (e0 : Emb) (P : Params) : Emb :=
  normFull (spmm (ego2 spmm e0 P)) (ego2 spmm e0 P) P.w12 P.b12 P.w22 P.b22

end Cert.Layer

end
-- ==== Proof.KIChain.lean ====
/- The kernel program's three results as functions of the launch memory: walking the boundary contents back from the
   return, each host stretch read at the buffers the next region is entered with, each region's two output arrays as
   the dense layer of its entry arrays, and the three layers chained. -/
import proofs.«152006_j19688130085762_1_alg».proof.Proof.KIRun
import proofs.«152006_j19688130085762_1_alg».proof.Proof.KIValue0
import proofs.«152006_j19688130085762_1_alg».proof.Proof.KIValue1
import proofs.«152006_j19688130085762_1_alg».proof.Proof.KIValue2
import proofs.«152006_j19688130085762_1_alg».proof.Proof.KIRead
import proofs.«152006_j19688130085762_1_alg».proof.Proof.Net

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The dense layer on whole arrays respects equality of each of its six arguments. -/
theorem egoFull_congr {n : Nat} {s s' e e' : (⟨2, ![n, 64]⟩ : Shape).Idx → EReal} {w1 w1' w2 w2' : (⟨2, ![64, 64]⟩ : Shape).Idx → EReal}
    {b1 b1' b2 b2' : (⟨2, ![1, 64]⟩ : Shape).Idx → EReal} (hs : s = s') (he : e = e') (hw1 : w1 = w1') (hb1 : b1 = b1') (hw2 : w2 = w2') (hb2 : b2 = b2') :
    Cert.Layer.egoFull s e w1 b1 w2 b2 = Cert.Layer.egoFull s' e' w1' b1' w2' b2' := by
  subst hs he hw1 hb1 hw2 hb2; rfl
theorem normFull_congr {n : Nat} {s s' e e' : (⟨2, ![n, 64]⟩ : Shape).Idx → EReal} {w1 w1' w2 w2' : (⟨2, ![64, 64]⟩ : Shape).Idx → EReal}
    {b1 b1' b2 b2' : (⟨2, ![1, 64]⟩ : Shape).Idx → EReal} (hs : s = s') (he : e = e') (hw1 : w1 = w1') (hb1 : b1 = b1') (hw2 : w2 = w2') (hb2 : b2 = b2') :
    Cert.Layer.normFull s e w1 b1 w2 b2 = Cert.Layer.normFull s' e' w1' b1' w2' b2' := by
  subst hs he hw1 hb1 hw2 hb2; rfl

variable (m : (ℓ : Loc nD τ sig) → Buf (Elt Ideal) ℓ) (ρ : Dev nD → PrngReg)

/-! ## The launch memory's part: the weights, the initial embeddings, the aggregation -/

/-- The three layers' weight matrices and bias rows, sliced from the argument arrays. -/
def paramsK (c : Dev nD) : Cert.Layer.Params :=
  ⟨w1K0 (m ((c : Thread nD τ).loc main_arg2)), b1K0 (m ((c : Thread nD τ).loc main_arg3)), w2K0 (m ((c : Thread nD τ).loc main_arg4)), b2K0 (m ((c : Thread nD τ).loc main_arg5)),
   w1K1 (m ((c : Thread nD τ).loc main_arg2)), b1K1 (m ((c : Thread nD τ).loc main_arg3)), w2K1 (m ((c : Thread nD τ).loc main_arg4)), b2K1 (m ((c : Thread nD τ).loc main_arg5)),
   w1K2 (m ((c : Thread nD τ).loc main_arg2)), b1K2 (m ((c : Thread nD τ).loc main_arg3)), w2K2 (m ((c : Thread nD τ).loc main_arg4)), b2K2 (m ((c : Thread nD τ).loc main_arg5))⟩
/-- The initial embeddings: the two argument arrays, one above the other. -/
def e0K (c : Dev nD) : Cert.Layer.Emb := concatK (m ((c : Thread nD τ).loc main_arg0)) (m ((c : Thread nD τ).loc main_arg1))
/-- The neighbourhood aggregation the argument edge list defines. -/
def spmmOfK (c : Dev nD) : Cert.Layer.Emb → Cert.Layer.Emb := spmmK (m ((c : Thread nD τ).loc main_arg6)) (m ((c : Thread nD τ).loc main_arg7)) (m ((c : Thread nD τ).loc main_arg8))

/-! ## What a host stretch or a region leaves in place -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h
/-- A buffer no host stretch so far writes and no region so far has a window on holds its launch contents. -/
theorem W2_arg (c : Dev nD) (r : Ref sig .tc) (h0 : r ∉ hostOps0_W) (h1 : ∀ w, Pipeline.arrRef spec0 w ≠ r) :
    W2 m ρ c (Proc.devRef .tc r) = W0 m ρ c (Proc.devRef .tc r) :=
  (W2_of_ne m ρ c r h1).trans (W1_keep m ρ c r h0)
theorem W4_arg (c : Dev nD) (r : Ref sig .tc) (h0 : r ∉ hostOps0_W) (h1 : ∀ w, Pipeline.arrRef spec0 w ≠ r)
    (h2 : r ∉ hostOps1_W) (h3 : ∀ w, Pipeline.arrRef spec1 w ≠ r) : W4 m ρ c (Proc.devRef .tc r) = W0 m ρ c (Proc.devRef .tc r) :=
  (W4_of_ne m ρ c r h3).trans ((W3_keep m ρ c r h2).trans (W2_arg m ρ c r h0 h1))
theorem W6_arg (c : Dev nD) (r : Ref sig .tc) (h0 : r ∉ hostOps0_W) (h1 : ∀ w, Pipeline.arrRef spec0 w ≠ r)
    (h2 : r ∉ hostOps1_W) (h3 : ∀ w, Pipeline.arrRef spec1 w ≠ r) (h4 : r ∉ hostOps2_W) (h5 : ∀ w, Pipeline.arrRef spec2 w ≠ r) :
    W6 m ρ c (Proc.devRef .tc r) = W0 m ρ c (Proc.devRef .tc r) :=
  (W6_of_ne m ρ c r h5).trans ((W5_keep m ρ c r h4).trans (W4_arg m ρ c r h0 h1 h2 h3))

/-! ## Layer 1: the arrays region 0 is entered with, and what it leaves -/

theorem at1_e (c : Dev nD) : W1 m ρ c (Proc.devRef .tc main_v0) = e0K m c := rd0_e0 (W0 m ρ c)
theorem at1_side (c : Dev nD) : W1 m ρ c (Proc.devRef .tc main_v13) = spmmOfK m c (e0K m c) := rd0_side (W0 m ρ c)
theorem at1_w1 (c : Dev nD) : W1 m ρ c (Proc.devRef .tc main_v15) = (paramsK m c).w10 := rd0_w1 (W0 m ρ c)
theorem at1_b1 (c : Dev nD) : W1 m ρ c (Proc.devRef .tc main_v17) = (paramsK m c).b10 := rd0_b1 (W0 m ρ c)
theorem at1_w2 (c : Dev nD) : W1 m ρ c (Proc.devRef .tc main_v19) = (paramsK m c).w20 := rd0_w2 (W0 m ρ c)
theorem at1_b2 (c : Dev nD) : W1 m ρ c (Proc.devRef .tc main_v21) = (paramsK m c).b20 := rd0_b2 (W0 m ρ c)
/-- The region's first output, from its entry arrays, is the embeddings after layer 1. -/
theorem ego_at1 (c : Dev nD) : egoOf0 (V1 m ρ) c = (Cert.Layer.ego1 (spmmOfK m c) (e0K m c) (paramsK m c)) :=
  egoFull_congr (at1_side m ρ c) (at1_e m ρ c) (at1_w1 m ρ c) (at1_b1 m ρ c) (at1_w2 m ρ c) (at1_b2 m ρ c)
/-- The region's second output is the normalized embeddings after layer 1. -/
theorem nrm_at1 (c : Dev nD) : normOf0 (V1 m ρ) c = (Cert.Layer.nrm1 (spmmOfK m c) (e0K m c) (paramsK m c)) :=
  normFull_congr (at1_side m ρ c) (at1_e m ρ c) (at1_w1 m ρ c) (at1_b1 m ρ c) (at1_w2 m ρ c) (at1_b2 m ρ c)
theorem at2_ego (c : Dev nD) : W2 m ρ c (Proc.devRef .tc main_v22_0) = (Cert.Layer.ego1 (spmmOfK m c) (e0K m c) (paramsK m c)) :=
  (W2_arr m ρ c 6).trans ((final0_6 (V1 m ρ) c).trans (ego_at1 m ρ c))
theorem at2_nrm1 (c : Dev nD) : W2 m ρ c (Proc.devRef .tc main_v22_1) = (Cert.Layer.nrm1 (spmmOfK m c) (e0K m c) (paramsK m c)) :=
  (W2_arr m ρ c 7).trans ((final0_7 (V1 m ρ) c).trans (nrm_at1 m ρ c))
theorem at2_e0 (c : Dev nD) : W2 m ρ c (Proc.devRef .tc main_v0) = e0K m c :=
  (W2_arr m ρ c 1).trans (((dat0 (V1 m ρ) c).arrAt_in 1 rfl _).trans ((A_eq0 (V1 m ρ) c 1).trans (at1_e m ρ c)))

/-! ## Layer 2: the arrays region 1 is entered with, and what it leaves -/

theorem at3_e (c : Dev nD) : W3 m ρ c (Proc.devRef .tc main_v22_0) = (Cert.Layer.ego1 (spmmOfK m c) (e0K m c) (paramsK m c)) :=
  (W3_keep m ρ c main_v22_0 (by decide)).trans (at2_ego m ρ c)
theorem at3_side (c : Dev nD) : W3 m ρ c (Proc.devRef .tc main_v35) = spmmOfK m c (Cert.Layer.ego1 (spmmOfK m c) (e0K m c) (paramsK m c)) := by
  have h := rd1_side (W2 m ρ c)
  rw [W2_arg m ρ c main_arg6 (by decide) (by decide), W2_arg m ρ c main_arg7 (by decide) (by decide), W2_arg m ρ c main_arg8 (by decide) (by decide), at2_ego m ρ c] at h
  exact h
theorem at3_w1 (c : Dev nD) : W3 m ρ c (Proc.devRef .tc main_v37) = (paramsK m c).w11 := by
  have h := rd1_w1 (W2 m ρ c)
  rw [W2_arg m ρ c main_arg2 (by decide) (by decide)] at h
  exact h
theorem at3_b1 (c : Dev nD) : W3 m ρ c (Proc.devRef .tc main_v39) = (paramsK m c).b11 := by
  have h := rd1_b1 (W2 m ρ c)
  rw [W2_arg m ρ c main_arg3 (by decide) (by decide)] at h
  exact h
theorem at3_w2 (c : Dev nD) : W3 m ρ c (Proc.devRef .tc main_v41) = (paramsK m c).w21 := by
  have h := rd1_w2 (W2 m ρ c)
  rw [W2_arg m ρ c main_arg4 (by decide) (by decide)] at h
  exact h
theorem at3_b2 (c : Dev nD) : W3 m ρ c (Proc.devRef .tc main_v43) = (paramsK m c).b21 := by
  have h := rd1_b2 (W2 m ρ c)
  rw [W2_arg m ρ c main_arg5 (by decide) (by decide)] at h
  exact h
/-- The region's first output, from its entry arrays, is the embeddings after layer 2. -/
theorem ego_at3 (c : Dev nD) : egoOf1 (V3 m ρ) c = (Cert.Layer.ego2 (spmmOfK m c) (e0K m c) (paramsK m c)) :=
  egoFull_congr (at3_side m ρ c) (at3_e m ρ c) (at3_w1 m ρ c) (at3_b1 m ρ c) (at3_w2 m ρ c) (at3_b2 m ρ c)
/-- The region's second output is the normalized embeddings after layer 2. -/
theorem nrm_at3 (c : Dev nD) : normOf1 (V3 m ρ) c = (Cert.Layer.nrm2 (spmmOfK m c) (e0K m c) (paramsK m c)) :=
  normFull_congr (at3_side m ρ c) (at3_e m ρ c) (at3_w1 m ρ c) (at3_b1 m ρ c) (at3_w2 m ρ c) (at3_b2 m ρ c)
theorem at4_ego (c : Dev nD) : W4 m ρ c (Proc.devRef .tc main_v44_0) = (Cert.Layer.ego2 (spmmOfK m c) (e0K m c) (paramsK m c)) :=
  (W4_arr m ρ c 6).trans ((final1_6 (V3 m ρ) c).trans (ego_at3 m ρ c))
theorem at4_nrm2 (c : Dev nD) : W4 m ρ c (Proc.devRef .tc main_v44_1) = (Cert.Layer.nrm2 (spmmOfK m c) (e0K m c) (paramsK m c)) :=
  (W4_arr m ρ c 7).trans ((final1_7 (V3 m ρ) c).trans (nrm_at3 m ρ c))
theorem at4_e0 (c : Dev nD) : W4 m ρ c (Proc.devRef .tc main_v0) = e0K m c :=
  (W4_of_ne m ρ c main_v0 (by decide)).trans ((W3_keep m ρ c main_v0 (by decide)).trans (at2_e0 m ρ c))
theorem at4_nrm1 (c : Dev nD) : W4 m ρ c (Proc.devRef .tc main_v22_1) = (Cert.Layer.nrm1 (spmmOfK m c) (e0K m c) (paramsK m c)) :=
  (W4_of_ne m ρ c main_v22_1 (by decide)).trans ((W3_keep m ρ c main_v22_1 (by decide)).trans (at2_nrm1 m ρ c))

/-! ## Layer 3: the arrays region 2 is entered with, and what it leaves -/

theorem at5_e (c : Dev nD) : W5 m ρ c (Proc.devRef .tc main_v44_0) = (Cert.Layer.ego2 (spmmOfK m c) (e0K m c) (paramsK m c)) :=
  (W5_keep m ρ c main_v44_0 (by decide)).trans (at4_ego m ρ c)
theorem at5_side (c : Dev nD) : W5 m ρ c (Proc.devRef .tc main_v57) = spmmOfK m c (Cert.Layer.ego2 (spmmOfK m c) (e0K m c) (paramsK m c)) := by
  have h := rd2_side (W4 m ρ c)
  rw [W4_arg m ρ c main_arg6 (by decide) (by decide) (by decide) (by decide), W4_arg m ρ c main_arg7 (by decide) (by decide) (by decide) (by decide), W4_arg m ρ c main_arg8 (by decide) (by decide) (by decide) (by decide), at4_ego m ρ c] at h
  exact h
theorem at5_w1 (c : Dev nD) : W5 m ρ c (Proc.devRef .tc main_v59) = (paramsK m c).w12 := by
  have h := rd2_w1 (W4 m ρ c)
  rw [W4_arg m ρ c main_arg2 (by decide) (by decide) (by decide) (by decide)] at h
  exact h
theorem at5_b1 (c : Dev nD) : W5 m ρ c (Proc.devRef .tc main_v61) = (paramsK m c).b12 := by
  have h := rd2_b1 (W4 m ρ c)
  rw [W4_arg m ρ c main_arg3 (by decide) (by decide) (by decide) (by decide)] at h
  exact h
theorem at5_w2 (c : Dev nD) : W5 m ρ c (Proc.devRef .tc main_v63) = (paramsK m c).w22 := by
  have h := rd2_w2 (W4 m ρ c)
  rw [W4_arg m ρ c main_arg4 (by decide) (by decide) (by decide) (by decide)] at h
  exact h
theorem at5_b2 (c : Dev nD) : W5 m ρ c (Proc.devRef .tc main_v65) = (paramsK m c).b22 := by
  have h := rd2_b2 (W4 m ρ c)
  rw [W4_arg m ρ c main_arg5 (by decide) (by decide) (by decide) (by decide)] at h
  exact h
/-- The region's second output is the normalized embeddings after layer 3. -/
theorem nrm_at5 (c : Dev nD) : normOf2 (V5 m ρ) c = (Cert.Layer.nrm3 (spmmOfK m c) (e0K m c) (paramsK m c)) :=
  normFull_congr (at5_side m ρ c) (at5_e m ρ c) (at5_w1 m ρ c) (at5_b1 m ρ c) (at5_w2 m ρ c) (at5_b2 m ρ c)
theorem at6_nrm3 (c : Dev nD) : W6 m ρ c (Proc.devRef .tc main_v66_1) = (Cert.Layer.nrm3 (spmmOfK m c) (e0K m c) (paramsK m c)) :=
  (W6_arr m ρ c 7).trans ((final2_7 (V5 m ρ) c).trans (nrm_at5 m ρ c))
theorem at6_e0 (c : Dev nD) : W6 m ρ c (Proc.devRef .tc main_v0) = e0K m c :=
  (W6_of_ne m ρ c main_v0 (by decide)).trans ((W5_keep m ρ c main_v0 (by decide)).trans (at4_e0 m ρ c))
theorem at6_nrm1 (c : Dev nD) : W6 m ρ c (Proc.devRef .tc main_v22_1) = (Cert.Layer.nrm1 (spmmOfK m c) (e0K m c) (paramsK m c)) :=
  (W6_of_ne m ρ c main_v22_1 (by decide)).trans ((W5_keep m ρ c main_v22_1 (by decide)).trans (at4_nrm1 m ρ c))
theorem at6_nrm2 (c : Dev nD) : W6 m ρ c (Proc.devRef .tc main_v44_1) = (Cert.Layer.nrm2 (spmmOfK m c) (e0K m c) (paramsK m c)) :=
  (W6_of_ne m ρ c main_v44_1 (by decide)).trans ((W5_keep m ρ c main_v44_1 (by decide)).trans (at4_nrm2 m ρ c))

/-! ## The three results -/

theorem W7_v76 (c : Dev nD) : W7 m ρ c (Proc.devRef .tc main_v76) = tailUK (e0K m c) (Cert.Layer.nrm1 (spmmOfK m c) (e0K m c) (paramsK m c)) (Cert.Layer.nrm2 (spmmOfK m c) (e0K m c) (paramsK m c)) (Cert.Layer.nrm3 (spmmOfK m c) (e0K m c) (paramsK m c)) (m ((c : Thread nD τ).loc main_arg9)) := by
  have h := rd3_u (W6 m ρ c)
  rw [at6_e0 m ρ c, at6_nrm1 m ρ c, at6_nrm2 m ρ c, at6_nrm3 m ρ c, W6_arg m ρ c main_arg9 (by decide) (by decide) (by decide) (by decide) (by decide) (by decide)] at h
  exact h

theorem W7_v83 (c : Dev nD) : W7 m ρ c (Proc.devRef .tc main_v83) = tailPK (e0K m c) (Cert.Layer.nrm1 (spmmOfK m c) (e0K m c) (paramsK m c)) (Cert.Layer.nrm2 (spmmOfK m c) (e0K m c) (paramsK m c)) (Cert.Layer.nrm3 (spmmOfK m c) (e0K m c) (paramsK m c)) (m ((c : Thread nD τ).loc main_arg10)) := by
  have h := rd3_p (W6 m ρ c)
  rw [at6_e0 m ρ c, at6_nrm1 m ρ c, at6_nrm2 m ρ c, at6_nrm3 m ρ c, W6_arg m ρ c main_arg10 (by decide) (by decide) (by decide) (by decide) (by decide) (by decide)] at h
  exact h

theorem W7_v90 (c : Dev nD) : W7 m ρ c (Proc.devRef .tc main_v90) = tailNK (e0K m c) (Cert.Layer.nrm1 (spmmOfK m c) (e0K m c) (paramsK m c)) (Cert.Layer.nrm2 (spmmOfK m c) (e0K m c) (paramsK m c)) (Cert.Layer.nrm3 (spmmOfK m c) (e0K m c) (paramsK m c)) (m ((c : Thread nD τ).loc main_arg11)) := by
  have h := rd3_n (W6 m ρ c)
  rw [at6_e0 m ρ c, at6_nrm1 m ρ c, at6_nrm2 m ρ c, at6_nrm3 m ρ c, W6_arg m ρ c main_arg11 (by decide) (by decide) (by decide) (by decide) (by decide) (by decide)] at h
  exact h

end Cert.KernelIdeal.Hand

end
-- ==== Proof.RefRun.lean ====
/- The reference program's run. Its @main is a straight line of 181 host operations once the three calls of
   @leaky_relu (seven operations each, the last of them @_where's select) and the three calls of @norm (five each)
   are written out at their call sites over the calls' own buffers. This module lists those operations, cut at the
   layer boundaries (the concatenation and the first propagation layer through its normalised output; the second
   layer; the third layer; the final concatenation, slices and row gathers), proves @main equal to the line, and
   reads the run back: every weakly fair execution terminates with every buffer at the fold of the operations'
   results over the launch contents, and no operation writes an argument. -/
import proofs.«152006_j19688130085762_1_alg».proof.Proof.Gen.ReferenceIdeal
import Idealize.ShloMosaic.Lib.StableHlo.Run
import Idealize.ShloMosaic.Lib.Pipeline.Frame

-- deciding membership among some fifty references recurses past the default depth
set_option maxRecDepth 2048

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## The operations, layer by layer -/

/-- Operations 1 … 51: the two embedding tables concatenated (`main_v0`), the first sparse product (gather, scale, scatter-add into `main_v13`), the two dense transforms and their sum (`main_v29`), the leaky rectifier (`main_v30`), its row norms (`main_v31`) and the normalised rows (`main_v35`). -/
abbrev opsL0 : List (HloOp τ sig (Elt F)) :=
  [ StableHlo.binary main_arg0 main_arg1 main_v0 ((fun a b => concatenate S300000x64 0 [⟨S100000x64, a⟩, ⟨S200000x64, b⟩] concatenates_S100000x64_S200000x64_S300000x64_d0) : (⟨S100000x64, .f32⟩ : BufTy).Contents (Elt F) → (⟨S200000x64, .f32⟩ : BufTy).Contents (Elt F) → (⟨S300000x64, .f32⟩ : BufTy).Contents (Elt F)),
    StableHlo.unary main_arg6 main_v1 (broadcastInDim S4000000x1 ![0] bcast_S4000000_S4000000x1_0 : (⟨S4000000, .f32⟩ : BufTy).Contents (Elt F) → (⟨S4000000x1, .f32⟩ : BufTy).Contents (Elt F)),
    StableHlo.nullary main_c (constantI S_ 32 0#32),
    StableHlo.unary main_c main_v2 (broadcastInDim S4000000 ![] bcast_S_S4000000 : (⟨S_, .i32⟩ : BufTy).Contents (Elt F) → (⟨S4000000, .i32⟩ : BufTy).Contents (Elt F)),
    StableHlo.binary main_arg8 main_v2 main_v3 (cmpi .slt : (⟨S4000000, .i32⟩ : BufTy).Contents (Elt F) → (⟨S4000000, .i32⟩ : BufTy).Contents (Elt F) → (⟨S4000000, .i1⟩ : BufTy).Contents (Elt F)),
    StableHlo.nullary main_c_0 (constantI S_ 32 300000#32),
    StableHlo.unary main_c_0 main_v4 (broadcastInDim S4000000 ![] bcast_S_S4000000 : (⟨S_, .i32⟩ : BufTy).Contents (Elt F) → (⟨S4000000, .i32⟩ : BufTy).Contents (Elt F)),
    StableHlo.binary main_arg8 main_v4 main_v5 (addi : (⟨S4000000, .i32⟩ : BufTy).Contents (Elt F) → (⟨S4000000, .i32⟩ : BufTy).Contents (Elt F) → (⟨S4000000, .i32⟩ : BufTy).Contents (Elt F)),
    StableHlo.ternary main_v3 main_v5 main_arg8 main_v6 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v6 main_v7 (broadcastInDim S4000000x1 ![0] bcast_S4000000_S4000000x1_0 : (⟨S4000000, .i32⟩ : BufTy).Contents (Elt F) → (⟨S4000000x1, .i32⟩ : BufTy).Contents (Elt F)),
    StableHlo.binary main_v0 main_v7 main_v8 ((fun x i => Host.gather gather_S300000x64_S4000000x1_S4000000x64_1_0_n_n_0_1_164 x i) : (⟨S300000x64, .f32⟩ : BufTy).Contents (Elt F) → (⟨S4000000x1, .i32⟩ : BufTy).Contents (Elt F) → (⟨S4000000x64, .f32⟩ : BufTy).Contents (Elt F)),
    StableHlo.unary main_v1 main_v9 (broadcastInDim S4000000x64 ![0, 1] bcast_S4000000x1_S4000000x64_0_1 : (⟨S4000000x1, .f32⟩ : BufTy).Contents (Elt F) → (⟨S4000000x64, .f32⟩ : BufTy).Contents (Elt F)),
    StableHlo.binary main_v9 main_v8 main_v10 (mulf : (⟨S4000000x64, .f32⟩ : BufTy).Contents (Elt F) → (⟨S4000000x64, .f32⟩ : BufTy).Contents (Elt F) → (⟨S4000000x64, .f32⟩ : BufTy).Contents (Elt F)),
    StableHlo.nullary main_cst (constant S_ .f32 0x00000000#32),
    StableHlo.unary main_cst main_v11 (broadcastInDim S300000x64 ![] bcast_S_S300000x64 : (⟨S_, .f32⟩ : BufTy).Contents (Elt F) → (⟨S300000x64, .f32⟩ : BufTy).Contents (Elt F)),
    StableHlo.unary main_arg7 main_v12 (broadcastInDim S4000000x1 ![0] bcast_S4000000_S4000000x1_0 : (⟨S4000000, .i32⟩ : BufTy).Contents (Elt F) → (⟨S4000000x1, .i32⟩ : BufTy).Contents (Elt F)),
    StableHlo.ternary main_v11 main_v12 main_v10 main_v13 ((fun x i u => Host.scatterAdd scatter_S300000x64_S4000000x1_S4000000x64_1_0_0_1 x i u) : (⟨S300000x64, .f32⟩ : BufTy).Contents (Elt F) → (⟨S4000000x1, .i32⟩ : BufTy).Contents (Elt F) → (⟨S4000000x64, .f32⟩ : BufTy).Contents (Elt F) → (⟨S300000x64, .f32⟩ : BufTy).Contents (Elt F)),
    StableHlo.unary main_arg2 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.binary main_v13 main_v15 main_v16 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg3 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v17 main_v18 rfl shapeCasts_S1x1x64_S1x64,
    StableHlo.unary main_v18 main_v19 (broadcastInDim S300000x64 ![0, 1] bcast_S1x64_S300000x64_0_1 : (⟨S1x64, .f32⟩ : BufTy).Contents (Elt F) → (⟨S300000x64, .f32⟩ : BufTy).Contents (Elt F)),
    StableHlo.binary main_v16 main_v19 main_v20 (addf : (⟨S300000x64, .f32⟩ : BufTy).Contents (Elt F) → (⟨S300000x64, .f32⟩ : BufTy).Contents (Elt F) → (⟨S300000x64, .f32⟩ : BufTy).Contents (Elt F)),
    StableHlo.binary main_v0 main_v13 main_v21 (mulf : (⟨S300000x64, .f32⟩ : BufTy).Contents (Elt F) → (⟨S300000x64, .f32⟩ : BufTy).Contents (Elt F) → (⟨S300000x64, .f32⟩ : BufTy).Contents (Elt F)),
    StableHlo.unary main_arg4 main_v22 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v22 main_v23 rfl shapeCasts_S1x64x64_S64x64,
    StableHlo.binary main_v21 main_v23 main_v24 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg5 main_v25 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v25 main_v26 rfl shapeCasts_S1x1x64_S1x64,
    StableHlo.unary main_v26 main_v27 (broadcastInDim S300000x64 ![0, 1] bcast_S1x64_S300000x64_0_1 : (⟨S1x64, .f32⟩ : BufTy).Contents (Elt F) → (⟨S300000x64, .f32⟩ : BufTy).Contents (Elt F)),
    StableHlo.binary main_v24 main_v27 main_v28 (addf : (⟨S300000x64, .f32⟩ : BufTy).Contents (Elt F) → (⟨S300000x64, .f32⟩ : BufTy).Contents (Elt F) → (⟨S300000x64, .f32⟩ : BufTy).Contents (Elt F)),
    StableHlo.binary main_v20 main_v28 main_v29 (addf : (⟨S300000x64, .f32⟩ : BufTy).Contents (Elt F) → (⟨S300000x64, .f32⟩ : BufTy).Contents (Elt F) → (⟨S300000x64, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S300000x64 ![] bcast_S_S300000x64),
    StableHlo.TRef.binary (.of main_v29 : StableHlo.TRef sig ⟨S300000x64, .f32⟩) main_call0.v0 main_call0.v1 (cmpf .oge),
    StableHlo.TRef.unary (.of main_cst_1 : StableHlo.TRef sig ⟨S_, .f32⟩) main_call0.v2 id,
    StableHlo.TRef.unary main_call0.v2 main_call0.v3 (broadcastInDim S300000x64 ![] bcast_S_S300000x64),
    StableHlo.TRef.binary main_call0.v3 (.of main_v29 : StableHlo.TRef sig ⟨S300000x64, .f32⟩) main_call0.v4 mulf,
    StableHlo.TRef.ternary main_call0.v1 (.of main_v29 : StableHlo.TRef sig ⟨S300000x64, .f32⟩) main_call0.v4 main_call0.call0.v0 select,
    StableHlo.TRef.binary (.of main_v30 : StableHlo.TRef sig ⟨S300000x64, .f32⟩) (.of main_v30 : StableHlo.TRef sig ⟨S300000x64, .f32⟩) main_call1.v0 mulf,
    StableHlo.TRef.nullary main_call1.cst (constant S_ .f32 0x00000000#32),
    StableHlo.TRef.binary main_call1.v0 main_call1.cst main_call1.v1 (fun x v => Host.reduceAdd x v reducesTo_S300000x64_S300000_d1 h_S_),
    StableHlo.TRef.unary main_call1.v1 main_call1.v2 (broadcastInDim S300000x1 ![0] bcast_S300000_S300000x1_0),
    StableHlo.TRef.unary main_call1.v2 main_call1.v3 Host.sqrt,
    StableHlo.nullary main_cst_2 (constant S_ .f32 0x2B8CBCCC#32),
    StableHlo.unary main_cst_2 main_v32 (broadcastInDim S300000x1 ![] bcast_S_S300000x1 : (⟨S_, .f32⟩ : BufTy).Contents (Elt F) → (⟨S300000x1, .f32⟩ : BufTy).Contents (Elt F)),
    StableHlo.binary main_v31 main_v32 main_v33 (maximumf : (⟨S300000x1, .f32⟩ : BufTy).Contents (Elt F) → (⟨S300000x1, .f32⟩ : BufTy).Contents (Elt F) → (⟨S300000x1, .f32⟩ : BufTy).Contents (Elt F)),
    StableHlo.unary main_v33 main_v34 (broadcastInDim S300000x64 ![0, 1] bcast_S300000x1_S300000x64_0_1 : (⟨S300000x1, .f32⟩ : BufTy).Contents (Elt F) → (⟨S300000x64, .f32⟩ : BufTy).Contents (Elt F)),
    StableHlo.binary main_v30 main_v34 main_v35 (Host.divf : (⟨S300000x64, .f32⟩ : BufTy).Contents (Elt F) → (⟨S300000x64, .f32⟩ : BufTy).Contents (Elt F) → (⟨S300000x64, .f32⟩ : BufTy).Contents (Elt F)) ]

/-- Operations 52 … 101: the second layer, from `main_v30`: sparse product `main_v48`, transforms' sum `main_v64`, rectifier `main_v65`, norms `main_v66`, normalised rows `main_v70`. -/
abbrev opsL1 : List (HloOp τ sig (Elt F)) :=
  [ StableHlo.unary main_arg6 main_v36 (broadcastInDim S4000000x1 ![0] bcast_S4000000_S4000000x1_0 : (⟨S4000000, .f32⟩ : BufTy).Contents (Elt F) → (⟨S4000000x1, .f32⟩ : BufTy).Contents (Elt F)),
    StableHlo.nullary main_c_3 (constantI S_ 32 0#32),
    StableHlo.unary main_c_3 main_v37 (broadcastInDim S4000000 ![] bcast_S_S4000000 : (⟨S_, .i32⟩ : BufTy).Contents (Elt F) → (⟨S4000000, .i32⟩ : BufTy).Contents (Elt F)),
    StableHlo.binary main_arg8 main_v37 main_v38 (cmpi .slt : (⟨S4000000, .i32⟩ : BufTy).Contents (Elt F) → (⟨S4000000, .i32⟩ : BufTy).Contents (Elt F) → (⟨S4000000, .i1⟩ : BufTy).Contents (Elt F)),
    StableHlo.nullary main_c_4 (constantI S_ 32 300000#32),
    StableHlo.unary main_c_4 main_v39 (broadcastInDim S4000000 ![] bcast_S_S4000000 : (⟨S_, .i32⟩ : BufTy).Contents (Elt F) → (⟨S4000000, .i32⟩ : BufTy).Contents (Elt F)),
    StableHlo.binary main_arg8 main_v39 main_v40 (addi : (⟨S4000000, .i32⟩ : BufTy).Contents (Elt F) → (⟨S4000000, .i32⟩ : BufTy).Contents (Elt F) → (⟨S4000000, .i32⟩ : BufTy).Contents (Elt F)),
    StableHlo.ternary main_v38 main_v40 main_arg8 main_v41 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v41 main_v42 (broadcastInDim S4000000x1 ![0] bcast_S4000000_S4000000x1_0 : (⟨S4000000, .i32⟩ : BufTy).Contents (Elt F) → (⟨S4000000x1, .i32⟩ : BufTy).Contents (Elt F)),
    StableHlo.binary main_v30 main_v42 main_v43 ((fun x i => Host.gather gather_S300000x64_S4000000x1_S4000000x64_1_0_n_n_0_1_164 x i) : (⟨S300000x64, .f32⟩ : BufTy).Contents (Elt F) → (⟨S4000000x1, .i32⟩ : BufTy).Contents (Elt F) → (⟨S4000000x64, .f32⟩ : BufTy).Contents (Elt F)),
    StableHlo.unary main_v36 main_v44 (broadcastInDim S4000000x64 ![0, 1] bcast_S4000000x1_S4000000x64_0_1 : (⟨S4000000x1, .f32⟩ : BufTy).Contents (Elt F) → (⟨S4000000x64, .f32⟩ : BufTy).Contents (Elt F)),
    StableHlo.binary main_v44 main_v43 main_v45 (mulf : (⟨S4000000x64, .f32⟩ : BufTy).Contents (Elt F) → (⟨S4000000x64, .f32⟩ : BufTy).Contents (Elt F) → (⟨S4000000x64, .f32⟩ : BufTy).Contents (Elt F)),
    StableHlo.nullary main_cst_5 (constant S_ .f32 0x00000000#32),
    StableHlo.unary main_cst_5 main_v46 (broadcastInDim S300000x64 ![] bcast_S_S300000x64 : (⟨S_, .f32⟩ : BufTy).Contents (Elt F) → (⟨S300000x64, .f32⟩ : BufTy).Contents (Elt F)),
    StableHlo.unary main_arg7 main_v47 (broadcastInDim S4000000x1 ![0] bcast_S4000000_S4000000x1_0 : (⟨S4000000, .i32⟩ : BufTy).Contents (Elt F) → (⟨S4000000x1, .i32⟩ : BufTy).Contents (Elt F)),
    StableHlo.ternary main_v46 main_v47 main_v45 main_v48 ((fun x i u => Host.scatterAdd scatter_S300000x64_S4000000x1_S4000000x64_1_0_0_1 x i u) : (⟨S300000x64, .f32⟩ : BufTy).Contents (Elt F) → (⟨S4000000x1, .i32⟩ : BufTy).Contents (Elt F) → (⟨S4000000x64, .f32⟩ : BufTy).Contents (Elt F) → (⟨S300000x64, .f32⟩ : BufTy).Contents (Elt F)),
    StableHlo.unary main_arg2 main_v49 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v49 main_v50 rfl shapeCasts_S1x64x64_S64x64,
    StableHlo.binary main_v48 main_v50 main_v51 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg3 main_v52 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v52 main_v53 rfl shapeCasts_S1x1x64_S1x64,
    StableHlo.unary main_v53 main_v54 (broadcastInDim S300000x64 ![0, 1] bcast_S1x64_S300000x64_0_1 : (⟨S1x64, .f32⟩ : BufTy).Contents (Elt F) → (⟨S300000x64, .f32⟩ : BufTy).Contents (Elt F)),
    StableHlo.binary main_v51 main_v54 main_v55 (addf : (⟨S300000x64, .f32⟩ : BufTy).Contents (Elt F) → (⟨S300000x64, .f32⟩ : BufTy).Contents (Elt F) → (⟨S300000x64, .f32⟩ : BufTy).Contents (Elt F)),
    StableHlo.binary main_v30 main_v48 main_v56 (mulf : (⟨S300000x64, .f32⟩ : BufTy).Contents (Elt F) → (⟨S300000x64, .f32⟩ : BufTy).Contents (Elt F) → (⟨S300000x64, .f32⟩ : BufTy).Contents (Elt F)),
    StableHlo.unary main_arg4 main_v57 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v57 main_v58 rfl shapeCasts_S1x64x64_S64x64,
    StableHlo.binary main_v56 main_v58 main_v59 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg5 main_v60 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v60 main_v61 rfl shapeCasts_S1x1x64_S1x64,
    StableHlo.unary main_v61 main_v62 (broadcastInDim S300000x64 ![0, 1] bcast_S1x64_S300000x64_0_1 : (⟨S1x64, .f32⟩ : BufTy).Contents (Elt F) → (⟨S300000x64, .f32⟩ : BufTy).Contents (Elt F)),
    StableHlo.binary main_v59 main_v62 main_v63 (addf : (⟨S300000x64, .f32⟩ : BufTy).Contents (Elt F) → (⟨S300000x64, .f32⟩ : BufTy).Contents (Elt F) → (⟨S300000x64, .f32⟩ : BufTy).Contents (Elt F)),
    StableHlo.binary main_v55 main_v63 main_v64 (addf : (⟨S300000x64, .f32⟩ : BufTy).Contents (Elt F) → (⟨S300000x64, .f32⟩ : BufTy).Contents (Elt F) → (⟨S300000x64, .f32⟩ : BufTy).Contents (Elt F)),
    StableHlo.nullary main_cst_6 (constant S_ .f32 0x3E4CCCCD#32),
    StableHlo.TRef.nullary main_call2.cst (constant S_ .f32 0x00000000#32),
    StableHlo.TRef.unary main_call2.cst main_call2.v0 (broadcastInDim S300000x64 ![] bcast_S_S300000x64),
    StableHlo.TRef.binary (.of main_v64 : StableHlo.TRef sig ⟨S300000x64, .f32⟩) main_call2.v0 main_call2.v1 (cmpf .oge),
    StableHlo.TRef.unary (.of main_cst_6 : StableHlo.TRef sig ⟨S_, .f32⟩) main_call2.v2 id,
    StableHlo.TRef.unary main_call2.v2 main_call2.v3 (broadcastInDim S300000x64 ![] bcast_S_S300000x64),
    StableHlo.TRef.binary main_call2.v3 (.of main_v64 : StableHlo.TRef sig ⟨S300000x64, .f32⟩) main_call2.v4 mulf,
    StableHlo.TRef.ternary main_call2.v1 (.of main_v64 : StableHlo.TRef sig ⟨S300000x64, .f32⟩) main_call2.v4 main_call2.call0.v0 select,
    StableHlo.TRef.binary (.of main_v65 : StableHlo.TRef sig ⟨S300000x64, .f32⟩) (.of main_v65 : StableHlo.TRef sig ⟨S300000x64, .f32⟩) main_call3.v0 mulf,
    StableHlo.TRef.nullary main_call3.cst (constant S_ .f32 0x00000000#32),
    StableHlo.TRef.binary main_call3.v0 main_call3.cst main_call3.v1 (fun x v => Host.reduceAdd x v reducesTo_S300000x64_S300000_d1 h_S_),
    StableHlo.TRef.unary main_call3.v1 main_call3.v2 (broadcastInDim S300000x1 ![0] bcast_S300000_S300000x1_0),
    StableHlo.TRef.unary main_call3.v2 main_call3.v3 Host.sqrt,
    StableHlo.nullary main_cst_7 (constant S_ .f32 0x2B8CBCCC#32),
    StableHlo.unary main_cst_7 main_v67 (broadcastInDim S300000x1 ![] bcast_S_S300000x1 : (⟨S_, .f32⟩ : BufTy).Contents (Elt F) → (⟨S300000x1, .f32⟩ : BufTy).Contents (Elt F)),
    StableHlo.binary main_v66 main_v67 main_v68 (maximumf : (⟨S300000x1, .f32⟩ : BufTy).Contents (Elt F) → (⟨S300000x1, .f32⟩ : BufTy).Contents (Elt F) → (⟨S300000x1, .f32⟩ : BufTy).Contents (Elt F)),
    StableHlo.unary main_v68 main_v69 (broadcastInDim S300000x64 ![0, 1] bcast_S300000x1_S300000x64_0_1 : (⟨S300000x1, .f32⟩ : BufTy).Contents (Elt F) → (⟨S300000x64, .f32⟩ : BufTy).Contents (Elt F)),
    StableHlo.binary main_v65 main_v69 main_v70 (Host.divf : (⟨S300000x64, .f32⟩ : BufTy).Contents (Elt F) → (⟨S300000x64, .f32⟩ : BufTy).Contents (Elt F) → (⟨S300000x64, .f32⟩ : BufTy).Contents (Elt F)) ]

/-- Operations 102 … 151: the third layer, from `main_v65`: sparse product `main_v83`, transforms' sum `main_v99`, rectifier `main_v100`, norms `main_v101`, normalised rows `main_v105`. -/
abbrev opsL2 : List (HloOp τ sig (Elt F)) :=
  [ StableHlo.unary main_arg6 main_v71 (broadcastInDim S4000000x1 ![0] bcast_S4000000_S4000000x1_0 : (⟨S4000000, .f32⟩ : BufTy).Contents (Elt F) → (⟨S4000000x1, .f32⟩ : BufTy).Contents (Elt F)),
    StableHlo.nullary main_c_8 (constantI S_ 32 0#32),
    StableHlo.unary main_c_8 main_v72 (broadcastInDim S4000000 ![] bcast_S_S4000000 : (⟨S_, .i32⟩ : BufTy).Contents (Elt F) → (⟨S4000000, .i32⟩ : BufTy).Contents (Elt F)),
    StableHlo.binary main_arg8 main_v72 main_v73 (cmpi .slt : (⟨S4000000, .i32⟩ : BufTy).Contents (Elt F) → (⟨S4000000, .i32⟩ : BufTy).Contents (Elt F) → (⟨S4000000, .i1⟩ : BufTy).Contents (Elt F)),
    StableHlo.nullary main_c_9 (constantI S_ 32 300000#32),
    StableHlo.unary main_c_9 main_v74 (broadcastInDim S4000000 ![] bcast_S_S4000000 : (⟨S_, .i32⟩ : BufTy).Contents (Elt F) → (⟨S4000000, .i32⟩ : BufTy).Contents (Elt F)),
    StableHlo.binary main_arg8 main_v74 main_v75 (addi : (⟨S4000000, .i32⟩ : BufTy).Contents (Elt F) → (⟨S4000000, .i32⟩ : BufTy).Contents (Elt F) → (⟨S4000000, .i32⟩ : BufTy).Contents (Elt F)),
    StableHlo.ternary main_v73 main_v75 main_arg8 main_v76 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v76 main_v77 (broadcastInDim S4000000x1 ![0] bcast_S4000000_S4000000x1_0 : (⟨S4000000, .i32⟩ : BufTy).Contents (Elt F) → (⟨S4000000x1, .i32⟩ : BufTy).Contents (Elt F)),
    StableHlo.binary main_v65 main_v77 main_v78 ((fun x i => Host.gather gather_S300000x64_S4000000x1_S4000000x64_1_0_n_n_0_1_164 x i) : (⟨S300000x64, .f32⟩ : BufTy).Contents (Elt F) → (⟨S4000000x1, .i32⟩ : BufTy).Contents (Elt F) → (⟨S4000000x64, .f32⟩ : BufTy).Contents (Elt F)),
    StableHlo.unary main_v71 main_v79 (broadcastInDim S4000000x64 ![0, 1] bcast_S4000000x1_S4000000x64_0_1 : (⟨S4000000x1, .f32⟩ : BufTy).Contents (Elt F) → (⟨S4000000x64, .f32⟩ : BufTy).Contents (Elt F)),
    StableHlo.binary main_v79 main_v78 main_v80 (mulf : (⟨S4000000x64, .f32⟩ : BufTy).Contents (Elt F) → (⟨S4000000x64, .f32⟩ : BufTy).Contents (Elt F) → (⟨S4000000x64, .f32⟩ : BufTy).Contents (Elt F)),
    StableHlo.nullary main_cst_10 (constant S_ .f32 0x00000000#32),
    StableHlo.unary main_cst_10 main_v81 (broadcastInDim S300000x64 ![] bcast_S_S300000x64 : (⟨S_, .f32⟩ : BufTy).Contents (Elt F) → (⟨S300000x64, .f32⟩ : BufTy).Contents (Elt F)),
    StableHlo.unary main_arg7 main_v82 (broadcastInDim S4000000x1 ![0] bcast_S4000000_S4000000x1_0 : (⟨S4000000, .i32⟩ : BufTy).Contents (Elt F) → (⟨S4000000x1, .i32⟩ : BufTy).Contents (Elt F)),
    StableHlo.ternary main_v81 main_v82 main_v80 main_v83 ((fun x i u => Host.scatterAdd scatter_S300000x64_S4000000x1_S4000000x64_1_0_0_1 x i u) : (⟨S300000x64, .f32⟩ : BufTy).Contents (Elt F) → (⟨S4000000x1, .i32⟩ : BufTy).Contents (Elt F) → (⟨S4000000x64, .f32⟩ : BufTy).Contents (Elt F) → (⟨S300000x64, .f32⟩ : BufTy).Contents (Elt F)),
    StableHlo.unary main_arg2 main_v84 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v84 main_v85 rfl shapeCasts_S1x64x64_S64x64,
    StableHlo.binary main_v83 main_v85 main_v86 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg3 main_v87 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v87 main_v88 rfl shapeCasts_S1x1x64_S1x64,
    StableHlo.unary main_v88 main_v89 (broadcastInDim S300000x64 ![0, 1] bcast_S1x64_S300000x64_0_1 : (⟨S1x64, .f32⟩ : BufTy).Contents (Elt F) → (⟨S300000x64, .f32⟩ : BufTy).Contents (Elt F)),
    StableHlo.binary main_v86 main_v89 main_v90 (addf : (⟨S300000x64, .f32⟩ : BufTy).Contents (Elt F) → (⟨S300000x64, .f32⟩ : BufTy).Contents (Elt F) → (⟨S300000x64, .f32⟩ : BufTy).Contents (Elt F)),
    StableHlo.binary main_v65 main_v83 main_v91 (mulf : (⟨S300000x64, .f32⟩ : BufTy).Contents (Elt F) → (⟨S300000x64, .f32⟩ : BufTy).Contents (Elt F) → (⟨S300000x64, .f32⟩ : BufTy).Contents (Elt F)),
    StableHlo.unary main_arg4 main_v92 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v92 main_v93 rfl shapeCasts_S1x64x64_S64x64,
    StableHlo.binary main_v91 main_v93 main_v94 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg5 main_v95 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v95 main_v96 rfl shapeCasts_S1x1x64_S1x64,
    StableHlo.unary main_v96 main_v97 (broadcastInDim S300000x64 ![0, 1] bcast_S1x64_S300000x64_0_1 : (⟨S1x64, .f32⟩ : BufTy).Contents (Elt F) → (⟨S300000x64, .f32⟩ : BufTy).Contents (Elt F)),
    StableHlo.binary main_v94 main_v97 main_v98 (addf : (⟨S300000x64, .f32⟩ : BufTy).Contents (Elt F) → (⟨S300000x64, .f32⟩ : BufTy).Contents (Elt F) → (⟨S300000x64, .f32⟩ : BufTy).Contents (Elt F)),
    StableHlo.binary main_v90 main_v98 main_v99 (addf : (⟨S300000x64, .f32⟩ : BufTy).Contents (Elt F) → (⟨S300000x64, .f32⟩ : BufTy).Contents (Elt F) → (⟨S300000x64, .f32⟩ : BufTy).Contents (Elt F)),
    StableHlo.nullary main_cst_11 (constant S_ .f32 0x3E4CCCCD#32),
    StableHlo.TRef.nullary main_call4.cst (constant S_ .f32 0x00000000#32),
    StableHlo.TRef.unary main_call4.cst main_call4.v0 (broadcastInDim S300000x64 ![] bcast_S_S300000x64),
    StableHlo.TRef.binary (.of main_v99 : StableHlo.TRef sig ⟨S300000x64, .f32⟩) main_call4.v0 main_call4.v1 (cmpf .oge),
    StableHlo.TRef.unary (.of main_cst_11 : StableHlo.TRef sig ⟨S_, .f32⟩) main_call4.v2 id,
    StableHlo.TRef.unary main_call4.v2 main_call4.v3 (broadcastInDim S300000x64 ![] bcast_S_S300000x64),
    StableHlo.TRef.binary main_call4.v3 (.of main_v99 : StableHlo.TRef sig ⟨S300000x64, .f32⟩) main_call4.v4 mulf,
    StableHlo.TRef.ternary main_call4.v1 (.of main_v99 : StableHlo.TRef sig ⟨S300000x64, .f32⟩) main_call4.v4 main_call4.call0.v0 select,
    StableHlo.TRef.binary (.of main_v100 : StableHlo.TRef sig ⟨S300000x64, .f32⟩) (.of main_v100 : StableHlo.TRef sig ⟨S300000x64, .f32⟩) main_call5.v0 mulf,
    StableHlo.TRef.nullary main_call5.cst (constant S_ .f32 0x00000000#32),
    StableHlo.TRef.binary main_call5.v0 main_call5.cst main_call5.v1 (fun x v => Host.reduceAdd x v reducesTo_S300000x64_S300000_d1 h_S_),
    StableHlo.TRef.unary main_call5.v1 main_call5.v2 (broadcastInDim S300000x1 ![0] bcast_S300000_S300000x1_0),
    StableHlo.TRef.unary main_call5.v2 main_call5.v3 Host.sqrt,
    StableHlo.nullary main_cst_12 (constant S_ .f32 0x2B8CBCCC#32),
    StableHlo.unary main_cst_12 main_v102 (broadcastInDim S300000x1 ![] bcast_S_S300000x1 : (⟨S_, .f32⟩ : BufTy).Contents (Elt F) → (⟨S300000x1, .f32⟩ : BufTy).Contents (Elt F)),
    StableHlo.binary main_v101 main_v102 main_v103 (maximumf : (⟨S300000x1, .f32⟩ : BufTy).Contents (Elt F) → (⟨S300000x1, .f32⟩ : BufTy).Contents (Elt F) → (⟨S300000x1, .f32⟩ : BufTy).Contents (Elt F)),
    StableHlo.unary main_v103 main_v104 (broadcastInDim S300000x64 ![0, 1] bcast_S300000x1_S300000x64_0_1 : (⟨S300000x1, .f32⟩ : BufTy).Contents (Elt F) → (⟨S300000x64, .f32⟩ : BufTy).Contents (Elt F)),
    StableHlo.binary main_v100 main_v104 main_v105 (Host.divf : (⟨S300000x64, .f32⟩ : BufTy).Contents (Elt F) → (⟨S300000x64, .f32⟩ : BufTy).Contents (Elt F) → (⟨S300000x64, .f32⟩ : BufTy).Contents (Elt F)) ]

/-- Operations 152 … 181: the four 64-column blocks side by side (`main_v106`), its user rows and item rows, and the three row gathers `main_v115`, `main_v122`, `main_v129`. -/
abbrev opsT : List (HloOp τ sig (Elt F)) :=
  [ StableHlo.nary ![main_v0, main_v35, main_v70, main_v105] main_v106 (fun u => concatenate S300000x256 1 [⟨S300000x64, u 0⟩, ⟨S300000x64, u 1⟩, ⟨S300000x64, u 2⟩, ⟨S300000x64, u 3⟩] concatenates_S300000x64_S300000x64_S300000x64_S300000x64_S300000x256_d1),
    StableHlo.unary main_v106 main_v107 ((extractStridedSlice S100000x256 ![0, 0] · slices_S300000x256_S100000x256_0_0) : (⟨S300000x256, .f32⟩ : BufTy).Contents (Elt F) → (⟨S100000x256, .f32⟩ : BufTy).Contents (Elt F)),
    StableHlo.unary main_v106 main_v108 ((extractStridedSlice S200000x256 ![100000, 0] · slices_S300000x256_S200000x256_100000_0) : (⟨S300000x256, .f32⟩ : BufTy).Contents (Elt F) → (⟨S200000x256, .f32⟩ : BufTy).Contents (Elt F)),
    StableHlo.nullary main_c_13 (constantI S_ 32 0#32),
    StableHlo.unary main_c_13 main_v109 (broadcastInDim S4096 ![] bcast_S_S4096 : (⟨S_, .i32⟩ : BufTy).Contents (Elt F) → (⟨S4096, .i32⟩ : BufTy).Contents (Elt F)),
    StableHlo.binary main_arg9 main_v109 main_v110 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 100000#32),
    StableHlo.unary main_c_14 main_v111 (broadcastInDim S4096 ![] bcast_S_S4096 : (⟨S_, .i32⟩ : BufTy).Contents (Elt F) → (⟨S4096, .i32⟩ : BufTy).Contents (Elt F)),
    StableHlo.binary main_arg9 main_v111 main_v112 (addi : (⟨S4096, .i32⟩ : BufTy).Contents (Elt F) → (⟨S4096, .i32⟩ : BufTy).Contents (Elt F) → (⟨S4096, .i32⟩ : BufTy).Contents (Elt F)),
    StableHlo.ternary main_v110 main_v112 main_arg9 main_v113 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v113 main_v114 (broadcastInDim S4096x1 ![0] bcast_S4096_S4096x1_0 : (⟨S4096, .i32⟩ : BufTy).Contents (Elt F) → (⟨S4096x1, .i32⟩ : BufTy).Contents (Elt F)),
    StableHlo.binary main_v107 main_v114 main_v115 ((fun x i => Host.gather gather_S100000x256_S4096x1_S4096x256_1_0_n_n_0_1_1256 x i) : (⟨S100000x256, .f32⟩ : BufTy).Contents (Elt F) → (⟨S4096x1, .i32⟩ : BufTy).Contents (Elt F) → (⟨S4096x256, .f32⟩ : BufTy).Contents (Elt F)),
    StableHlo.nullary main_c_15 (constantI S_ 32 0#32),
    StableHlo.unary main_c_15 main_v116 (broadcastInDim S4096 ![] bcast_S_S4096 : (⟨S_, .i32⟩ : BufTy).Contents (Elt F) → (⟨S4096, .i32⟩ : BufTy).Contents (Elt F)),
    StableHlo.binary main_arg10 main_v116 main_v117 (cmpi .slt : (⟨S4096, .i32⟩ : BufTy).Contents (Elt F) → (⟨S4096, .i32⟩ : BufTy).Contents (Elt F) → (⟨S4096, .i1⟩ : BufTy).Contents (Elt F)),
    StableHlo.nullary main_c_16 (constantI S_ 32 200000#32),
    StableHlo.unary main_c_16 main_v118 (broadcastInDim S4096 ![] bcast_S_S4096 : (⟨S_, .i32⟩ : BufTy).Contents (Elt F) → (⟨S4096, .i32⟩ : BufTy).Contents (Elt F)),
    StableHlo.binary main_arg10 main_v118 main_v119 (addi : (⟨S4096, .i32⟩ : BufTy).Contents (Elt F) → (⟨S4096, .i32⟩ : BufTy).Contents (Elt F) → (⟨S4096, .i32⟩ : BufTy).Contents (Elt F)),
    StableHlo.ternary main_v117 main_v119 main_arg10 main_v120 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v120 main_v121 (broadcastInDim S4096x1 ![0] bcast_S4096_S4096x1_0 : (⟨S4096, .i32⟩ : BufTy).Contents (Elt F) → (⟨S4096x1, .i32⟩ : BufTy).Contents (Elt F)),
    StableHlo.binary main_v108 main_v121 main_v122 ((fun x i => Host.gather gather_S200000x256_S4096x1_S4096x256_1_0_n_n_0_1_1256 x i) : (⟨S200000x256, .f32⟩ : BufTy).Contents (Elt F) → (⟨S4096x1, .i32⟩ : BufTy).Contents (Elt F) → (⟨S4096x256, .f32⟩ : BufTy).Contents (Elt F)),
    StableHlo.nullary main_c_17 (constantI S_ 32 0#32),
    StableHlo.unary main_c_17 main_v123 (broadcastInDim S4096 ![] bcast_S_S4096 : (⟨S_, .i32⟩ : BufTy).Contents (Elt F) → (⟨S4096, .i32⟩ : BufTy).Contents (Elt F)),
    StableHlo.binary main_arg11 main_v123 main_v124 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 200000#32),
    StableHlo.unary main_c_18 main_v125 (broadcastInDim S4096 ![] bcast_S_S4096 : (⟨S_, .i32⟩ : BufTy).Contents (Elt F) → (⟨S4096, .i32⟩ : BufTy).Contents (Elt F)),
    StableHlo.binary main_arg11 main_v125 main_v126 (addi : (⟨S4096, .i32⟩ : BufTy).Contents (Elt F) → (⟨S4096, .i32⟩ : BufTy).Contents (Elt F) → (⟨S4096, .i32⟩ : BufTy).Contents (Elt F)),
    StableHlo.ternary main_v124 main_v126 main_arg11 main_v127 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v127 main_v128 (broadcastInDim S4096x1 ![0] bcast_S4096_S4096x1_0 : (⟨S4096, .i32⟩ : BufTy).Contents (Elt F) → (⟨S4096x1, .i32⟩ : BufTy).Contents (Elt F)),
    StableHlo.binary main_v108 main_v128 main_v129 ((fun x i => Host.gather gather_S200000x256_S4096x1_S4096x256_1_0_n_n_0_1_1256 x i) : (⟨S200000x256, .f32⟩ : BufTy).Contents (Elt F) → (⟨S4096x1, .i32⟩ : BufTy).Contents (Elt F) → (⟨S4096x256, .f32⟩ : BufTy).Contents (Elt F)) ]

/-- @main's 181 operations, in order. -/
abbrev ops : List (HloOp τ sig (Elt F)) := opsL0 ++ (opsL1 ++ (opsL2 ++ opsT))

/-! ## The same line cut where @main's text is cut

@main is printed as three consecutive blocks of statements; each is the line of its own operations. -/

/-- The operations of @main's first block of statements (operations 1 … 70). -/
abbrev win0 : List (HloOp τ sig (Elt F)) :=
  [ StableHlo.binary main_arg0 main_arg1 main_v0 ((fun a b => concatenate S300000x64 0 [⟨S100000x64, a⟩, ⟨S200000x64, b⟩] concatenates_S100000x64_S200000x64_S300000x64_d0) : (⟨S100000x64, .f32⟩ : BufTy).Contents (Elt F) → (⟨S200000x64, .f32⟩ : BufTy).Contents (Elt F) → (⟨S300000x64, .f32⟩ : BufTy).Contents (Elt F)),
    StableHlo.unary main_arg6 main_v1 (broadcastInDim S4000000x1 ![0] bcast_S4000000_S4000000x1_0 : (⟨S4000000, .f32⟩ : BufTy).Contents (Elt F) → (⟨S4000000x1, .f32⟩ : BufTy).Contents (Elt F)),
    StableHlo.nullary main_c (constantI S_ 32 0#32),
    StableHlo.unary main_c main_v2 (broadcastInDim S4000000 ![] bcast_S_S4000000 : (⟨S_, .i32⟩ : BufTy).Contents (Elt F) → (⟨S4000000, .i32⟩ : BufTy).Contents (Elt F)),
    StableHlo.binary main_arg8 main_v2 main_v3 (cmpi .slt : (⟨S4000000, .i32⟩ : BufTy).Contents (Elt F) → (⟨S4000000, .i32⟩ : BufTy).Contents (Elt F) → (⟨S4000000, .i1⟩ : BufTy).Contents (Elt F)),
    StableHlo.nullary main_c_0 (constantI S_ 32 300000#32),
    StableHlo.unary main_c_0 main_v4 (broadcastInDim S4000000 ![] bcast_S_S4000000 : (⟨S_, .i32⟩ : BufTy).Contents (Elt F) → (⟨S4000000, .i32⟩ : BufTy).Contents (Elt F)),
    StableHlo.binary main_arg8 main_v4 main_v5 (addi : (⟨S4000000, .i32⟩ : BufTy).Contents (Elt F) → (⟨S4000000, .i32⟩ : BufTy).Contents (Elt F) → (⟨S4000000, .i32⟩ : BufTy).Contents (Elt F)),
    StableHlo.ternary main_v3 main_v5 main_arg8 main_v6 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v6 main_v7 (broadcastInDim S4000000x1 ![0] bcast_S4000000_S4000000x1_0 : (⟨S4000000, .i32⟩ : BufTy).Contents (Elt F) → (⟨S4000000x1, .i32⟩ : BufTy).Contents (Elt F)),
    StableHlo.binary main_v0 main_v7 main_v8 ((fun x i => Host.gather gather_S300000x64_S4000000x1_S4000000x64_1_0_n_n_0_1_164 x i) : (⟨S300000x64, .f32⟩ : BufTy).Contents (Elt F) → (⟨S4000000x1, .i32⟩ : BufTy).Contents (Elt F) → (⟨S4000000x64, .f32⟩ : BufTy).Contents (Elt F)),
    StableHlo.unary main_v1 main_v9 (broadcastInDim S4000000x64 ![0, 1] bcast_S4000000x1_S4000000x64_0_1 : (⟨S4000000x1, .f32⟩ : BufTy).Contents (Elt F) → (⟨S4000000x64, .f32⟩ : BufTy).Contents (Elt F)),
    StableHlo.binary main_v9 main_v8 main_v10 (mulf : (⟨S4000000x64, .f32⟩ : BufTy).Contents (Elt F) → (⟨S4000000x64, .f32⟩ : BufTy).Contents (Elt F) → (⟨S4000000x64, .f32⟩ : BufTy).Contents (Elt F)),
    StableHlo.nullary main_cst (constant S_ .f32 0x00000000#32),
    StableHlo.unary main_cst main_v11 (broadcastInDim S300000x64 ![] bcast_S_S300000x64 : (⟨S_, .f32⟩ : BufTy).Contents (Elt F) → (⟨S300000x64, .f32⟩ : BufTy).Contents (Elt F)),
    StableHlo.unary main_arg7 main_v12 (broadcastInDim S4000000x1 ![0] bcast_S4000000_S4000000x1_0 : (⟨S4000000, .i32⟩ : BufTy).Contents (Elt F) → (⟨S4000000x1, .i32⟩ : BufTy).Contents (Elt F)),
    StableHlo.ternary main_v11 main_v12 main_v10 main_v13 ((fun x i u => Host.scatterAdd scatter_S300000x64_S4000000x1_S4000000x64_1_0_0_1 x i u) : (⟨S300000x64, .f32⟩ : BufTy).Contents (Elt F) → (⟨S4000000x1, .i32⟩ : BufTy).Contents (Elt F) → (⟨S4000000x64, .f32⟩ : BufTy).Contents (Elt F) → (⟨S300000x64, .f32⟩ : BufTy).Contents (Elt F)),
    StableHlo.unary main_arg2 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.binary main_v13 main_v15 main_v16 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg3 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v17 main_v18 rfl shapeCasts_S1x1x64_S1x64,
    StableHlo.unary main_v18 main_v19 (broadcastInDim S300000x64 ![0, 1] bcast_S1x64_S300000x64_0_1 : (⟨S1x64, .f32⟩ : BufTy).Contents (Elt F) → (⟨S300000x64, .f32⟩ : BufTy).Contents (Elt F)),
    StableHlo.binary main_v16 main_v19 main_v20 (addf : (⟨S300000x64, .f32⟩ : BufTy).Contents (Elt F) → (⟨S300000x64, .f32⟩ : BufTy).Contents (Elt F) → (⟨S300000x64, .f32⟩ : BufTy).Contents (Elt F)),
    StableHlo.binary main_v0 main_v13 main_v21 (mulf : (⟨S300000x64, .f32⟩ : BufTy).Contents (Elt F) → (⟨S300000x64, .f32⟩ : BufTy).Contents (Elt F) → (⟨S300000x64, .f32⟩ : BufTy).Contents (Elt F)),
    StableHlo.unary main_arg4 main_v22 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v22 main_v23 rfl shapeCasts_S1x64x64_S64x64,
    StableHlo.binary main_v21 main_v23 main_v24 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg5 main_v25 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v25 main_v26 rfl shapeCasts_S1x1x64_S1x64,
    StableHlo.unary main_v26 main_v27 (broadcastInDim S300000x64 ![0, 1] bcast_S1x64_S300000x64_0_1 : (⟨S1x64, .f32⟩ : BufTy).Contents (Elt F) → (⟨S300000x64, .f32⟩ : BufTy).Contents (Elt F)),
    StableHlo.binary main_v24 main_v27 main_v28 (addf : (⟨S300000x64, .f32⟩ : BufTy).Contents (Elt F) → (⟨S300000x64, .f32⟩ : BufTy).Contents (Elt F) → (⟨S300000x64, .f32⟩ : BufTy).Contents (Elt F)),
    StableHlo.binary main_v20 main_v28 main_v29 (addf : (⟨S300000x64, .f32⟩ : BufTy).Contents (Elt F) → (⟨S300000x64, .f32⟩ : BufTy).Contents (Elt F) → (⟨S300000x64, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S300000x64 ![] bcast_S_S300000x64),
    StableHlo.TRef.binary (.of main_v29 : StableHlo.TRef sig ⟨S300000x64, .f32⟩) main_call0.v0 main_call0.v1 (cmpf .oge),
    StableHlo.TRef.unary (.of main_cst_1 : StableHlo.TRef sig ⟨S_, .f32⟩) main_call0.v2 id,
    StableHlo.TRef.unary main_call0.v2 main_call0.v3 (broadcastInDim S300000x64 ![] bcast_S_S300000x64),
    StableHlo.TRef.binary main_call0.v3 (.of main_v29 : StableHlo.TRef sig ⟨S300000x64, .f32⟩) main_call0.v4 mulf,
    StableHlo.TRef.ternary main_call0.v1 (.of main_v29 : StableHlo.TRef sig ⟨S300000x64, .f32⟩) main_call0.v4 main_call0.call0.v0 select,
    StableHlo.TRef.binary (.of main_v30 : StableHlo.TRef sig ⟨S300000x64, .f32⟩) (.of main_v30 : StableHlo.TRef sig ⟨S300000x64, .f32⟩) main_call1.v0 mulf,
    StableHlo.TRef.nullary main_call1.cst (constant S_ .f32 0x00000000#32),
    StableHlo.TRef.binary main_call1.v0 main_call1.cst main_call1.v1 (fun x v => Host.reduceAdd x v reducesTo_S300000x64_S300000_d1 h_S_),
    StableHlo.TRef.unary main_call1.v1 main_call1.v2 (broadcastInDim S300000x1 ![0] bcast_S300000_S300000x1_0),
    StableHlo.TRef.unary main_call1.v2 main_call1.v3 Host.sqrt,
    StableHlo.nullary main_cst_2 (constant S_ .f32 0x2B8CBCCC#32),
    StableHlo.unary main_cst_2 main_v32 (broadcastInDim S300000x1 ![] bcast_S_S300000x1 : (⟨S_, .f32⟩ : BufTy).Contents (Elt F) → (⟨S300000x1, .f32⟩ : BufTy).Contents (Elt F)),
    StableHlo.binary main_v31 main_v32 main_v33 (maximumf : (⟨S300000x1, .f32⟩ : BufTy).Contents (Elt F) → (⟨S300000x1, .f32⟩ : BufTy).Contents (Elt F) → (⟨S300000x1, .f32⟩ : BufTy).Contents (Elt F)),
    StableHlo.unary main_v33 main_v34 (broadcastInDim S300000x64 ![0, 1] bcast_S300000x1_S300000x64_0_1 : (⟨S300000x1, .f32⟩ : BufTy).Contents (Elt F) → (⟨S300000x64, .f32⟩ : BufTy).Contents (Elt F)),
    StableHlo.binary main_v30 main_v34 main_v35 (Host.divf : (⟨S300000x64, .f32⟩ : BufTy).Contents (Elt F) → (⟨S300000x64, .f32⟩ : BufTy).Contents (Elt F) → (⟨S300000x64, .f32⟩ : BufTy).Contents (Elt F)),
    StableHlo.unary main_arg6 main_v36 (broadcastInDim S4000000x1 ![0] bcast_S4000000_S4000000x1_0 : (⟨S4000000, .f32⟩ : BufTy).Contents (Elt F) → (⟨S4000000x1, .f32⟩ : BufTy).Contents (Elt F)),
    StableHlo.nullary main_c_3 (constantI S_ 32 0#32),
    StableHlo.unary main_c_3 main_v37 (broadcastInDim S4000000 ![] bcast_S_S4000000 : (⟨S_, .i32⟩ : BufTy).Contents (Elt F) → (⟨S4000000, .i32⟩ : BufTy).Contents (Elt F)),
    StableHlo.binary main_arg8 main_v37 main_v38 (cmpi .slt : (⟨S4000000, .i32⟩ : BufTy).Contents (Elt F) → (⟨S4000000, .i32⟩ : BufTy).Contents (Elt F) → (⟨S4000000, .i1⟩ : BufTy).Contents (Elt F)),
    StableHlo.nullary main_c_4 (constantI S_ 32 300000#32),
    StableHlo.unary main_c_4 main_v39 (broadcastInDim S4000000 ![] bcast_S_S4000000 : (⟨S_, .i32⟩ : BufTy).Contents (Elt F) → (⟨S4000000, .i32⟩ : BufTy).Contents (Elt F)),
    StableHlo.binary main_arg8 main_v39 main_v40 (addi : (⟨S4000000, .i32⟩ : BufTy).Contents (Elt F) → (⟨S4000000, .i32⟩ : BufTy).Contents (Elt F) → (⟨S4000000, .i32⟩ : BufTy).Contents (Elt F)),
    StableHlo.ternary main_v38 main_v40 main_arg8 main_v41 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v41 main_v42 (broadcastInDim S4000000x1 ![0] bcast_S4000000_S4000000x1_0 : (⟨S4000000, .i32⟩ : BufTy).Contents (Elt F) → (⟨S4000000x1, .i32⟩ : BufTy).Contents (Elt F)),
    StableHlo.binary main_v30 main_v42 main_v43 ((fun x i => Host.gather gather_S300000x64_S4000000x1_S4000000x64_1_0_n_n_0_1_164 x i) : (⟨S300000x64, .f32⟩ : BufTy).Contents (Elt F) → (⟨S4000000x1, .i32⟩ : BufTy).Contents (Elt F) → (⟨S4000000x64, .f32⟩ : BufTy).Contents (Elt F)),
    StableHlo.unary main_v36 main_v44 (broadcastInDim S4000000x64 ![0, 1] bcast_S4000000x1_S4000000x64_0_1 : (⟨S4000000x1, .f32⟩ : BufTy).Contents (Elt F) → (⟨S4000000x64, .f32⟩ : BufTy).Contents (Elt F)),
    StableHlo.binary main_v44 main_v43 main_v45 (mulf : (⟨S4000000x64, .f32⟩ : BufTy).Contents (Elt F) → (⟨S4000000x64, .f32⟩ : BufTy).Contents (Elt F) → (⟨S4000000x64, .f32⟩ : BufTy).Contents (Elt F)),
    StableHlo.nullary main_cst_5 (constant S_ .f32 0x00000000#32),
    StableHlo.unary main_cst_5 main_v46 (broadcastInDim S300000x64 ![] bcast_S_S300000x64 : (⟨S_, .f32⟩ : BufTy).Contents (Elt F) → (⟨S300000x64, .f32⟩ : BufTy).Contents (Elt F)),
    StableHlo.unary main_arg7 main_v47 (broadcastInDim S4000000x1 ![0] bcast_S4000000_S4000000x1_0 : (⟨S4000000, .i32⟩ : BufTy).Contents (Elt F) → (⟨S4000000x1, .i32⟩ : BufTy).Contents (Elt F)),
    StableHlo.ternary main_v46 main_v47 main_v45 main_v48 ((fun x i u => Host.scatterAdd scatter_S300000x64_S4000000x1_S4000000x64_1_0_0_1 x i u) : (⟨S300000x64, .f32⟩ : BufTy).Contents (Elt F) → (⟨S4000000x1, .i32⟩ : BufTy).Contents (Elt F) → (⟨S4000000x64, .f32⟩ : BufTy).Contents (Elt F) → (⟨S300000x64, .f32⟩ : BufTy).Contents (Elt F)),
    StableHlo.unary main_arg2 main_v49 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v49 main_v50 rfl shapeCasts_S1x64x64_S64x64,
    StableHlo.binary main_v48 main_v50 main_v51 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)) ]

/-- The operations of @main's second block of statements (operations 71 … 150). -/
abbrev win1 : List (HloOp τ sig (Elt F)) :=
  [ StableHlo.unary main_arg3 main_v52 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v52 main_v53 rfl shapeCasts_S1x1x64_S1x64,
    StableHlo.unary main_v53 main_v54 (broadcastInDim S300000x64 ![0, 1] bcast_S1x64_S300000x64_0_1 : (⟨S1x64, .f32⟩ : BufTy).Contents (Elt F) → (⟨S300000x64, .f32⟩ : BufTy).Contents (Elt F)),
    StableHlo.binary main_v51 main_v54 main_v55 (addf : (⟨S300000x64, .f32⟩ : BufTy).Contents (Elt F) → (⟨S300000x64, .f32⟩ : BufTy).Contents (Elt F) → (⟨S300000x64, .f32⟩ : BufTy).Contents (Elt F)),
    StableHlo.binary main_v30 main_v48 main_v56 (mulf : (⟨S300000x64, .f32⟩ : BufTy).Contents (Elt F) → (⟨S300000x64, .f32⟩ : BufTy).Contents (Elt F) → (⟨S300000x64, .f32⟩ : BufTy).Contents (Elt F)),
    StableHlo.unary main_arg4 main_v57 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v57 main_v58 rfl shapeCasts_S1x64x64_S64x64,
    StableHlo.binary main_v56 main_v58 main_v59 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg5 main_v60 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v60 main_v61 rfl shapeCasts_S1x1x64_S1x64,
    StableHlo.unary main_v61 main_v62 (broadcastInDim S300000x64 ![0, 1] bcast_S1x64_S300000x64_0_1 : (⟨S1x64, .f32⟩ : BufTy).Contents (Elt F) → (⟨S300000x64, .f32⟩ : BufTy).Contents (Elt F)),
    StableHlo.binary main_v59 main_v62 main_v63 (addf : (⟨S300000x64, .f32⟩ : BufTy).Contents (Elt F) → (⟨S300000x64, .f32⟩ : BufTy).Contents (Elt F) → (⟨S300000x64, .f32⟩ : BufTy).Contents (Elt F)),
    StableHlo.binary main_v55 main_v63 main_v64 (addf : (⟨S300000x64, .f32⟩ : BufTy).Contents (Elt F) → (⟨S300000x64, .f32⟩ : BufTy).Contents (Elt F) → (⟨S300000x64, .f32⟩ : BufTy).Contents (Elt F)),
    StableHlo.nullary main_cst_6 (constant S_ .f32 0x3E4CCCCD#32),
    StableHlo.TRef.nullary main_call2.cst (constant S_ .f32 0x00000000#32),
    StableHlo.TRef.unary main_call2.cst main_call2.v0 (broadcastInDim S300000x64 ![] bcast_S_S300000x64),
    StableHlo.TRef.binary (.of main_v64 : StableHlo.TRef sig ⟨S300000x64, .f32⟩) main_call2.v0 main_call2.v1 (cmpf .oge),
    StableHlo.TRef.unary (.of main_cst_6 : StableHlo.TRef sig ⟨S_, .f32⟩) main_call2.v2 id,
    StableHlo.TRef.unary main_call2.v2 main_call2.v3 (broadcastInDim S300000x64 ![] bcast_S_S300000x64),
    StableHlo.TRef.binary main_call2.v3 (.of main_v64 : StableHlo.TRef sig ⟨S300000x64, .f32⟩) main_call2.v4 mulf,
    StableHlo.TRef.ternary main_call2.v1 (.of main_v64 : StableHlo.TRef sig ⟨S300000x64, .f32⟩) main_call2.v4 main_call2.call0.v0 select,
    StableHlo.TRef.binary (.of main_v65 : StableHlo.TRef sig ⟨S300000x64, .f32⟩) (.of main_v65 : StableHlo.TRef sig ⟨S300000x64, .f32⟩) main_call3.v0 mulf,
    StableHlo.TRef.nullary main_call3.cst (constant S_ .f32 0x00000000#32),
    StableHlo.TRef.binary main_call3.v0 main_call3.cst main_call3.v1 (fun x v => Host.reduceAdd x v reducesTo_S300000x64_S300000_d1 h_S_),
    StableHlo.TRef.unary main_call3.v1 main_call3.v2 (broadcastInDim S300000x1 ![0] bcast_S300000_S300000x1_0),
    StableHlo.TRef.unary main_call3.v2 main_call3.v3 Host.sqrt,
    StableHlo.nullary main_cst_7 (constant S_ .f32 0x2B8CBCCC#32),
    StableHlo.unary main_cst_7 main_v67 (broadcastInDim S300000x1 ![] bcast_S_S300000x1 : (⟨S_, .f32⟩ : BufTy).Contents (Elt F) → (⟨S300000x1, .f32⟩ : BufTy).Contents (Elt F)),
    StableHlo.binary main_v66 main_v67 main_v68 (maximumf : (⟨S300000x1, .f32⟩ : BufTy).Contents (Elt F) → (⟨S300000x1, .f32⟩ : BufTy).Contents (Elt F) → (⟨S300000x1, .f32⟩ : BufTy).Contents (Elt F)),
    StableHlo.unary main_v68 main_v69 (broadcastInDim S300000x64 ![0, 1] bcast_S300000x1_S300000x64_0_1 : (⟨S300000x1, .f32⟩ : BufTy).Contents (Elt F) → (⟨S300000x64, .f32⟩ : BufTy).Contents (Elt F)),
    StableHlo.binary main_v65 main_v69 main_v70 (Host.divf : (⟨S300000x64, .f32⟩ : BufTy).Contents (Elt F) → (⟨S300000x64, .f32⟩ : BufTy).Contents (Elt F) → (⟨S300000x64, .f32⟩ : BufTy).Contents (Elt F)),
    StableHlo.unary main_arg6 main_v71 (broadcastInDim S4000000x1 ![0] bcast_S4000000_S4000000x1_0 : (⟨S4000000, .f32⟩ : BufTy).Contents (Elt F) → (⟨S4000000x1, .f32⟩ : BufTy).Contents (Elt F)),
    StableHlo.nullary main_c_8 (constantI S_ 32 0#32),
    StableHlo.unary main_c_8 main_v72 (broadcastInDim S4000000 ![] bcast_S_S4000000 : (⟨S_, .i32⟩ : BufTy).Contents (Elt F) → (⟨S4000000, .i32⟩ : BufTy).Contents (Elt F)),
    StableHlo.binary main_arg8 main_v72 main_v73 (cmpi .slt : (⟨S4000000, .i32⟩ : BufTy).Contents (Elt F) → (⟨S4000000, .i32⟩ : BufTy).Contents (Elt F) → (⟨S4000000, .i1⟩ : BufTy).Contents (Elt F)),
    StableHlo.nullary main_c_9 (constantI S_ 32 300000#32),
    StableHlo.unary main_c_9 main_v74 (broadcastInDim S4000000 ![] bcast_S_S4000000 : (⟨S_, .i32⟩ : BufTy).Contents (Elt F) → (⟨S4000000, .i32⟩ : BufTy).Contents (Elt F)),
    StableHlo.binary main_arg8 main_v74 main_v75 (addi : (⟨S4000000, .i32⟩ : BufTy).Contents (Elt F) → (⟨S4000000, .i32⟩ : BufTy).Contents (Elt F) → (⟨S4000000, .i32⟩ : BufTy).Contents (Elt F)),
    StableHlo.ternary main_v73 main_v75 main_arg8 main_v76 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v76 main_v77 (broadcastInDim S4000000x1 ![0] bcast_S4000000_S4000000x1_0 : (⟨S4000000, .i32⟩ : BufTy).Contents (Elt F) → (⟨S4000000x1, .i32⟩ : BufTy).Contents (Elt F)),
    StableHlo.binary main_v65 main_v77 main_v78 ((fun x i => Host.gather gather_S300000x64_S4000000x1_S4000000x64_1_0_n_n_0_1_164 x i) : (⟨S300000x64, .f32⟩ : BufTy).Contents (Elt F) → (⟨S4000000x1, .i32⟩ : BufTy).Contents (Elt F) → (⟨S4000000x64, .f32⟩ : BufTy).Contents (Elt F)),
    StableHlo.unary main_v71 main_v79 (broadcastInDim S4000000x64 ![0, 1] bcast_S4000000x1_S4000000x64_0_1 : (⟨S4000000x1, .f32⟩ : BufTy).Contents (Elt F) → (⟨S4000000x64, .f32⟩ : BufTy).Contents (Elt F)),
    StableHlo.binary main_v79 main_v78 main_v80 (mulf : (⟨S4000000x64, .f32⟩ : BufTy).Contents (Elt F) → (⟨S4000000x64, .f32⟩ : BufTy).Contents (Elt F) → (⟨S4000000x64, .f32⟩ : BufTy).Contents (Elt F)),
    StableHlo.nullary main_cst_10 (constant S_ .f32 0x00000000#32),
    StableHlo.unary main_cst_10 main_v81 (broadcastInDim S300000x64 ![] bcast_S_S300000x64 : (⟨S_, .f32⟩ : BufTy).Contents (Elt F) → (⟨S300000x64, .f32⟩ : BufTy).Contents (Elt F)),
    StableHlo.unary main_arg7 main_v82 (broadcastInDim S4000000x1 ![0] bcast_S4000000_S4000000x1_0 : (⟨S4000000, .i32⟩ : BufTy).Contents (Elt F) → (⟨S4000000x1, .i32⟩ : BufTy).Contents (Elt F)),
    StableHlo.ternary main_v81 main_v82 main_v80 main_v83 ((fun x i u => Host.scatterAdd scatter_S300000x64_S4000000x1_S4000000x64_1_0_0_1 x i u) : (⟨S300000x64, .f32⟩ : BufTy).Contents (Elt F) → (⟨S4000000x1, .i32⟩ : BufTy).Contents (Elt F) → (⟨S4000000x64, .f32⟩ : BufTy).Contents (Elt F) → (⟨S300000x64, .f32⟩ : BufTy).Contents (Elt F)),
    StableHlo.unary main_arg2 main_v84 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v84 main_v85 rfl shapeCasts_S1x64x64_S64x64,
    StableHlo.binary main_v83 main_v85 main_v86 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg3 main_v87 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v87 main_v88 rfl shapeCasts_S1x1x64_S1x64,
    StableHlo.unary main_v88 main_v89 (broadcastInDim S300000x64 ![0, 1] bcast_S1x64_S300000x64_0_1 : (⟨S1x64, .f32⟩ : BufTy).Contents (Elt F) → (⟨S300000x64, .f32⟩ : BufTy).Contents (Elt F)),
    StableHlo.binary main_v86 main_v89 main_v90 (addf : (⟨S300000x64, .f32⟩ : BufTy).Contents (Elt F) → (⟨S300000x64, .f32⟩ : BufTy).Contents (Elt F) → (⟨S300000x64, .f32⟩ : BufTy).Contents (Elt F)),
    StableHlo.binary main_v65 main_v83 main_v91 (mulf : (⟨S300000x64, .f32⟩ : BufTy).Contents (Elt F) → (⟨S300000x64, .f32⟩ : BufTy).Contents (Elt F) → (⟨S300000x64, .f32⟩ : BufTy).Contents (Elt F)),
    StableHlo.unary main_arg4 main_v92 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v92 main_v93 rfl shapeCasts_S1x64x64_S64x64,
    StableHlo.binary main_v91 main_v93 main_v94 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg5 main_v95 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v95 main_v96 rfl shapeCasts_S1x1x64_S1x64,
    StableHlo.unary main_v96 main_v97 (broadcastInDim S300000x64 ![0, 1] bcast_S1x64_S300000x64_0_1 : (⟨S1x64, .f32⟩ : BufTy).Contents (Elt F) → (⟨S300000x64, .f32⟩ : BufTy).Contents (Elt F)),
    StableHlo.binary main_v94 main_v97 main_v98 (addf : (⟨S300000x64, .f32⟩ : BufTy).Contents (Elt F) → (⟨S300000x64, .f32⟩ : BufTy).Contents (Elt F) → (⟨S300000x64, .f32⟩ : BufTy).Contents (Elt F)),
    StableHlo.binary main_v90 main_v98 main_v99 (addf : (⟨S300000x64, .f32⟩ : BufTy).Contents (Elt F) → (⟨S300000x64, .f32⟩ : BufTy).Contents (Elt F) → (⟨S300000x64, .f32⟩ : BufTy).Contents (Elt F)),
    StableHlo.nullary main_cst_11 (constant S_ .f32 0x3E4CCCCD#32),
    StableHlo.TRef.nullary main_call4.cst (constant S_ .f32 0x00000000#32),
    StableHlo.TRef.unary main_call4.cst main_call4.v0 (broadcastInDim S300000x64 ![] bcast_S_S300000x64),
    StableHlo.TRef.binary (.of main_v99 : StableHlo.TRef sig ⟨S300000x64, .f32⟩) main_call4.v0 main_call4.v1 (cmpf .oge),
    StableHlo.TRef.unary (.of main_cst_11 : StableHlo.TRef sig ⟨S_, .f32⟩) main_call4.v2 id,
    StableHlo.TRef.unary main_call4.v2 main_call4.v3 (broadcastInDim S300000x64 ![] bcast_S_S300000x64),
    StableHlo.TRef.binary main_call4.v3 (.of main_v99 : StableHlo.TRef sig ⟨S300000x64, .f32⟩) main_call4.v4 mulf,
    StableHlo.TRef.ternary main_call4.v1 (.of main_v99 : StableHlo.TRef sig ⟨S300000x64, .f32⟩) main_call4.v4 main_call4.call0.v0 select,
    StableHlo.TRef.binary (.of main_v100 : StableHlo.TRef sig ⟨S300000x64, .f32⟩) (.of main_v100 : StableHlo.TRef sig ⟨S300000x64, .f32⟩) main_call5.v0 mulf,
    StableHlo.TRef.nullary main_call5.cst (constant S_ .f32 0x00000000#32),
    StableHlo.TRef.binary main_call5.v0 main_call5.cst main_call5.v1 (fun x v => Host.reduceAdd x v reducesTo_S300000x64_S300000_d1 h_S_),
    StableHlo.TRef.unary main_call5.v1 main_call5.v2 (broadcastInDim S300000x1 ![0] bcast_S300000_S300000x1_0),
    StableHlo.TRef.unary main_call5.v2 main_call5.v3 Host.sqrt,
    StableHlo.nullary main_cst_12 (constant S_ .f32 0x2B8CBCCC#32),
    StableHlo.unary main_cst_12 main_v102 (broadcastInDim S300000x1 ![] bcast_S_S300000x1 : (⟨S_, .f32⟩ : BufTy).Contents (Elt F) → (⟨S300000x1, .f32⟩ : BufTy).Contents (Elt F)),
    StableHlo.binary main_v101 main_v102 main_v103 (maximumf : (⟨S300000x1, .f32⟩ : BufTy).Contents (Elt F) → (⟨S300000x1, .f32⟩ : BufTy).Contents (Elt F) → (⟨S300000x1, .f32⟩ : BufTy).Contents (Elt F)),
    StableHlo.unary main_v103 main_v104 (broadcastInDim S300000x64 ![0, 1] bcast_S300000x1_S300000x64_0_1 : (⟨S300000x1, .f32⟩ : BufTy).Contents (Elt F) → (⟨S300000x64, .f32⟩ : BufTy).Contents (Elt F)) ]

/-- The operations of @main's third block of statements (operations 151 … 181). -/
abbrev win2 : List (HloOp τ sig (Elt F)) :=
  [ StableHlo.binary main_v100 main_v104 main_v105 (Host.divf : (⟨S300000x64, .f32⟩ : BufTy).Contents (Elt F) → (⟨S300000x64, .f32⟩ : BufTy).Contents (Elt F) → (⟨S300000x64, .f32⟩ : BufTy).Contents (Elt F)),
    StableHlo.nary ![main_v0, main_v35, main_v70, main_v105] main_v106 (fun u => concatenate S300000x256 1 [⟨S300000x64, u 0⟩, ⟨S300000x64, u 1⟩, ⟨S300000x64, u 2⟩, ⟨S300000x64, u 3⟩] concatenates_S300000x64_S300000x64_S300000x64_S300000x64_S300000x256_d1),
    StableHlo.unary main_v106 main_v107 ((extractStridedSlice S100000x256 ![0, 0] · slices_S300000x256_S100000x256_0_0) : (⟨S300000x256, .f32⟩ : BufTy).Contents (Elt F) → (⟨S100000x256, .f32⟩ : BufTy).Contents (Elt F)),
    StableHlo.unary main_v106 main_v108 ((extractStridedSlice S200000x256 ![100000, 0] · slices_S300000x256_S200000x256_100000_0) : (⟨S300000x256, .f32⟩ : BufTy).Contents (Elt F) → (⟨S200000x256, .f32⟩ : BufTy).Contents (Elt F)),
    StableHlo.nullary main_c_13 (constantI S_ 32 0#32),
    StableHlo.unary main_c_13 main_v109 (broadcastInDim S4096 ![] bcast_S_S4096 : (⟨S_, .i32⟩ : BufTy).Contents (Elt F) → (⟨S4096, .i32⟩ : BufTy).Contents (Elt F)),
    StableHlo.binary main_arg9 main_v109 main_v110 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 100000#32),
    StableHlo.unary main_c_14 main_v111 (broadcastInDim S4096 ![] bcast_S_S4096 : (⟨S_, .i32⟩ : BufTy).Contents (Elt F) → (⟨S4096, .i32⟩ : BufTy).Contents (Elt F)),
    StableHlo.binary main_arg9 main_v111 main_v112 (addi : (⟨S4096, .i32⟩ : BufTy).Contents (Elt F) → (⟨S4096, .i32⟩ : BufTy).Contents (Elt F) → (⟨S4096, .i32⟩ : BufTy).Contents (Elt F)),
    StableHlo.ternary main_v110 main_v112 main_arg9 main_v113 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v113 main_v114 (broadcastInDim S4096x1 ![0] bcast_S4096_S4096x1_0 : (⟨S4096, .i32⟩ : BufTy).Contents (Elt F) → (⟨S4096x1, .i32⟩ : BufTy).Contents (Elt F)),
    StableHlo.binary main_v107 main_v114 main_v115 ((fun x i => Host.gather gather_S100000x256_S4096x1_S4096x256_1_0_n_n_0_1_1256 x i) : (⟨S100000x256, .f32⟩ : BufTy).Contents (Elt F) → (⟨S4096x1, .i32⟩ : BufTy).Contents (Elt F) → (⟨S4096x256, .f32⟩ : BufTy).Contents (Elt F)),
    StableHlo.nullary main_c_15 (constantI S_ 32 0#32),
    StableHlo.unary main_c_15 main_v116 (broadcastInDim S4096 ![] bcast_S_S4096 : (⟨S_, .i32⟩ : BufTy).Contents (Elt F) → (⟨S4096, .i32⟩ : BufTy).Contents (Elt F)),
    StableHlo.binary main_arg10 main_v116 main_v117 (cmpi .slt : (⟨S4096, .i32⟩ : BufTy).Contents (Elt F) → (⟨S4096, .i32⟩ : BufTy).Contents (Elt F) → (⟨S4096, .i1⟩ : BufTy).Contents (Elt F)),
    StableHlo.nullary main_c_16 (constantI S_ 32 200000#32),
    StableHlo.unary main_c_16 main_v118 (broadcastInDim S4096 ![] bcast_S_S4096 : (⟨S_, .i32⟩ : BufTy).Contents (Elt F) → (⟨S4096, .i32⟩ : BufTy).Contents (Elt F)),
    StableHlo.binary main_arg10 main_v118 main_v119 (addi : (⟨S4096, .i32⟩ : BufTy).Contents (Elt F) → (⟨S4096, .i32⟩ : BufTy).Contents (Elt F) → (⟨S4096, .i32⟩ : BufTy).Contents (Elt F)),
    StableHlo.ternary main_v117 main_v119 main_arg10 main_v120 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v120 main_v121 (broadcastInDim S4096x1 ![0] bcast_S4096_S4096x1_0 : (⟨S4096, .i32⟩ : BufTy).Contents (Elt F) → (⟨S4096x1, .i32⟩ : BufTy).Contents (Elt F)),
    StableHlo.binary main_v108 main_v121 main_v122 ((fun x i => Host.gather gather_S200000x256_S4096x1_S4096x256_1_0_n_n_0_1_1256 x i) : (⟨S200000x256, .f32⟩ : BufTy).Contents (Elt F) → (⟨S4096x1, .i32⟩ : BufTy).Contents (Elt F) → (⟨S4096x256, .f32⟩ : BufTy).Contents (Elt F)),
    StableHlo.nullary main_c_17 (constantI S_ 32 0#32),
    StableHlo.unary main_c_17 main_v123 (broadcastInDim S4096 ![] bcast_S_S4096 : (⟨S_, .i32⟩ : BufTy).Contents (Elt F) → (⟨S4096, .i32⟩ : BufTy).Contents (Elt F)),
    StableHlo.binary main_arg11 main_v123 main_v124 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 200000#32),
    StableHlo.unary main_c_18 main_v125 (broadcastInDim S4096 ![] bcast_S_S4096 : (⟨S_, .i32⟩ : BufTy).Contents (Elt F) → (⟨S4096, .i32⟩ : BufTy).Contents (Elt F)),
    StableHlo.binary main_arg11 main_v125 main_v126 (addi : (⟨S4096, .i32⟩ : BufTy).Contents (Elt F) → (⟨S4096, .i32⟩ : BufTy).Contents (Elt F) → (⟨S4096, .i32⟩ : BufTy).Contents (Elt F)),
    StableHlo.ternary main_v124 main_v126 main_arg11 main_v127 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v127 main_v128 (broadcastInDim S4096x1 ![0] bcast_S4096_S4096x1_0 : (⟨S4096, .i32⟩ : BufTy).Contents (Elt F) → (⟨S4096x1, .i32⟩ : BufTy).Contents (Elt F)),
    StableHlo.binary main_v108 main_v128 main_v129 ((fun x i => Host.gather gather_S200000x256_S4096x1_S4096x256_1_0_n_n_0_1_1256 x i) : (⟨S200000x256, .f32⟩ : BufTy).Contents (Elt F) → (⟨S4096x1, .i32⟩ : BufTy).Contents (Elt F) → (⟨S4096x256, .f32⟩ : BufTy).Contents (Elt F)) ]

/-! ## @main is the line -/

set_option maxRecDepth 8192 in
set_option maxHeartbeats 4000000 in
theorem main_part0_eq (c : Dev nD) : main_part0 (F := F) c = StableHlo.seq win0 := rfl
set_option maxRecDepth 8192 in
set_option maxHeartbeats 4000000 in
theorem main_part1_eq (c : Dev nD) : main_part1 (F := F) c = StableHlo.seq win1 := rfl
set_option maxRecDepth 8192 in
set_option maxHeartbeats 4000000 in
theorem main_part2_eq (c : Dev nD) : main_part2 (F := F) c = StableHlo.seq win2 := rfl

set_option maxRecDepth 8192 in
/-- The two cuts list the same operations. -/
theorem ops_eq_wins : (ops : List (HloOp τ sig (Elt F))) = win0 ++ (win1 ++ win2) := rfl

/-- @main is the straight line of `ops`: block by block, the blocks joined by `seq_append`. -/
theorem main_eq (c : Dev nD) : main (F := F) c = StableHlo.seq ops := by
  rw [ops_eq_wins, StableHlo.seq_append, StableHlo.seq_append, ← main_part0_eq c, ← main_part1_eq c, ← main_part2_eq c]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, and determines its result. -/

theorem opsL0_sub : (opsL0 : List (HloOp τ sig (Elt F))).Forall fun op => op.bufs ⊆ StableHlo.tcRefs τ sig :=
  ⟨StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.binary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub ..⟩
theorem opsL1_sub : (opsL1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.binary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub ..⟩
theorem opsL2_sub : (opsL2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.binary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub ..⟩
theorem opsT_sub : (opsT : List (HloOp τ sig (Elt F))).Forall fun op => op.bufs ⊆ StableHlo.tcRefs τ sig :=
  ⟨StableHlo.nary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

theorem ops_sub : (ops : List (HloOp τ sig (Elt F))).Forall fun op => op.bufs ⊆ StableHlo.tcRefs τ sig :=
  List.forall_iff_forall_mem.mpr fun op h => by
    simp only [ops, List.mem_append] at h
    rcases h with h | h | h | h
    exacts [List.forall_iff_forall_mem.mp opsL0_sub op h, List.forall_iff_forall_mem.mp opsL1_sub op h,
      List.forall_iff_forall_mem.mp opsL2_sub op h, List.forall_iff_forall_mem.mp opsT_sub op h]

theorem opsL0_fresh : (opsL0 : List (HloOp τ sig (Elt F))).Forall fun op => op.fresh = ∅ := by
  simp only [List.Forall]; repeat' constructor
theorem opsL1_fresh : (opsL1 : List (HloOp τ sig (Elt F))).Forall fun op => op.fresh = ∅ := by
  simp only [List.Forall]; repeat' constructor
theorem opsL2_fresh : (opsL2 : List (HloOp τ sig (Elt F))).Forall fun op => op.fresh = ∅ := by
  simp only [List.Forall]; repeat' constructor
theorem opsT_fresh : (opsT : List (HloOp τ sig (Elt F))).Forall fun op => op.fresh = ∅ := by
  simp only [List.Forall]; repeat' constructor

theorem ops_fresh : ∀ op ∈ (ops : List (HloOp τ sig (Elt F))), op.fresh = ∅ := fun op h => by
  simp only [ops, List.mem_append] at h
  rcases h with h | h | h | h
  exacts [List.forall_iff_forall_mem.mp opsL0_fresh op h, List.forall_iff_forall_mem.mp opsL1_fresh op h,
    List.forall_iff_forall_mem.mp opsL2_fresh op h, List.forall_iff_forall_mem.mp opsT_fresh op h]

/-- On every device, for any float values, from any memory with zero counters: every weakly fair execution of @main
    terminates, and every final state has each TensorCore buffer at the fold of the operations' results over the
    device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (fun b => m (c, b)) (Proc.devRef .tc b) :=
  StableHlo.run_seq scopedRefs_eq scopedSems_eq defs main (fun _ => ops) main_eq (fun _ => ops_sub) m ρ (fun _ => ops_fresh)

/-! ## No operation writes an argument -/

/-- The references the operations of `opsL0` write, in order. -/
abbrev opsL0_W : List (Ref sig .tc) := [main_v0, main_v1, main_c, main_v2, main_v3, main_c_0, main_v4, main_v5, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_cst_1, main_call0_cst, main_call0_v0, main_call0_v1, main_call0_v2, main_call0_v3, main_call0_v4, main_v30, main_call1_v0, main_call1_cst, main_call1_v1, main_call1_v2, main_v31, main_cst_2, main_v32, main_v33, main_v34, main_v35]
theorem opsL0_writes : (opsL0 : List (HloOp τ sig (Elt F))).Forall fun op => op.writes ⊆ (opsL0_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩

/-- The references the operations of `opsL1` write, in order. -/
abbrev opsL1_W : List (Ref sig .tc) := [main_v36, main_c_3, main_v37, main_v38, main_c_4, main_v39, main_v40, main_v41, main_v42, main_v43, main_v44, main_v45, main_cst_5, main_v46, main_v47, main_v48, main_v49, main_v50, main_v51, main_v52, main_v53, main_v54, main_v55, main_v56, main_v57, main_v58, main_v59, main_v60, main_v61, main_v62, main_v63, main_v64, main_cst_6, main_call2_cst, main_call2_v0, main_call2_v1, main_call2_v2, main_call2_v3, main_call2_v4, main_v65, main_call3_v0, main_call3_cst, main_call3_v1, main_call3_v2, main_v66, main_cst_7, main_v67, main_v68, main_v69, main_v70]
theorem opsL1_writes : (opsL1 : List (HloOp τ sig (Elt F))).Forall fun op => op.writes ⊆ (opsL1_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩

/-- The references the operations of `opsL2` write, in order. -/
abbrev opsL2_W : List (Ref sig .tc) := [main_v71, main_c_8, main_v72, main_v73, main_c_9, main_v74, main_v75, main_v76, main_v77, main_v78, main_v79, main_v80, main_cst_10, main_v81, main_v82, main_v83, main_v84, main_v85, main_v86, main_v87, main_v88, main_v89, main_v90, main_v91, main_v92, main_v93, main_v94, main_v95, main_v96, main_v97, main_v98, main_v99, main_cst_11, main_call4_cst, main_call4_v0, main_call4_v1, main_call4_v2, main_call4_v3, main_call4_v4, main_v100, main_call5_v0, main_call5_cst, main_call5_v1, main_call5_v2, main_v101, main_cst_12, main_v102, main_v103, main_v104, main_v105]
theorem opsL2_writes : (opsL2 : List (HloOp τ sig (Elt F))).Forall fun op => op.writes ⊆ (opsL2_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩

/-- The references the operations of `opsT` write, in order. -/
abbrev opsT_W : List (Ref sig .tc) := [main_v106, main_v107, main_v108, main_c_13, main_v109, main_v110, main_c_14, main_v111, main_v112, main_v113, main_v114, main_v115, main_c_15, main_v116, main_v117, main_c_16, main_v118, main_v119, main_v120, main_v121, main_v122, main_c_17, main_v123, main_v124, main_c_18, main_v125, main_v126, main_v127, main_v128, main_v129]
theorem opsT_writes : (opsT : List (HloOp τ sig (Elt F))).Forall fun op => op.writes ⊆ (opsT_W.map (Proc.devRef (τ := τ) .tc)).toFinset := by
  simp only [List.Forall]
  exact ⟨by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide),
    by simp only [StableHlo.nullary_writes, StableHlo.unary_writes, StableHlo.binary_writes, StableHlo.ternary_writes, StableHlo.reshape_writes, StableHlo.nary_writes, Finset.singleton_subset_iff, List.mem_toFinset]; exact List.mem_map_of_mem (by decide)⟩

/-- A reference none of the four stretches writes holds at the end what it held at launch. -/
theorem after_of_not_written (V : Valuation τ sig (Elt F)) (r : Ref sig .tc)
    (h0 : r ∉ opsL0_W) (h1 : r ∉ opsL1_W) (h2 : r ∉ opsL2_W) (h3 : r ∉ opsT_W) :
    StableHlo.after ops V (Proc.devRef .tc r) = V (Proc.devRef .tc r) := by
  simp only [ops, StableHlo.after_append]
  rw [StableHlo.after_of_writes_sub opsT _ opsT_writes h3, StableHlo.after_of_writes_sub opsL2 _ opsL2_writes h2,
    StableHlo.after_of_writes_sub opsL1 _ opsL1_writes h1, StableHlo.after_of_writes_sub opsL0 _ opsL0_writes h0]

theorem after_main_arg0 (m : (ℓ : Loc nD τ sig) → Buf (Elt F) ℓ) (c : Dev nD) :
    StableHlo.after (ops (F := F)) (fun b => m (c, b)) (Proc.devRef .tc main_arg0) = m ((c.tc : Thread nD τ).loc main_arg0) :=
  after_of_not_written _ main_arg0 (by decide) (by decide) (by decide) (by decide)
theorem after_main_arg1 (m : (ℓ : Loc nD τ sig) → Buf (Elt F) ℓ) (c : Dev nD) :
    StableHlo.after (ops (F := F)) (fun b => m (c, b)) (Proc.devRef .tc main_arg1) = m ((c.tc : Thread nD τ).loc main_arg1) :=
  after_of_not_written _ main_arg1 (by decide) (by decide) (by decide) (by decide)
theorem after_main_arg2 (m : (ℓ : Loc nD τ sig) → Buf (Elt F) ℓ) (c : Dev nD) :
    StableHlo.after (ops (F := F)) (fun b => m (c, b)) (Proc.devRef .tc main_arg2) = m ((c.tc : Thread nD τ).loc main_arg2) :=
  after_of_not_written _ main_arg2 (by decide) (by decide) (by decide) (by decide)
theorem after_main_arg3 (m : (ℓ : Loc nD τ sig) → Buf (Elt F) ℓ) (c : Dev nD) :
    StableHlo.after (ops (F := F)) (fun b => m (c, b)) (Proc.devRef .tc main_arg3) = m ((c.tc : Thread nD τ).loc main_arg3) :=
  after_of_not_written _ main_arg3 (by decide) (by decide) (by decide) (by decide)
theorem after_main_arg4 (m : (ℓ : Loc nD τ sig) → Buf (Elt F) ℓ) (c : Dev nD) :
    StableHlo.after (ops (F := F)) (fun b => m (c, b)) (Proc.devRef .tc main_arg4) = m ((c.tc : Thread nD τ).loc main_arg4) :=
  after_of_not_written _ main_arg4 (by decide) (by decide) (by decide) (by decide)
theorem after_main_arg5 (m : (ℓ : Loc nD τ sig) → Buf (Elt F) ℓ) (c : Dev nD) :
    StableHlo.after (ops (F := F)) (fun b => m (c, b)) (Proc.devRef .tc main_arg5) = m ((c.tc : Thread nD τ).loc main_arg5) :=
  after_of_not_written _ main_arg5 (by decide) (by decide) (by decide) (by decide)
theorem after_main_arg6 (m : (ℓ : Loc nD τ sig) → Buf (Elt F) ℓ) (c : Dev nD) :
    StableHlo.after (ops (F := F)) (fun b => m (c, b)) (Proc.devRef .tc main_arg6) = m ((c.tc : Thread nD τ).loc main_arg6) :=
  after_of_not_written _ main_arg6 (by decide) (by decide) (by decide) (by decide)
theorem after_main_arg7 (m : (ℓ : Loc nD τ sig) → Buf (Elt F) ℓ) (c : Dev nD) :
    StableHlo.after (ops (F := F)) (fun b => m (c, b)) (Proc.devRef .tc main_arg7) = m ((c.tc : Thread nD τ).loc main_arg7) :=
  after_of_not_written _ main_arg7 (by decide) (by decide) (by decide) (by decide)
theorem after_main_arg8 (m : (ℓ : Loc nD τ sig) → Buf (Elt F) ℓ) (c : Dev nD) :
    StableHlo.after (ops (F := F)) (fun b => m (c, b)) (Proc.devRef .tc main_arg8) = m ((c.tc : Thread nD τ).loc main_arg8) :=
  after_of_not_written _ main_arg8 (by decide) (by decide) (by decide) (by decide)
theorem after_main_arg9 (m : (ℓ : Loc nD τ sig) → Buf (Elt F) ℓ) (c : Dev nD) :
    StableHlo.after (ops (F := F)) (fun b => m (c, b)) (Proc.devRef .tc main_arg9) = m ((c.tc : Thread nD τ).loc main_arg9) :=
  after_of_not_written _ main_arg9 (by decide) (by decide) (by decide) (by decide)
theorem after_main_arg10 (m : (ℓ : Loc nD τ sig) → Buf (Elt F) ℓ) (c : Dev nD) :
    StableHlo.after (ops (F := F)) (fun b => m (c, b)) (Proc.devRef .tc main_arg10) = m ((c.tc : Thread nD τ).loc main_arg10) :=
  after_of_not_written _ main_arg10 (by decide) (by decide) (by decide) (by decide)
theorem after_main_arg11 (m : (ℓ : Loc nD τ sig) → Buf (Elt F) ℓ) (c : Dev nD) :
    StableHlo.after (ops (F := F)) (fun b => m (c, b)) (Proc.devRef .tc main_arg11) = m ((c.tc : Thread nD τ).loc main_arg11) :=
  after_of_not_written _ main_arg11 (by decide) (by decide) (by decide) (by decide)

/-- @main runs — terminates, nothing faulting — and its twelve argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
      ⟨(h c main_arg0).trans (after_main_arg0 m c),
       (h c main_arg1).trans (after_main_arg1 m c),
       (h c main_arg2).trans (after_main_arg2 m c),
       (h c main_arg3).trans (after_main_arg3 m c),
       (h c main_arg4).trans (after_main_arg4 m c),
       (h c main_arg5).trans (after_main_arg5 m c),
       (h c main_arg6).trans (after_main_arg6 m c),
       (h c main_arg7).trans (after_main_arg7 m c),
       (h c main_arg8).trans (after_main_arg8 m c),
       (h c main_arg9).trans (after_main_arg9 m c),
       (h c main_arg10).trans (after_main_arg10 m c),
       (h c main_arg11).trans (after_main_arg11 m c)⟩)
    (run_after m ρ)

end Cert.ReferenceIdeal.Hand

end
-- ==== Proof.RefLayer.lean ====
/- One propagation layer as the reference's host operations compute it on whole arrays, at the extended reals: the
   pre-activation is two products with 64 × 64 matrices plus bias rows, the new embedding its leaky rectification, the
   normalised embedding its quotient by the larger of the row norm and a small literal. Read at an index these are the row
   functions of the shared layer specification. Then the line's named pieces (the sparse product, the concatenations, the
   slices of the stacked weights, the final row gathers) and what each stretch of the line leaves in its result buffers,
   for any contents of the buffers before it. -/
import proofs.«152006_j19688130085762_1_alg».proof.Proof.RefRun
import proofs.«152006_j19688130085762_1_alg».proof.Proof.LayerSpec
import proofs.«152006_j19688130085762_1_alg».proof.Proof.LayerIdx
import proofs.«152006_j19688130085762_1_alg».proof.Proof.LayerFull
import Idealize.ShloMosaic.Lib.IdealHost
import Idealize.ShloMosaic.Lib.KernelVsHost
import Idealize.ShloMosaic.Lib.ValueIdx
import Idealize.ShloMosaic.Lib.ValueLayout
import Idealize.ShloMosaic.Lib.Pipeline.Value

noncomputable section

namespace Cert.ReferenceIdeal.Hand

open Cert.ReferenceIdeal Cert.ReferenceIdeal.Gen Idealize.ShloMosaic Idealize.ShloMosaic.ValueIdx Idealize.ShloMosaic.TcCoe Cert.Layer
open scoped BigOperators

/-! ## The dense transform on whole arrays -/

section Pure

variable (side ego : FVec Ideal S300000x64 .f32) (w1 : FVec Ideal S64x64 .f32) (b1 : FVec Ideal S1x64 .f32)
  (w2 : FVec Ideal S64x64 .f32) (b2 : FVec Ideal S1x64 .f32)

/-- The pre-activation as the host computes it: `side · w1 + b1` plus `(ego ∘ side) · w2 + b2`. -/
def preR : FVec Ideal S300000x64 .f32 :=
  addf (F := Ideal)
    (addf (F := Ideal) (Host.dotGeneral (F := Ideal) dot_S300000x64_S64x64_S300000x64_1_0_0_1_n_n none side w1)
      (broadcastInDim S300000x64 ![0, 1] bcast_S1x64_S300000x64_0_1 b1))
    (addf (F := Ideal) (Host.dotGeneral (F := Ideal) dot_S300000x64_S64x64_S300000x64_1_0_0_1_n_n none (mulf (F := Ideal) ego side) w2)
      (broadcastInDim S300000x64 ![0, 1] bcast_S1x64_S300000x64_0_1 b2))

/-- The leaky rectification as the host computes it: where the value is at least the zero splat the value, else the
    slope splat times it. -/
def leakyR (x : FVec Ideal S300000x64 .f32) : FVec Ideal S300000x64 .f32 :=
  select (cmpf (F := Ideal) .oge x (broadcastInDim S300000x64 ![] bcast_S_S300000x64 (constant (F := Ideal) S_ .f32 0x00000000#32))) x
    (mulf (F := Ideal) (broadcastInDim S300000x64 ![] bcast_S_S300000x64 (id (constant (F := Ideal) S_ .f32 0x3E4CCCCD#32))) x)

/-- The new embeddings as the host computes them. -/
def egoR : FVec Ideal S300000x64 .f32 := leakyR (preR side ego w1 b1 w2 b2)

/-- The normalisation as the host computes it: each row divided by the larger of its Euclidean norm and the small splat. -/
def normR (e : FVec Ideal S300000x64 .f32) : FVec Ideal S300000x64 .f32 :=
  Host.divf (F := Ideal) e
    (broadcastInDim S300000x64 ![0, 1] bcast_S300000x1_S300000x64_0_1
      (maximumf (F := Ideal)
        (Host.sqrt (F := Ideal) (broadcastInDim S300000x1 ![0] bcast_S300000_S300000x1_0
          (Host.reduceAdd (F := Ideal) (mulf (F := Ideal) e e) (constant (F := Ideal) S_ .f32 0x00000000#32) reducesTo_S300000x64_S300000_d1 h_S_)))
        (broadcastInDim S300000x1 ![] bcast_S_S300000x1 (constant (F := Ideal) S_ .f32 0x2B8CBCCC#32))))

/-- A 300000 × 64 by 64 × 64 product on the host at row `r`, column `j`: the sum over the 64 middle positions. -/
theorem dg_apply (x : FVec Ideal S300000x64 .f32) (w : FVec Ideal S64x64 .f32) (r : Fin 300000) (j : Fin 64) :
    Host.dotGeneral (F := Ideal) dot_S300000x64_S64x64_S300000x64_1_0_0_1_n_n none x w (ix2 r j)
      = ∑ k : Fin 64, x (ix2 r k) * w (ix2 k j) :=
  (Ideal.dotGeneral_apply dot_S300000x64_S64x64_S300000x64_1_0_0_1_n_n none .single x w (ix2 r j)).trans
    (dot_sum dot_S300000x64_S64x64_S300000x64_1_0_0_1_n_n rfl rfl rfl rfl rfl rfl (fun i => x i) (fun i => w i) r j)

theorem preR_apply (r : Fin 300000) (j : Fin 64) :
    preR side ego w1 b1 w2 b2 (ix2 r j)
      = preRow (fun k => side (ix2 r k)) (fun k => ego (ix2 r k)) (fun k j => w1 (ix2 k j)) (fun k j => w2 (ix2 k j))
          (fun j => b1 (ix2 (0 : Fin 1) j)) (fun j => b2 (ix2 (0 : Fin 1) j)) j := by
  show (_ + _) + (_ + _) = _
  exact congrArg₂ (· + ·) (congrArg₂ (· + ·) (dg_apply side w1 r j) (broadcastInDim_oneRow_apply _ b1 r j))
    (congrArg₂ (· + ·) (dg_apply (mulf (F := Ideal) ego side) w2 r j) (broadcastInDim_oneRow_apply _ b2 r j))

theorem leakyR_apply (x : FVec Ideal S300000x64 .f32) (i : S300000x64.Idx) : leakyR x i = leaky (x i) := by
  show Scalar.select (FloatOps.cmpf (F := Ideal) (φ := .f32) .oge (x i) (broadcastInDim S300000x64 ![] bcast_S_S300000x64 (constant (F := Ideal) S_ .f32 0x00000000#32) i)) (x i)
      (broadcastInDim S300000x64 ![] bcast_S_S300000x64 (id (constant (F := Ideal) S_ .f32 0x3E4CCCCD#32)) i * x i) = _
  rw [broadcastInDim_scalar_apply, broadcastInDim_scalar_apply]
  rfl

/-- The host's new embeddings are the specification's. -/
theorem egoR_eq : egoR side ego w1 b1 w2 b2 = egoFull side ego w1 b1 w2 b2 := by
  funext i
  rw [eq_ix2 i]
  exact (leakyR_apply _ _).trans (congrArg leaky (preR_apply side ego w1 b1 w2 b2 (i 0) (i 1)))

/-- The host's square root at an index. -/
theorem hostSqrt_apply' {s : Shape} (x : FVec Ideal s .f32) (i : s.Idx) : Host.sqrt (F := Ideal) x i = Ideal.sqrt (x i) := rfl

theorem normR_apply (e : FVec Ideal S300000x64 .f32) (r : Fin 300000) (j : Fin 64) :
    normR e (ix2 r j)
      = Ideal.div (e (ix2 r j)) (max (Ideal.sqrt (∑ q : Fin 64, e (ix2 r q) * e (ix2 r q))) (Ideal.ofBits .f32 0x2B8CBCCC#32)) := by
  refine (hostDivf_apply e _ (ix2 r j)).trans ?_
  refine congrArg (Ideal.div (e (ix2 r j))) ?_
  refine (broadcastInDim_a1_ab_apply _ _ r j).trans ?_
  refine (maximumf_apply _ _ _).trans ?_
  refine congrArg₂ max ((hostSqrt_apply' _ _).trans (congrArg Ideal.sqrt ?_)) (broadcastInDim_scalar_apply _ _ _)
  refine (broadcastInDim_a_a1_apply _ _ r).trans ?_
  refine (hostReduceAdd_apply _ _ _ _ _).trans ?_
  refine (Ideal.hostReduceAdd_single reducesTo_S300000x64_S300000_d1 (by decide) _ _ (ix1 r)).trans ?_
  refine (congrArg (· + _) ((constant_apply _ _).trans Ideal.ofBits_zero_f32)).trans ((zero_add _).trans ?_)
  refine Finset.sum_congr rfl fun q _ => ?_
  refine congrArg (fun t => e t * e t) ?_
  funext c
  apply Fin.ext
  match c with
  | ⟨0, _⟩ => rfl
  | ⟨1, _⟩ => rfl

/-- The host's normalised new embeddings are the specification's. -/
theorem normR_eq : normR (egoFull side ego w1 b1 w2 b2) = normFull side ego w1 b1 w2 b2 := by
  funext i
  rw [eq_ix2 i]
  exact normR_apply _ (i 0) (i 1)

end Pure

/-! ## The line's named pieces -/

/-- The two embedding tables stacked: 100000 user rows above 200000 item rows. -/
def concatR (a0 : FVec Ideal S100000x64 .f32) (a1 : FVec Ideal S200000x64 .f32) : FVec Ideal S300000x64 .f32 :=
  concatenate S300000x64 0 [⟨S100000x64, a0⟩, ⟨S200000x64, a1⟩] concatenates_S100000x64_S200000x64_S300000x64_d0

/-- The sparse product of the adjacency in coordinate form (values `vals`, row indices `rows`, column indices `cols`)
    with the embeddings: each entry gathers its column's row of `ego` (a negative column index first wrapped by the
    number of rows), scales it by the entry's value, and the scaled rows are added into the zero array at the entries'
    row indices. -/
def spmmR (vals : FVec Ideal S4000000 .f32) (rows cols : IVec S4000000 32) (ego : FVec Ideal S300000x64 .f32) :
    FVec Ideal S300000x64 .f32 :=
  Host.scatterAdd (F := Ideal) scatter_S300000x64_S4000000x1_S4000000x64_1_0_0_1
    (broadcastInDim S300000x64 ![] bcast_S_S300000x64 (constant (F := Ideal) S_ .f32 0x00000000#32))
    (broadcastInDim S4000000x1 ![0] bcast_S4000000_S4000000x1_0 rows)
    (mulf (F := Ideal)
      (broadcastInDim S4000000x64 ![0, 1] bcast_S4000000x1_S4000000x64_0_1
        (broadcastInDim S4000000x1 ![0] bcast_S4000000_S4000000x1_0 vals))
      (Host.gather gather_S300000x64_S4000000x1_S4000000x64_1_0_n_n_0_1_164 ego
        (broadcastInDim S4000000x1 ![0] bcast_S4000000_S4000000x1_0
          (select (cmpi .slt cols (broadcastInDim S4000000 ![] bcast_S_S4000000 (constantI S_ 32 0#32)))
            (addi cols (broadcastInDim S4000000 ![] bcast_S_S4000000 (constantI S_ 32 300000#32))) cols))))

/-- Layer 0's slice of a stack of three 64 × 64 matrices, as a matrix. -/
def w1R0 (a : FVec Ideal S3x64x64 .f32) : FVec Ideal S64x64 .f32 :=
  shapeCast S64x64 (extractStridedSlice S1x64x64 ![0, 0, 0] a slices_S3x64x64_S1x64x64_0_0_0) shapeCasts_S1x64x64_S64x64

/-- Layer 0's slice of a stack of three 64 × 64 matrices, as a matrix. -/
def w2R0 (a : FVec Ideal S3x64x64 .f32) : FVec Ideal S64x64 .f32 :=
  shapeCast S64x64 (extractStridedSlice S1x64x64 ![0, 0, 0] a slices_S3x64x64_S1x64x64_0_0_0) shapeCasts_S1x64x64_S64x64

/-- Layer 0's slice of a stack of three bias rows, as a row. -/
def b1R0 (a : FVec Ideal S3x1x64 .f32) : FVec Ideal S1x64 .f32 :=
  shapeCast S1x64 (extractStridedSlice S1x1x64 ![0, 0, 0] a slices_S3x1x64_S1x1x64_0_0_0) shapeCasts_S1x1x64_S1x64

/-- Layer 0's slice of a stack of three bias rows, as a row. -/
def b2R0 (a : FVec Ideal S3x1x64 .f32) : FVec Ideal S1x64 .f32 :=
  shapeCast S1x64 (extractStridedSlice S1x1x64 ![0, 0, 0] a slices_S3x1x64_S1x1x64_0_0_0) shapeCasts_S1x1x64_S1x64

/-- Layer 1's slice of a stack of three 64 × 64 matrices, as a matrix. -/
def w1R1 (a : FVec Ideal S3x64x64 .f32) : FVec Ideal S64x64 .f32 :=
  shapeCast S64x64 (extractStridedSlice S1x64x64 ![1, 0, 0] a slices_S3x64x64_S1x64x64_1_0_0) shapeCasts_S1x64x64_S64x64

/-- Layer 1's slice of a stack of three 64 × 64 matrices, as a matrix. -/
def w2R1 (a : FVec Ideal S3x64x64 .f32) : FVec Ideal S64x64 .f32 :=
  shapeCast S64x64 (extractStridedSlice S1x64x64 ![1, 0, 0] a slices_S3x64x64_S1x64x64_1_0_0) shapeCasts_S1x64x64_S64x64

/-- Layer 1's slice of a stack of three bias rows, as a row. -/
def b1R1 (a : FVec Ideal S3x1x64 .f32) : FVec Ideal S1x64 .f32 :=
  shapeCast S1x64 (extractStridedSlice S1x1x64 ![1, 0, 0] a slices_S3x1x64_S1x1x64_1_0_0) shapeCasts_S1x1x64_S1x64

/-- Layer 1's slice of a stack of three bias rows, as a row. -/
def b2R1 (a : FVec Ideal S3x1x64 .f32) : FVec Ideal S1x64 .f32 :=
  shapeCast S1x64 (extractStridedSlice S1x1x64 ![1, 0, 0] a slices_S3x1x64_S1x1x64_1_0_0) shapeCasts_S1x1x64_S1x64

/-- Layer 2's slice of a stack of three 64 × 64 matrices, as a matrix. -/
def w1R2 (a : FVec Ideal S3x64x64 .f32) : FVec Ideal S64x64 .f32 :=
  shapeCast S64x64 (extractStridedSlice S1x64x64 ![2, 0, 0] a slices_S3x64x64_S1x64x64_2_0_0) shapeCasts_S1x64x64_S64x64

/-- Layer 2's slice of a stack of three 64 × 64 matrices, as a matrix. -/
def w2R2 (a : FVec Ideal S3x64x64 .f32) : FVec Ideal S64x64 .f32 :=
  shapeCast S64x64 (extractStridedSlice S1x64x64 ![2, 0, 0] a slices_S3x64x64_S1x64x64_2_0_0) shapeCasts_S1x64x64_S64x64

/-- Layer 2's slice of a stack of three bias rows, as a row. -/
def b1R2 (a : FVec Ideal S3x1x64 .f32) : FVec Ideal S1x64 .f32 :=
  shapeCast S1x64 (extractStridedSlice S1x1x64 ![2, 0, 0] a slices_S3x1x64_S1x1x64_2_0_0) shapeCasts_S1x1x64_S1x64

/-- Layer 2's slice of a stack of three bias rows, as a row. -/
def b2R2 (a : FVec Ideal S3x1x64 .f32) : FVec Ideal S1x64 .f32 :=
  shapeCast S1x64 (extractStridedSlice S1x1x64 ![2, 0, 0] a slices_S3x1x64_S1x1x64_2_0_0) shapeCasts_S1x1x64_S1x64

/-- The four 64-column blocks side by side. -/
def allR (e0 n1 n2 n3 : FVec Ideal S300000x64 .f32) : FVec Ideal S300000x256 .f32 :=
  concatenate S300000x256 1 [⟨S300000x64, e0⟩, ⟨S300000x64, n1⟩, ⟨S300000x64, n2⟩, ⟨S300000x64, n3⟩]
    concatenates_S300000x64_S300000x64_S300000x64_S300000x64_S300000x256_d1

/-- The user rows at the indices `idx` (a negative index first wrapped by the number of user rows). -/
def tailU (e0 n1 n2 n3 : FVec Ideal S300000x64 .f32) (idx : IVec S4096 32) : FVec Ideal S4096x256 .f32 :=
  Host.gather gather_S100000x256_S4096x1_S4096x256_1_0_n_n_0_1_1256
    (extractStridedSlice S100000x256 ![0, 0] (allR e0 n1 n2 n3) slices_S300000x256_S100000x256_0_0)
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 100000#32))) idx))

/-- The item rows at the indices `idx` (a negative index first wrapped by the number of item rows). -/
def tailP (e0 n1 n2 n3 : FVec Ideal S300000x64 .f32) (idx : IVec S4096 32) : FVec Ideal S4096x256 .f32 :=
  Host.gather gather_S200000x256_S4096x1_S4096x256_1_0_n_n_0_1_1256
    (extractStridedSlice S200000x256 ![100000, 0] (allR e0 n1 n2 n3) slices_S300000x256_S200000x256_100000_0)
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 200000#32))) idx))

/-- The item rows at a second list of indices: the same function. -/
def tailN (e0 n1 n2 n3 : FVec Ideal S300000x64 .f32) (idx : IVec S4096 32) : FVec Ideal S4096x256 .f32 :=
  tailP e0 n1 n2 n3 idx

/-! ## The layers' stretches over the plain references

A called function's operations are written in `opsL0` … `opsL2` over references that carry the value's type, each result
transported along the (reflexive) equation between the buffer's type and the value's. Over the plain references the
same operations carry no transport; the lists are equal by computation, and the stretches are read off these. -/

section Plain

variable {F : FTy → Type} [FloatOps F]

/-- `opsL0` over the plain references. -/
abbrev opsL0U : List (HloOp τ sig (Elt F)) :=
  [ StableHlo.binary main_arg0 main_arg1 main_v0 ((fun a b => concatenate S300000x64 0 [⟨S100000x64, a⟩, ⟨S200000x64, b⟩] concatenates_S100000x64_S200000x64_S300000x64_d0) : (⟨S100000x64, .f32⟩ : BufTy).Contents (Elt F) → (⟨S200000x64, .f32⟩ : BufTy).Contents (Elt F) → (⟨S300000x64, .f32⟩ : BufTy).Contents (Elt F)),
    StableHlo.unary main_arg6 main_v1 (broadcastInDim S4000000x1 ![0] bcast_S4000000_S4000000x1_0 : (⟨S4000000, .f32⟩ : BufTy).Contents (Elt F) → (⟨S4000000x1, .f32⟩ : BufTy).Contents (Elt F)),
    StableHlo.nullary main_c (constantI S_ 32 0#32),
    StableHlo.unary main_c main_v2 (broadcastInDim S4000000 ![] bcast_S_S4000000 : (⟨S_, .i32⟩ : BufTy).Contents (Elt F) → (⟨S4000000, .i32⟩ : BufTy).Contents (Elt F)),
    StableHlo.binary main_arg8 main_v2 main_v3 (cmpi .slt : (⟨S4000000, .i32⟩ : BufTy).Contents (Elt F) → (⟨S4000000, .i32⟩ : BufTy).Contents (Elt F) → (⟨S4000000, .i1⟩ : BufTy).Contents (Elt F)),
    StableHlo.nullary main_c_0 (constantI S_ 32 300000#32),
    StableHlo.unary main_c_0 main_v4 (broadcastInDim S4000000 ![] bcast_S_S4000000 : (⟨S_, .i32⟩ : BufTy).Contents (Elt F) → (⟨S4000000, .i32⟩ : BufTy).Contents (Elt F)),
    StableHlo.binary main_arg8 main_v4 main_v5 (addi : (⟨S4000000, .i32⟩ : BufTy).Contents (Elt F) → (⟨S4000000, .i32⟩ : BufTy).Contents (Elt F) → (⟨S4000000, .i32⟩ : BufTy).Contents (Elt F)),
    StableHlo.ternary main_v3 main_v5 main_arg8 main_v6 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v6 main_v7 (broadcastInDim S4000000x1 ![0] bcast_S4000000_S4000000x1_0 : (⟨S4000000, .i32⟩ : BufTy).Contents (Elt F) → (⟨S4000000x1, .i32⟩ : BufTy).Contents (Elt F)),
    StableHlo.binary main_v0 main_v7 main_v8 ((fun x i => Host.gather gather_S300000x64_S4000000x1_S4000000x64_1_0_n_n_0_1_164 x i) : (⟨S300000x64, .f32⟩ : BufTy).Contents (Elt F) → (⟨S4000000x1, .i32⟩ : BufTy).Contents (Elt F) → (⟨S4000000x64, .f32⟩ : BufTy).Contents (Elt F)),
    StableHlo.unary main_v1 main_v9 (broadcastInDim S4000000x64 ![0, 1] bcast_S4000000x1_S4000000x64_0_1 : (⟨S4000000x1, .f32⟩ : BufTy).Contents (Elt F) → (⟨S4000000x64, .f32⟩ : BufTy).Contents (Elt F)),
    StableHlo.binary main_v9 main_v8 main_v10 (mulf : (⟨S4000000x64, .f32⟩ : BufTy).Contents (Elt F) → (⟨S4000000x64, .f32⟩ : BufTy).Contents (Elt F) → (⟨S4000000x64, .f32⟩ : BufTy).Contents (Elt F)),
    StableHlo.nullary main_cst (constant S_ .f32 0x00000000#32),
    StableHlo.unary main_cst main_v11 (broadcastInDim S300000x64 ![] bcast_S_S300000x64 : (⟨S_, .f32⟩ : BufTy).Contents (Elt F) → (⟨S300000x64, .f32⟩ : BufTy).Contents (Elt F)),
    StableHlo.unary main_arg7 main_v12 (broadcastInDim S4000000x1 ![0] bcast_S4000000_S4000000x1_0 : (⟨S4000000, .i32⟩ : BufTy).Contents (Elt F) → (⟨S4000000x1, .i32⟩ : BufTy).Contents (Elt F)),
    StableHlo.ternary main_v11 main_v12 main_v10 main_v13 ((fun x i u => Host.scatterAdd scatter_S300000x64_S4000000x1_S4000000x64_1_0_0_1 x i u) : (⟨S300000x64, .f32⟩ : BufTy).Contents (Elt F) → (⟨S4000000x1, .i32⟩ : BufTy).Contents (Elt F) → (⟨S4000000x64, .f32⟩ : BufTy).Contents (Elt F) → (⟨S300000x64, .f32⟩ : BufTy).Contents (Elt F)),
    StableHlo.unary main_arg2 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.binary main_v13 main_v15 main_v16 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg3 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v17 main_v18 rfl shapeCasts_S1x1x64_S1x64,
    StableHlo.unary main_v18 main_v19 (broadcastInDim S300000x64 ![0, 1] bcast_S1x64_S300000x64_0_1 : (⟨S1x64, .f32⟩ : BufTy).Contents (Elt F) → (⟨S300000x64, .f32⟩ : BufTy).Contents (Elt F)),
    StableHlo.binary main_v16 main_v19 main_v20 (addf : (⟨S300000x64, .f32⟩ : BufTy).Contents (Elt F) → (⟨S300000x64, .f32⟩ : BufTy).Contents (Elt F) → (⟨S300000x64, .f32⟩ : BufTy).Contents (Elt F)),
    StableHlo.binary main_v0 main_v13 main_v21 (mulf : (⟨S300000x64, .f32⟩ : BufTy).Contents (Elt F) → (⟨S300000x64, .f32⟩ : BufTy).Contents (Elt F) → (⟨S300000x64, .f32⟩ : BufTy).Contents (Elt F)),
    StableHlo.unary main_arg4 main_v22 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v22 main_v23 rfl shapeCasts_S1x64x64_S64x64,
    StableHlo.binary main_v21 main_v23 main_v24 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg5 main_v25 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v25 main_v26 rfl shapeCasts_S1x1x64_S1x64,
    StableHlo.unary main_v26 main_v27 (broadcastInDim S300000x64 ![0, 1] bcast_S1x64_S300000x64_0_1 : (⟨S1x64, .f32⟩ : BufTy).Contents (Elt F) → (⟨S300000x64, .f32⟩ : BufTy).Contents (Elt F)),
    StableHlo.binary main_v24 main_v27 main_v28 (addf : (⟨S300000x64, .f32⟩ : BufTy).Contents (Elt F) → (⟨S300000x64, .f32⟩ : BufTy).Contents (Elt F) → (⟨S300000x64, .f32⟩ : BufTy).Contents (Elt F)),
    StableHlo.binary main_v20 main_v28 main_v29 (addf : (⟨S300000x64, .f32⟩ : BufTy).Contents (Elt F) → (⟨S300000x64, .f32⟩ : BufTy).Contents (Elt F) → (⟨S300000x64, .f32⟩ : BufTy).Contents (Elt F)),
    StableHlo.nullary main_cst_1 (constant S_ .f32 0x3E4CCCCD#32),
    StableHlo.nullary main_call0_cst (constant S_ .f32 0x00000000#32),
    StableHlo.unary main_call0_cst main_call0_v0 (broadcastInDim S300000x64 ![] bcast_S_S300000x64 : (⟨S_, .f32⟩ : BufTy).Contents (Elt F) → (⟨S300000x64, .f32⟩ : BufTy).Contents (Elt F)),
    StableHlo.binary main_v29 main_call0_v0 main_call0_v1 (cmpf .oge : (⟨S300000x64, .f32⟩ : BufTy).Contents (Elt F) → (⟨S300000x64, .f32⟩ : BufTy).Contents (Elt F) → (⟨S300000x64, .i1⟩ : BufTy).Contents (Elt F)),
    StableHlo.unary main_cst_1 main_call0_v2 (id : (⟨S_, .f32⟩ : BufTy).Contents (Elt F) → (⟨S_, .f32⟩ : BufTy).Contents (Elt F)),
    StableHlo.unary main_call0_v2 main_call0_v3 (broadcastInDim S300000x64 ![] bcast_S_S300000x64 : (⟨S_, .f32⟩ : BufTy).Contents (Elt F) → (⟨S300000x64, .f32⟩ : BufTy).Contents (Elt F)),
    StableHlo.binary main_call0_v3 main_v29 main_call0_v4 (mulf : (⟨S300000x64, .f32⟩ : BufTy).Contents (Elt F) → (⟨S300000x64, .f32⟩ : BufTy).Contents (Elt F) → (⟨S300000x64, .f32⟩ : BufTy).Contents (Elt F)),
    StableHlo.ternary main_call0_v1 main_v29 main_call0_v4 main_v30 (select : (⟨S300000x64, .i1⟩ : BufTy).Contents (Elt F) → (⟨S300000x64, .f32⟩ : BufTy).Contents (Elt F) → (⟨S300000x64, .f32⟩ : BufTy).Contents (Elt F) → (⟨S300000x64, .f32⟩ : BufTy).Contents (Elt F)),
    StableHlo.binary main_v30 main_v30 main_call1_v0 (mulf : (⟨S300000x64, .f32⟩ : BufTy).Contents (Elt F) → (⟨S300000x64, .f32⟩ : BufTy).Contents (Elt F) → (⟨S300000x64, .f32⟩ : BufTy).Contents (Elt F)),
    StableHlo.nullary main_call1_cst (constant S_ .f32 0x00000000#32),
    StableHlo.binary main_call1_v0 main_call1_cst main_call1_v1 ((fun x v => Host.reduceAdd x v reducesTo_S300000x64_S300000_d1 h_S_) : (⟨S300000x64, .f32⟩ : BufTy).Contents (Elt F) → (⟨S_, .f32⟩ : BufTy).Contents (Elt F) → (⟨S300000, .f32⟩ : BufTy).Contents (Elt F)),
    StableHlo.unary main_call1_v1 main_call1_v2 (broadcastInDim S300000x1 ![0] bcast_S300000_S300000x1_0 : (⟨S300000, .f32⟩ : BufTy).Contents (Elt F) → (⟨S300000x1, .f32⟩ : BufTy).Contents (Elt F)),
    StableHlo.unary main_call1_v2 main_v31 (Host.sqrt : (⟨S300000x1, .f32⟩ : BufTy).Contents (Elt F) → (⟨S300000x1, .f32⟩ : BufTy).Contents (Elt F)),
    StableHlo.nullary main_cst_2 (constant S_ .f32 0x2B8CBCCC#32),
    StableHlo.unary main_cst_2 main_v32 (broadcastInDim S300000x1 ![] bcast_S_S300000x1 : (⟨S_, .f32⟩ : BufTy).Contents (Elt F) → (⟨S300000x1, .f32⟩ : BufTy).Contents (Elt F)),
    StableHlo.binary main_v31 main_v32 main_v33 (maximumf : (⟨S300000x1, .f32⟩ : BufTy).Contents (Elt F) → (⟨S300000x1, .f32⟩ : BufTy).Contents (Elt F) → (⟨S300000x1, .f32⟩ : BufTy).Contents (Elt F)),
    StableHlo.unary main_v33 main_v34 (broadcastInDim S300000x64 ![0, 1] bcast_S300000x1_S300000x64_0_1 : (⟨S300000x1, .f32⟩ : BufTy).Contents (Elt F) → (⟨S300000x64, .f32⟩ : BufTy).Contents (Elt F)),
    StableHlo.binary main_v30 main_v34 main_v35 (Host.divf : (⟨S300000x64, .f32⟩ : BufTy).Contents (Elt F) → (⟨S300000x64, .f32⟩ : BufTy).Contents (Elt F) → (⟨S300000x64, .f32⟩ : BufTy).Contents (Elt F)) ]

set_option maxRecDepth 8192 in
theorem opsL0_eq : (opsL0 (F := F)) = opsL0U := rfl

/-- `opsL1` over the plain references. -/
abbrev opsL1U : List (HloOp τ sig (Elt F)) :=
  [ StableHlo.unary main_arg6 main_v36 (broadcastInDim S4000000x1 ![0] bcast_S4000000_S4000000x1_0 : (⟨S4000000, .f32⟩ : BufTy).Contents (Elt F) → (⟨S4000000x1, .f32⟩ : BufTy).Contents (Elt F)),
    StableHlo.nullary main_c_3 (constantI S_ 32 0#32),
    StableHlo.unary main_c_3 main_v37 (broadcastInDim S4000000 ![] bcast_S_S4000000 : (⟨S_, .i32⟩ : BufTy).Contents (Elt F) → (⟨S4000000, .i32⟩ : BufTy).Contents (Elt F)),
    StableHlo.binary main_arg8 main_v37 main_v38 (cmpi .slt : (⟨S4000000, .i32⟩ : BufTy).Contents (Elt F) → (⟨S4000000, .i32⟩ : BufTy).Contents (Elt F) → (⟨S4000000, .i1⟩ : BufTy).Contents (Elt F)),
    StableHlo.nullary main_c_4 (constantI S_ 32 300000#32),
    StableHlo.unary main_c_4 main_v39 (broadcastInDim S4000000 ![] bcast_S_S4000000 : (⟨S_, .i32⟩ : BufTy).Contents (Elt F) → (⟨S4000000, .i32⟩ : BufTy).Contents (Elt F)),
    StableHlo.binary main_arg8 main_v39 main_v40 (addi : (⟨S4000000, .i32⟩ : BufTy).Contents (Elt F) → (⟨S4000000, .i32⟩ : BufTy).Contents (Elt F) → (⟨S4000000, .i32⟩ : BufTy).Contents (Elt F)),
    StableHlo.ternary main_v38 main_v40 main_arg8 main_v41 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v41 main_v42 (broadcastInDim S4000000x1 ![0] bcast_S4000000_S4000000x1_0 : (⟨S4000000, .i32⟩ : BufTy).Contents (Elt F) → (⟨S4000000x1, .i32⟩ : BufTy).Contents (Elt F)),
    StableHlo.binary main_v30 main_v42 main_v43 ((fun x i => Host.gather gather_S300000x64_S4000000x1_S4000000x64_1_0_n_n_0_1_164 x i) : (⟨S300000x64, .f32⟩ : BufTy).Contents (Elt F) → (⟨S4000000x1, .i32⟩ : BufTy).Contents (Elt F) → (⟨S4000000x64, .f32⟩ : BufTy).Contents (Elt F)),
    StableHlo.unary main_v36 main_v44 (broadcastInDim S4000000x64 ![0, 1] bcast_S4000000x1_S4000000x64_0_1 : (⟨S4000000x1, .f32⟩ : BufTy).Contents (Elt F) → (⟨S4000000x64, .f32⟩ : BufTy).Contents (Elt F)),
    StableHlo.binary main_v44 main_v43 main_v45 (mulf : (⟨S4000000x64, .f32⟩ : BufTy).Contents (Elt F) → (⟨S4000000x64, .f32⟩ : BufTy).Contents (Elt F) → (⟨S4000000x64, .f32⟩ : BufTy).Contents (Elt F)),
    StableHlo.nullary main_cst_5 (constant S_ .f32 0x00000000#32),
    StableHlo.unary main_cst_5 main_v46 (broadcastInDim S300000x64 ![] bcast_S_S300000x64 : (⟨S_, .f32⟩ : BufTy).Contents (Elt F) → (⟨S300000x64, .f32⟩ : BufTy).Contents (Elt F)),
    StableHlo.unary main_arg7 main_v47 (broadcastInDim S4000000x1 ![0] bcast_S4000000_S4000000x1_0 : (⟨S4000000, .i32⟩ : BufTy).Contents (Elt F) → (⟨S4000000x1, .i32⟩ : BufTy).Contents (Elt F)),
    StableHlo.ternary main_v46 main_v47 main_v45 main_v48 ((fun x i u => Host.scatterAdd scatter_S300000x64_S4000000x1_S4000000x64_1_0_0_1 x i u) : (⟨S300000x64, .f32⟩ : BufTy).Contents (Elt F) → (⟨S4000000x1, .i32⟩ : BufTy).Contents (Elt F) → (⟨S4000000x64, .f32⟩ : BufTy).Contents (Elt F) → (⟨S300000x64, .f32⟩ : BufTy).Contents (Elt F)),
    StableHlo.unary main_arg2 main_v49 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v49 main_v50 rfl shapeCasts_S1x64x64_S64x64,
    StableHlo.binary main_v48 main_v50 main_v51 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg3 main_v52 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v52 main_v53 rfl shapeCasts_S1x1x64_S1x64,
    StableHlo.unary main_v53 main_v54 (broadcastInDim S300000x64 ![0, 1] bcast_S1x64_S300000x64_0_1 : (⟨S1x64, .f32⟩ : BufTy).Contents (Elt F) → (⟨S300000x64, .f32⟩ : BufTy).Contents (Elt F)),
    StableHlo.binary main_v51 main_v54 main_v55 (addf : (⟨S300000x64, .f32⟩ : BufTy).Contents (Elt F) → (⟨S300000x64, .f32⟩ : BufTy).Contents (Elt F) → (⟨S300000x64, .f32⟩ : BufTy).Contents (Elt F)),
    StableHlo.binary main_v30 main_v48 main_v56 (mulf : (⟨S300000x64, .f32⟩ : BufTy).Contents (Elt F) → (⟨S300000x64, .f32⟩ : BufTy).Contents (Elt F) → (⟨S300000x64, .f32⟩ : BufTy).Contents (Elt F)),
    StableHlo.unary main_arg4 main_v57 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v57 main_v58 rfl shapeCasts_S1x64x64_S64x64,
    StableHlo.binary main_v56 main_v58 main_v59 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg5 main_v60 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v60 main_v61 rfl shapeCasts_S1x1x64_S1x64,
    StableHlo.unary main_v61 main_v62 (broadcastInDim S300000x64 ![0, 1] bcast_S1x64_S300000x64_0_1 : (⟨S1x64, .f32⟩ : BufTy).Contents (Elt F) → (⟨S300000x64, .f32⟩ : BufTy).Contents (Elt F)),
    StableHlo.binary main_v59 main_v62 main_v63 (addf : (⟨S300000x64, .f32⟩ : BufTy).Contents (Elt F) → (⟨S300000x64, .f32⟩ : BufTy).Contents (Elt F) → (⟨S300000x64, .f32⟩ : BufTy).Contents (Elt F)),
    StableHlo.binary main_v55 main_v63 main_v64 (addf : (⟨S300000x64, .f32⟩ : BufTy).Contents (Elt F) → (⟨S300000x64, .f32⟩ : BufTy).Contents (Elt F) → (⟨S300000x64, .f32⟩ : BufTy).Contents (Elt F)),
    StableHlo.nullary main_cst_6 (constant S_ .f32 0x3E4CCCCD#32),
    StableHlo.nullary main_call2_cst (constant S_ .f32 0x00000000#32),
    StableHlo.unary main_call2_cst main_call2_v0 (broadcastInDim S300000x64 ![] bcast_S_S300000x64 : (⟨S_, .f32⟩ : BufTy).Contents (Elt F) → (⟨S300000x64, .f32⟩ : BufTy).Contents (Elt F)),
    StableHlo.binary main_v64 main_call2_v0 main_call2_v1 (cmpf .oge : (⟨S300000x64, .f32⟩ : BufTy).Contents (Elt F) → (⟨S300000x64, .f32⟩ : BufTy).Contents (Elt F) → (⟨S300000x64, .i1⟩ : BufTy).Contents (Elt F)),
    StableHlo.unary main_cst_6 main_call2_v2 (id : (⟨S_, .f32⟩ : BufTy).Contents (Elt F) → (⟨S_, .f32⟩ : BufTy).Contents (Elt F)),
    StableHlo.unary main_call2_v2 main_call2_v3 (broadcastInDim S300000x64 ![] bcast_S_S300000x64 : (⟨S_, .f32⟩ : BufTy).Contents (Elt F) → (⟨S300000x64, .f32⟩ : BufTy).Contents (Elt F)),
    StableHlo.binary main_call2_v3 main_v64 main_call2_v4 (mulf : (⟨S300000x64, .f32⟩ : BufTy).Contents (Elt F) → (⟨S300000x64, .f32⟩ : BufTy).Contents (Elt F) → (⟨S300000x64, .f32⟩ : BufTy).Contents (Elt F)),
    StableHlo.ternary main_call2_v1 main_v64 main_call2_v4 main_v65 (select : (⟨S300000x64, .i1⟩ : BufTy).Contents (Elt F) → (⟨S300000x64, .f32⟩ : BufTy).Contents (Elt F) → (⟨S300000x64, .f32⟩ : BufTy).Contents (Elt F) → (⟨S300000x64, .f32⟩ : BufTy).Contents (Elt F)),
    StableHlo.binary main_v65 main_v65 main_call3_v0 (mulf : (⟨S300000x64, .f32⟩ : BufTy).Contents (Elt F) → (⟨S300000x64, .f32⟩ : BufTy).Contents (Elt F) → (⟨S300000x64, .f32⟩ : BufTy).Contents (Elt F)),
    StableHlo.nullary main_call3_cst (constant S_ .f32 0x00000000#32),
    StableHlo.binary main_call3_v0 main_call3_cst main_call3_v1 ((fun x v => Host.reduceAdd x v reducesTo_S300000x64_S300000_d1 h_S_) : (⟨S300000x64, .f32⟩ : BufTy).Contents (Elt F) → (⟨S_, .f32⟩ : BufTy).Contents (Elt F) → (⟨S300000, .f32⟩ : BufTy).Contents (Elt F)),
    StableHlo.unary main_call3_v1 main_call3_v2 (broadcastInDim S300000x1 ![0] bcast_S300000_S300000x1_0 : (⟨S300000, .f32⟩ : BufTy).Contents (Elt F) → (⟨S300000x1, .f32⟩ : BufTy).Contents (Elt F)),
    StableHlo.unary main_call3_v2 main_v66 (Host.sqrt : (⟨S300000x1, .f32⟩ : BufTy).Contents (Elt F) → (⟨S300000x1, .f32⟩ : BufTy).Contents (Elt F)),
    StableHlo.nullary main_cst_7 (constant S_ .f32 0x2B8CBCCC#32),
    StableHlo.unary main_cst_7 main_v67 (broadcastInDim S300000x1 ![] bcast_S_S300000x1 : (⟨S_, .f32⟩ : BufTy).Contents (Elt F) → (⟨S300000x1, .f32⟩ : BufTy).Contents (Elt F)),
    StableHlo.binary main_v66 main_v67 main_v68 (maximumf : (⟨S300000x1, .f32⟩ : BufTy).Contents (Elt F) → (⟨S300000x1, .f32⟩ : BufTy).Contents (Elt F) → (⟨S300000x1, .f32⟩ : BufTy).Contents (Elt F)),
    StableHlo.unary main_v68 main_v69 (broadcastInDim S300000x64 ![0, 1] bcast_S300000x1_S300000x64_0_1 : (⟨S300000x1, .f32⟩ : BufTy).Contents (Elt F) → (⟨S300000x64, .f32⟩ : BufTy).Contents (Elt F)),
    StableHlo.binary main_v65 main_v69 main_v70 (Host.divf : (⟨S300000x64, .f32⟩ : BufTy).Contents (Elt F) → (⟨S300000x64, .f32⟩ : BufTy).Contents (Elt F) → (⟨S300000x64, .f32⟩ : BufTy).Contents (Elt F)) ]

set_option maxRecDepth 8192 in
theorem opsL1_eq : (opsL1 (F := F)) = opsL1U := rfl

/-- `opsL2` over the plain references. -/
abbrev opsL2U : List (HloOp τ sig (Elt F)) :=
  [ StableHlo.unary main_arg6 main_v71 (broadcastInDim S4000000x1 ![0] bcast_S4000000_S4000000x1_0 : (⟨S4000000, .f32⟩ : BufTy).Contents (Elt F) → (⟨S4000000x1, .f32⟩ : BufTy).Contents (Elt F)),
    StableHlo.nullary main_c_8 (constantI S_ 32 0#32),
    StableHlo.unary main_c_8 main_v72 (broadcastInDim S4000000 ![] bcast_S_S4000000 : (⟨S_, .i32⟩ : BufTy).Contents (Elt F) → (⟨S4000000, .i32⟩ : BufTy).Contents (Elt F)),
    StableHlo.binary main_arg8 main_v72 main_v73 (cmpi .slt : (⟨S4000000, .i32⟩ : BufTy).Contents (Elt F) → (⟨S4000000, .i32⟩ : BufTy).Contents (Elt F) → (⟨S4000000, .i1⟩ : BufTy).Contents (Elt F)),
    StableHlo.nullary main_c_9 (constantI S_ 32 300000#32),
    StableHlo.unary main_c_9 main_v74 (broadcastInDim S4000000 ![] bcast_S_S4000000 : (⟨S_, .i32⟩ : BufTy).Contents (Elt F) → (⟨S4000000, .i32⟩ : BufTy).Contents (Elt F)),
    StableHlo.binary main_arg8 main_v74 main_v75 (addi : (⟨S4000000, .i32⟩ : BufTy).Contents (Elt F) → (⟨S4000000, .i32⟩ : BufTy).Contents (Elt F) → (⟨S4000000, .i32⟩ : BufTy).Contents (Elt F)),
    StableHlo.ternary main_v73 main_v75 main_arg8 main_v76 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v76 main_v77 (broadcastInDim S4000000x1 ![0] bcast_S4000000_S4000000x1_0 : (⟨S4000000, .i32⟩ : BufTy).Contents (Elt F) → (⟨S4000000x1, .i32⟩ : BufTy).Contents (Elt F)),
    StableHlo.binary main_v65 main_v77 main_v78 ((fun x i => Host.gather gather_S300000x64_S4000000x1_S4000000x64_1_0_n_n_0_1_164 x i) : (⟨S300000x64, .f32⟩ : BufTy).Contents (Elt F) → (⟨S4000000x1, .i32⟩ : BufTy).Contents (Elt F) → (⟨S4000000x64, .f32⟩ : BufTy).Contents (Elt F)),
    StableHlo.unary main_v71 main_v79 (broadcastInDim S4000000x64 ![0, 1] bcast_S4000000x1_S4000000x64_0_1 : (⟨S4000000x1, .f32⟩ : BufTy).Contents (Elt F) → (⟨S4000000x64, .f32⟩ : BufTy).Contents (Elt F)),
    StableHlo.binary main_v79 main_v78 main_v80 (mulf : (⟨S4000000x64, .f32⟩ : BufTy).Contents (Elt F) → (⟨S4000000x64, .f32⟩ : BufTy).Contents (Elt F) → (⟨S4000000x64, .f32⟩ : BufTy).Contents (Elt F)),
    StableHlo.nullary main_cst_10 (constant S_ .f32 0x00000000#32),
    StableHlo.unary main_cst_10 main_v81 (broadcastInDim S300000x64 ![] bcast_S_S300000x64 : (⟨S_, .f32⟩ : BufTy).Contents (Elt F) → (⟨S300000x64, .f32⟩ : BufTy).Contents (Elt F)),
    StableHlo.unary main_arg7 main_v82 (broadcastInDim S4000000x1 ![0] bcast_S4000000_S4000000x1_0 : (⟨S4000000, .i32⟩ : BufTy).Contents (Elt F) → (⟨S4000000x1, .i32⟩ : BufTy).Contents (Elt F)),
    StableHlo.ternary main_v81 main_v82 main_v80 main_v83 ((fun x i u => Host.scatterAdd scatter_S300000x64_S4000000x1_S4000000x64_1_0_0_1 x i u) : (⟨S300000x64, .f32⟩ : BufTy).Contents (Elt F) → (⟨S4000000x1, .i32⟩ : BufTy).Contents (Elt F) → (⟨S4000000x64, .f32⟩ : BufTy).Contents (Elt F) → (⟨S300000x64, .f32⟩ : BufTy).Contents (Elt F)),
    StableHlo.unary main_arg2 main_v84 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v84 main_v85 rfl shapeCasts_S1x64x64_S64x64,
    StableHlo.binary main_v83 main_v85 main_v86 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg3 main_v87 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v87 main_v88 rfl shapeCasts_S1x1x64_S1x64,
    StableHlo.unary main_v88 main_v89 (broadcastInDim S300000x64 ![0, 1] bcast_S1x64_S300000x64_0_1 : (⟨S1x64, .f32⟩ : BufTy).Contents (Elt F) → (⟨S300000x64, .f32⟩ : BufTy).Contents (Elt F)),
    StableHlo.binary main_v86 main_v89 main_v90 (addf : (⟨S300000x64, .f32⟩ : BufTy).Contents (Elt F) → (⟨S300000x64, .f32⟩ : BufTy).Contents (Elt F) → (⟨S300000x64, .f32⟩ : BufTy).Contents (Elt F)),
    StableHlo.binary main_v65 main_v83 main_v91 (mulf : (⟨S300000x64, .f32⟩ : BufTy).Contents (Elt F) → (⟨S300000x64, .f32⟩ : BufTy).Contents (Elt F) → (⟨S300000x64, .f32⟩ : BufTy).Contents (Elt F)),
    StableHlo.unary main_arg4 main_v92 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v92 main_v93 rfl shapeCasts_S1x64x64_S64x64,
    StableHlo.binary main_v91 main_v93 main_v94 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg5 main_v95 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v95 main_v96 rfl shapeCasts_S1x1x64_S1x64,
    StableHlo.unary main_v96 main_v97 (broadcastInDim S300000x64 ![0, 1] bcast_S1x64_S300000x64_0_1 : (⟨S1x64, .f32⟩ : BufTy).Contents (Elt F) → (⟨S300000x64, .f32⟩ : BufTy).Contents (Elt F)),
    StableHlo.binary main_v94 main_v97 main_v98 (addf : (⟨S300000x64, .f32⟩ : BufTy).Contents (Elt F) → (⟨S300000x64, .f32⟩ : BufTy).Contents (Elt F) → (⟨S300000x64, .f32⟩ : BufTy).Contents (Elt F)),
    StableHlo.binary main_v90 main_v98 main_v99 (addf : (⟨S300000x64, .f32⟩ : BufTy).Contents (Elt F) → (⟨S300000x64, .f32⟩ : BufTy).Contents (Elt F) → (⟨S300000x64, .f32⟩ : BufTy).Contents (Elt F)),
    StableHlo.nullary main_cst_11 (constant S_ .f32 0x3E4CCCCD#32),
    StableHlo.nullary main_call4_cst (constant S_ .f32 0x00000000#32),
    StableHlo.unary main_call4_cst main_call4_v0 (broadcastInDim S300000x64 ![] bcast_S_S300000x64 : (⟨S_, .f32⟩ : BufTy).Contents (Elt F) → (⟨S300000x64, .f32⟩ : BufTy).Contents (Elt F)),
    StableHlo.binary main_v99 main_call4_v0 main_call4_v1 (cmpf .oge : (⟨S300000x64, .f32⟩ : BufTy).Contents (Elt F) → (⟨S300000x64, .f32⟩ : BufTy).Contents (Elt F) → (⟨S300000x64, .i1⟩ : BufTy).Contents (Elt F)),
    StableHlo.unary main_cst_11 main_call4_v2 (id : (⟨S_, .f32⟩ : BufTy).Contents (Elt F) → (⟨S_, .f32⟩ : BufTy).Contents (Elt F)),
    StableHlo.unary main_call4_v2 main_call4_v3 (broadcastInDim S300000x64 ![] bcast_S_S300000x64 : (⟨S_, .f32⟩ : BufTy).Contents (Elt F) → (⟨S300000x64, .f32⟩ : BufTy).Contents (Elt F)),
    StableHlo.binary main_call4_v3 main_v99 main_call4_v4 (mulf : (⟨S300000x64, .f32⟩ : BufTy).Contents (Elt F) → (⟨S300000x64, .f32⟩ : BufTy).Contents (Elt F) → (⟨S300000x64, .f32⟩ : BufTy).Contents (Elt F)),
    StableHlo.ternary main_call4_v1 main_v99 main_call4_v4 main_v100 (select : (⟨S300000x64, .i1⟩ : BufTy).Contents (Elt F) → (⟨S300000x64, .f32⟩ : BufTy).Contents (Elt F) → (⟨S300000x64, .f32⟩ : BufTy).Contents (Elt F) → (⟨S300000x64, .f32⟩ : BufTy).Contents (Elt F)),
    StableHlo.binary main_v100 main_v100 main_call5_v0 (mulf : (⟨S300000x64, .f32⟩ : BufTy).Contents (Elt F) → (⟨S300000x64, .f32⟩ : BufTy).Contents (Elt F) → (⟨S300000x64, .f32⟩ : BufTy).Contents (Elt F)),
    StableHlo.nullary main_call5_cst (constant S_ .f32 0x00000000#32),
    StableHlo.binary main_call5_v0 main_call5_cst main_call5_v1 ((fun x v => Host.reduceAdd x v reducesTo_S300000x64_S300000_d1 h_S_) : (⟨S300000x64, .f32⟩ : BufTy).Contents (Elt F) → (⟨S_, .f32⟩ : BufTy).Contents (Elt F) → (⟨S300000, .f32⟩ : BufTy).Contents (Elt F)),
    StableHlo.unary main_call5_v1 main_call5_v2 (broadcastInDim S300000x1 ![0] bcast_S300000_S300000x1_0 : (⟨S300000, .f32⟩ : BufTy).Contents (Elt F) → (⟨S300000x1, .f32⟩ : BufTy).Contents (Elt F)),
    StableHlo.unary main_call5_v2 main_v101 (Host.sqrt : (⟨S300000x1, .f32⟩ : BufTy).Contents (Elt F) → (⟨S300000x1, .f32⟩ : BufTy).Contents (Elt F)),
    StableHlo.nullary main_cst_12 (constant S_ .f32 0x2B8CBCCC#32),
    StableHlo.unary main_cst_12 main_v102 (broadcastInDim S300000x1 ![] bcast_S_S300000x1 : (⟨S_, .f32⟩ : BufTy).Contents (Elt F) → (⟨S300000x1, .f32⟩ : BufTy).Contents (Elt F)),
    StableHlo.binary main_v101 main_v102 main_v103 (maximumf : (⟨S300000x1, .f32⟩ : BufTy).Contents (Elt F) → (⟨S300000x1, .f32⟩ : BufTy).Contents (Elt F) → (⟨S300000x1, .f32⟩ : BufTy).Contents (Elt F)),
    StableHlo.unary main_v103 main_v104 (broadcastInDim S300000x64 ![0, 1] bcast_S300000x1_S300000x64_0_1 : (⟨S300000x1, .f32⟩ : BufTy).Contents (Elt F) → (⟨S300000x64, .f32⟩ : BufTy).Contents (Elt F)),
    StableHlo.binary main_v100 main_v104 main_v105 (Host.divf : (⟨S300000x64, .f32⟩ : BufTy).Contents (Elt F) → (⟨S300000x64, .f32⟩ : BufTy).Contents (Elt F) → (⟨S300000x64, .f32⟩ : BufTy).Contents (Elt F)) ]

set_option maxRecDepth 8192 in
theorem opsL2_eq : (opsL2 (F := F)) = opsL2U := rfl

end Plain

open Idealize.ShloMosaic.StableHlo

/-! ## What each stretch leaves in its result buffers

For any contents `X` of the buffers before a stretch: the stretch's results as the named pieces of `X` at the buffers the
stretch reads and does not write. -/

set_option maxRecDepth 8192 in
set_option maxHeartbeats 4000000 in
/-- After the first stretch `main_v0` holds the stacked tables. -/
theorem rL0_e0 (X : Valuation τ sig (Elt Ideal)) :
    StableHlo.after (opsL0 (F := Ideal)) X (Proc.devRef .tc main_v0) = concatR (X (Proc.devRef .tc main_arg0)) (X (Proc.devRef .tc main_arg1)) := by
  rw [opsL0_eq]
  after_results_simp
  rfl

set_option maxRecDepth 8192 in
set_option maxHeartbeats 4000000 in
/-- After the first stretch `main_v30` holds the first layer's new embeddings of the stacked tables, and `main_v35` (next) their normalisation. -/
theorem rL0_ego (X : Valuation τ sig (Elt Ideal)) :
    StableHlo.after (opsL0 (F := Ideal)) X (Proc.devRef .tc main_v30)
      = egoFull (n := 300000) (spmmR (X (Proc.devRef .tc main_arg6)) (X (Proc.devRef .tc main_arg7)) (X (Proc.devRef .tc main_arg8)) (concatR (X (Proc.devRef .tc main_arg0)) (X (Proc.devRef .tc main_arg1)))) (concatR (X (Proc.devRef .tc main_arg0)) (X (Proc.devRef .tc main_arg1))) (w1R0 (X (Proc.devRef .tc main_arg2))) (b1R0 (X (Proc.devRef .tc main_arg3))) (w2R0 (X (Proc.devRef .tc main_arg4))) (b2R0 (X (Proc.devRef .tc main_arg5))) := by
  refine Eq.trans ?_ (egoR_eq _ _ _ _ _ _)
  rw [opsL0_eq]
  after_results_simp
  rfl

set_option maxRecDepth 8192 in
set_option maxHeartbeats 4000000 in
theorem rL0_nrm (X : Valuation τ sig (Elt Ideal)) :
    StableHlo.after (opsL0 (F := Ideal)) X (Proc.devRef .tc main_v35)
      = normFull (n := 300000) (spmmR (X (Proc.devRef .tc main_arg6)) (X (Proc.devRef .tc main_arg7)) (X (Proc.devRef .tc main_arg8)) (concatR (X (Proc.devRef .tc main_arg0)) (X (Proc.devRef .tc main_arg1)))) (concatR (X (Proc.devRef .tc main_arg0)) (X (Proc.devRef .tc main_arg1))) (w1R0 (X (Proc.devRef .tc main_arg2))) (b1R0 (X (Proc.devRef .tc main_arg3))) (w2R0 (X (Proc.devRef .tc main_arg4))) (b2R0 (X (Proc.devRef .tc main_arg5))) := by
  refine Eq.trans ?_ ((congrArg normR (egoR_eq _ _ _ _ _ _)).trans (normR_eq _ _ _ _ _ _))
  rw [opsL0_eq]
  after_results_simp
  rfl

set_option maxRecDepth 8192 in
set_option maxHeartbeats 4000000 in
/-- After the second stretch `main_v65` holds the second layer's new embeddings of what `main_v30` held, and `main_v70` (next) their normalisation. -/
theorem rL1_ego (X : Valuation τ sig (Elt Ideal)) :
    StableHlo.after (opsL1 (F := Ideal)) X (Proc.devRef .tc main_v65)
      = egoFull (n := 300000) (spmmR (X (Proc.devRef .tc main_arg6)) (X (Proc.devRef .tc main_arg7)) (X (Proc.devRef .tc main_arg8)) (X (Proc.devRef .tc main_v30))) (X (Proc.devRef .tc main_v30)) (w1R1 (X (Proc.devRef .tc main_arg2))) (b1R1 (X (Proc.devRef .tc main_arg3))) (w2R1 (X (Proc.devRef .tc main_arg4))) (b2R1 (X (Proc.devRef .tc main_arg5))) := by
  refine Eq.trans ?_ (egoR_eq _ _ _ _ _ _)
  rw [opsL1_eq]
  after_results_simp
  rfl

set_option maxRecDepth 8192 in
set_option maxHeartbeats 4000000 in
theorem rL1_nrm (X : Valuation τ sig (Elt Ideal)) :
    StableHlo.after (opsL1 (F := Ideal)) X (Proc.devRef .tc main_v70)
      = normFull (n := 300000) (spmmR (X (Proc.devRef .tc main_arg6)) (X (Proc.devRef .tc main_arg7)) (X (Proc.devRef .tc main_arg8)) (X (Proc.devRef .tc main_v30))) (X (Proc.devRef .tc main_v30)) (w1R1 (X (Proc.devRef .tc main_arg2))) (b1R1 (X (Proc.devRef .tc main_arg3))) (w2R1 (X (Proc.devRef .tc main_arg4))) (b2R1 (X (Proc.devRef .tc main_arg5))) := by
  refine Eq.trans ?_ ((congrArg normR (egoR_eq _ _ _ _ _ _)).trans (normR_eq _ _ _ _ _ _))
  rw [opsL1_eq]
  after_results_simp
  rfl

set_option maxRecDepth 8192 in
set_option maxHeartbeats 4000000 in
/-- After the third stretch `main_v100` holds the third layer's new embeddings of what `main_v65` held, and `main_v105` (next) their normalisation. -/
theorem rL2_ego (X : Valuation τ sig (Elt Ideal)) :
    StableHlo.after (opsL2 (F := Ideal)) X (Proc.devRef .tc main_v100)
      = egoFull (n := 300000) (spmmR (X (Proc.devRef .tc main_arg6)) (X (Proc.devRef .tc main_arg7)) (X (Proc.devRef .tc main_arg8)) (X (Proc.devRef .tc main_v65))) (X (Proc.devRef .tc main_v65)) (w1R2 (X (Proc.devRef .tc main_arg2))) (b1R2 (X (Proc.devRef .tc main_arg3))) (w2R2 (X (Proc.devRef .tc main_arg4))) (b2R2 (X (Proc.devRef .tc main_arg5))) := by
  refine Eq.trans ?_ (egoR_eq _ _ _ _ _ _)
  rw [opsL2_eq]
  after_results_simp
  rfl

set_option maxRecDepth 8192 in
set_option maxHeartbeats 4000000 in
theorem rL2_nrm (X : Valuation τ sig (Elt Ideal)) :
    StableHlo.after (opsL2 (F := Ideal)) X (Proc.devRef .tc main_v105)
      = normFull (n := 300000) (spmmR (X (Proc.devRef .tc main_arg6)) (X (Proc.devRef .tc main_arg7)) (X (Proc.devRef .tc main_arg8)) (X (Proc.devRef .tc main_v65))) (X (Proc.devRef .tc main_v65)) (w1R2 (X (Proc.devRef .tc main_arg2))) (b1R2 (X (Proc.devRef .tc main_arg3))) (w2R2 (X (Proc.devRef .tc main_arg4))) (b2R2 (X (Proc.devRef .tc main_arg5))) := by
  refine Eq.trans ?_ ((congrArg normR (egoR_eq _ _ _ _ _ _)).trans (normR_eq _ _ _ _ _ _))
  rw [opsL2_eq]
  after_results_simp
  rfl

set_option maxRecDepth 8192 in
set_option maxHeartbeats 4000000 in
/-- After the last stretch `main_v115` holds the gathered rows of the four blocks side by side. -/
theorem rT_u (X : Valuation τ sig (Elt Ideal)) :
    StableHlo.after (opsT (F := Ideal)) X (Proc.devRef .tc main_v115)
      = tailU (X (Proc.devRef .tc main_v0)) (X (Proc.devRef .tc main_v35)) (X (Proc.devRef .tc main_v70)) (X (Proc.devRef .tc main_v105)) (X (Proc.devRef .tc main_arg9)) := by
  after_results_simp
  rfl

set_option maxRecDepth 8192 in
set_option maxHeartbeats 4000000 in
/-- After the last stretch `main_v122` holds the gathered rows of the four blocks side by side. -/
theorem rT_p (X : Valuation τ sig (Elt Ideal)) :
    StableHlo.after (opsT (F := Ideal)) X (Proc.devRef .tc main_v122)
      = tailP (X (Proc.devRef .tc main_v0)) (X (Proc.devRef .tc main_v35)) (X (Proc.devRef .tc main_v70)) (X (Proc.devRef .tc main_v105)) (X (Proc.devRef .tc main_arg10)) := by
  after_results_simp
  rfl

set_option maxRecDepth 8192 in
set_option maxHeartbeats 4000000 in
/-- After the last stretch `main_v129` holds the gathered rows of the four blocks side by side. -/
theorem rT_n (X : Valuation τ sig (Elt Ideal)) :
    StableHlo.after (opsT (F := Ideal)) X (Proc.devRef .tc main_v129)
      = tailN (X (Proc.devRef .tc main_v0)) (X (Proc.devRef .tc main_v35)) (X (Proc.devRef .tc main_v70)) (X (Proc.devRef .tc main_v105)) (X (Proc.devRef .tc main_arg11)) := by
  after_results_simp
  rfl

end Cert.ReferenceIdeal.Hand

end
-- ==== Proof.RefRunSplit.lean ====
/- The reference line's fold taken stretch by stretch: the fold over the whole line is the four stretches' folds in
   order, and a reference a stretch does not write keeps its contents through it. -/
import proofs.«152006_j19688130085762_1_alg».proof.Proof.RefRun

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## The fold, stretch by stretch -/

/-- The fold over the whole line is the folds over the four stretches, in order. -/
theorem after_ops (V : Valuation τ sig (Elt F)) :
    StableHlo.after ops V
      = StableHlo.after opsT (StableHlo.after opsL2 (StableHlo.after opsL1 (StableHlo.after opsL0 V))) := by
  simp only [ops, StableHlo.after_append]

/-- A reference `opsL0` does not write keeps its contents through it. -/
theorem opsL0_keep (V : Valuation τ sig (Elt F)) (r : Ref sig .tc) (h : r ∉ opsL0_W) :
    StableHlo.after opsL0 V (Proc.devRef .tc r) = V (Proc.devRef .tc r) :=
  StableHlo.after_of_writes_sub opsL0 V opsL0_writes h
/-- A reference `opsL1` does not write keeps its contents through it. -/
theorem opsL1_keep (V : Valuation τ sig (Elt F)) (r : Ref sig .tc) (h : r ∉ opsL1_W) :
    StableHlo.after opsL1 V (Proc.devRef .tc r) = V (Proc.devRef .tc r) :=
  StableHlo.after_of_writes_sub opsL1 V opsL1_writes h
/-- A reference `opsL2` does not write keeps its contents through it. -/
theorem opsL2_keep (V : Valuation τ sig (Elt F)) (r : Ref sig .tc) (h : r ∉ opsL2_W) :
    StableHlo.after opsL2 V (Proc.devRef .tc r) = V (Proc.devRef .tc r) :=
  StableHlo.after_of_writes_sub opsL2 V opsL2_writes h
/-- A reference `opsT` does not write keeps its contents through it. -/
theorem opsT_keep (V : Valuation τ sig (Elt F)) (r : Ref sig .tc) (h : r ∉ opsT_W) :
    StableHlo.after opsT V (Proc.devRef .tc r) = V (Proc.devRef .tc r) :=
  StableHlo.after_of_writes_sub opsT V opsT_writes h

end Cert.ReferenceIdeal.Hand

end
-- ==== Proof.RefChain.lean ====
/- The reference's three results as the chained layers: the fold over the whole line is the four stretches' folds in
   order; each stretch's results are the layer specification of what the stretch reads, the stacked weights and the
   sparse matrix are arguments no stretch writes, and a layer's output is carried unchanged through the later
   stretches to the final gathers. -/
import proofs.«152006_j19688130085762_1_alg».proof.Proof.RefLayer
import proofs.«152006_j19688130085762_1_alg».proof.Proof.RefRunSplit
import proofs.«152006_j19688130085762_1_alg».proof.Proof.Net

-- deciding that a reference is none of some fifty recurses past the default depth
set_option maxRecDepth 2048

noncomputable section

namespace Cert.ReferenceIdeal.Hand

open Cert.ReferenceIdeal Cert.ReferenceIdeal.Gen Idealize.ShloMosaic Idealize.ShloMosaic.ValueIdx Idealize.ShloMosaic.TcCoe Cert.Layer

variable (m' : (ℓ : Loc nD τ sig) → Buf (Elt Ideal) ℓ) (c : Dev nD)

/-- The three layers' weights: the slices of the four stacked arguments. -/
def paramsR : Cert.Layer.Params :=
  ⟨w1R0 (m' ((c.tc : Thread nD τ).loc main_arg2)), b1R0 (m' ((c.tc : Thread nD τ).loc main_arg3)), w2R0 (m' ((c.tc : Thread nD τ).loc main_arg4)), b2R0 (m' ((c.tc : Thread nD τ).loc main_arg5)),
   w1R1 (m' ((c.tc : Thread nD τ).loc main_arg2)), b1R1 (m' ((c.tc : Thread nD τ).loc main_arg3)), w2R1 (m' ((c.tc : Thread nD τ).loc main_arg4)), b2R1 (m' ((c.tc : Thread nD τ).loc main_arg5)),
   w1R2 (m' ((c.tc : Thread nD τ).loc main_arg2)), b1R2 (m' ((c.tc : Thread nD τ).loc main_arg3)), w2R2 (m' ((c.tc : Thread nD τ).loc main_arg4)), b2R2 (m' ((c.tc : Thread nD τ).loc main_arg5))⟩

/-- The initial embeddings: the two tables stacked. -/
def e0R : Cert.Layer.Emb := concatR (m' ((c.tc : Thread nD τ).loc main_arg0)) (m' ((c.tc : Thread nD τ).loc main_arg1))

/-- The neighbourhood aggregation: the sparse product with the adjacency the arguments give in coordinate form. -/
def spmmOfR : Cert.Layer.Emb → Cert.Layer.Emb := spmmR (m' ((c.tc : Thread nD τ).loc main_arg6)) (m' ((c.tc : Thread nD τ).loc main_arg7)) (m' ((c.tc : Thread nD τ).loc main_arg8))

/-- The device's buffer contents at launch, and after the first, second and third stretch. -/
abbrev X0 : Valuation τ sig (Elt Ideal) := fun b => m' (c, b)
abbrev X1 : Valuation τ sig (Elt Ideal) := StableHlo.after (opsL0 (F := Ideal)) (X0 m' c)
abbrev X2 : Valuation τ sig (Elt Ideal) := StableHlo.after (opsL1 (F := Ideal)) (X1 m' c)
abbrev X3 : Valuation τ sig (Elt Ideal) := StableHlo.after (opsL2 (F := Ideal)) (X2 m' c)

/-! ### The arguments reach every stretch as launched -/

theorem X1_main_arg2 : X1 m' c (Proc.devRef .tc main_arg2) = (m' ((c.tc : Thread nD τ).loc main_arg2)) :=
  opsL0_keep _ main_arg2 (by decide)
theorem X1_main_arg3 : X1 m' c (Proc.devRef .tc main_arg3) = (m' ((c.tc : Thread nD τ).loc main_arg3)) :=
  opsL0_keep _ main_arg3 (by decide)
theorem X1_main_arg4 : X1 m' c (Proc.devRef .tc main_arg4) = (m' ((c.tc : Thread nD τ).loc main_arg4)) :=
  opsL0_keep _ main_arg4 (by decide)
theorem X1_main_arg5 : X1 m' c (Proc.devRef .tc main_arg5) = (m' ((c.tc : Thread nD τ).loc main_arg5)) :=
  opsL0_keep _ main_arg5 (by decide)
theorem X1_main_arg6 : X1 m' c (Proc.devRef .tc main_arg6) = (m' ((c.tc : Thread nD τ).loc main_arg6)) :=
  opsL0_keep _ main_arg6 (by decide)
theorem X1_main_arg7 : X1 m' c (Proc.devRef .tc main_arg7) = (m' ((c.tc : Thread nD τ).loc main_arg7)) :=
  opsL0_keep _ main_arg7 (by decide)
theorem X1_main_arg8 : X1 m' c (Proc.devRef .tc main_arg8) = (m' ((c.tc : Thread nD τ).loc main_arg8)) :=
  opsL0_keep _ main_arg8 (by decide)
theorem X1_main_arg9 : X1 m' c (Proc.devRef .tc main_arg9) = (m' ((c.tc : Thread nD τ).loc main_arg9)) :=
  opsL0_keep _ main_arg9 (by decide)
theorem X1_main_arg10 : X1 m' c (Proc.devRef .tc main_arg10) = (m' ((c.tc : Thread nD τ).loc main_arg10)) :=
  opsL0_keep _ main_arg10 (by decide)
theorem X1_main_arg11 : X1 m' c (Proc.devRef .tc main_arg11) = (m' ((c.tc : Thread nD τ).loc main_arg11)) :=
  opsL0_keep _ main_arg11 (by decide)
theorem X2_main_arg2 : X2 m' c (Proc.devRef .tc main_arg2) = (m' ((c.tc : Thread nD τ).loc main_arg2)) :=
  (opsL1_keep _ main_arg2 (by decide)).trans (X1_main_arg2 m' c)
theorem X2_main_arg3 : X2 m' c (Proc.devRef .tc main_arg3) = (m' ((c.tc : Thread nD τ).loc main_arg3)) :=
  (opsL1_keep _ main_arg3 (by decide)).trans (X1_main_arg3 m' c)
theorem X2_main_arg4 : X2 m' c (Proc.devRef .tc main_arg4) = (m' ((c.tc : Thread nD τ).loc main_arg4)) :=
  (opsL1_keep _ main_arg4 (by decide)).trans (X1_main_arg4 m' c)
theorem X2_main_arg5 : X2 m' c (Proc.devRef .tc main_arg5) = (m' ((c.tc : Thread nD τ).loc main_arg5)) :=
  (opsL1_keep _ main_arg5 (by decide)).trans (X1_main_arg5 m' c)
theorem X2_main_arg6 : X2 m' c (Proc.devRef .tc main_arg6) = (m' ((c.tc : Thread nD τ).loc main_arg6)) :=
  (opsL1_keep _ main_arg6 (by decide)).trans (X1_main_arg6 m' c)
theorem X2_main_arg7 : X2 m' c (Proc.devRef .tc main_arg7) = (m' ((c.tc : Thread nD τ).loc main_arg7)) :=
  (opsL1_keep _ main_arg7 (by decide)).trans (X1_main_arg7 m' c)
theorem X2_main_arg8 : X2 m' c (Proc.devRef .tc main_arg8) = (m' ((c.tc : Thread nD τ).loc main_arg8)) :=
  (opsL1_keep _ main_arg8 (by decide)).trans (X1_main_arg8 m' c)
theorem X2_main_arg9 : X2 m' c (Proc.devRef .tc main_arg9) = (m' ((c.tc : Thread nD τ).loc main_arg9)) :=
  (opsL1_keep _ main_arg9 (by decide)).trans (X1_main_arg9 m' c)
theorem X2_main_arg10 : X2 m' c (Proc.devRef .tc main_arg10) = (m' ((c.tc : Thread nD τ).loc main_arg10)) :=
  (opsL1_keep _ main_arg10 (by decide)).trans (X1_main_arg10 m' c)
theorem X2_main_arg11 : X2 m' c (Proc.devRef .tc main_arg11) = (m' ((c.tc : Thread nD τ).loc main_arg11)) :=
  (opsL1_keep _ main_arg11 (by decide)).trans (X1_main_arg11 m' c)
theorem X3_main_arg9 : X3 m' c (Proc.devRef .tc main_arg9) = (m' ((c.tc : Thread nD τ).loc main_arg9)) :=
  (opsL2_keep _ main_arg9 (by decide)).trans (X2_main_arg9 m' c)
theorem X3_main_arg10 : X3 m' c (Proc.devRef .tc main_arg10) = (m' ((c.tc : Thread nD τ).loc main_arg10)) :=
  (opsL2_keep _ main_arg10 (by decide)).trans (X2_main_arg10 m' c)
theorem X3_main_arg11 : X3 m' c (Proc.devRef .tc main_arg11) = (m' ((c.tc : Thread nD τ).loc main_arg11)) :=
  (opsL2_keep _ main_arg11 (by decide)).trans (X2_main_arg11 m' c)

/-! ### The first layer -/

theorem X1_main_v0 : X1 m' c (Proc.devRef .tc main_v0) = e0R m' c := rL0_e0 _
theorem X1_main_v30 : X1 m' c (Proc.devRef .tc main_v30) = ego1 (spmmOfR m' c) (e0R m' c) (paramsR m' c) := rL0_ego _
theorem X1_main_v35 : X1 m' c (Proc.devRef .tc main_v35) = nrm1 (spmmOfR m' c) (e0R m' c) (paramsR m' c) := rL0_nrm _

/-! ### The second layer -/

theorem X2_main_v0 : X2 m' c (Proc.devRef .tc main_v0) = e0R m' c :=
  (opsL1_keep _ main_v0 (by decide)).trans (X1_main_v0 m' c)
theorem X2_main_v35 : X2 m' c (Proc.devRef .tc main_v35) = nrm1 (spmmOfR m' c) (e0R m' c) (paramsR m' c) :=
  (opsL1_keep _ main_v35 (by decide)).trans (X1_main_v35 m' c)
theorem X2_main_v65 : X2 m' c (Proc.devRef .tc main_v65) = ego2 (spmmOfR m' c) (e0R m' c) (paramsR m' c) := by
  refine (rL1_ego (X1 m' c)).trans ?_
  rw [X1_main_arg2, X1_main_arg3, X1_main_arg4, X1_main_arg5, X1_main_arg6, X1_main_arg7, X1_main_arg8, X1_main_v30]
  rfl
theorem X2_main_v70 : X2 m' c (Proc.devRef .tc main_v70) = nrm2 (spmmOfR m' c) (e0R m' c) (paramsR m' c) := by
  refine (rL1_nrm (X1 m' c)).trans ?_
  rw [X1_main_arg2, X1_main_arg3, X1_main_arg4, X1_main_arg5, X1_main_arg6, X1_main_arg7, X1_main_arg8, X1_main_v30]
  rfl

/-! ### The third layer -/

theorem X3_main_v0 : X3 m' c (Proc.devRef .tc main_v0) = e0R m' c :=
  (opsL2_keep _ main_v0 (by decide)).trans (X2_main_v0 m' c)
theorem X3_main_v35 : X3 m' c (Proc.devRef .tc main_v35) = nrm1 (spmmOfR m' c) (e0R m' c) (paramsR m' c) :=
  (opsL2_keep _ main_v35 (by decide)).trans (X2_main_v35 m' c)
theorem X3_main_v70 : X3 m' c (Proc.devRef .tc main_v70) = nrm2 (spmmOfR m' c) (e0R m' c) (paramsR m' c) :=
  (opsL2_keep _ main_v70 (by decide)).trans (X2_main_v70 m' c)
theorem X3_main_v105 : X3 m' c (Proc.devRef .tc main_v105) = nrm3 (spmmOfR m' c) (e0R m' c) (paramsR m' c) := by
  refine (rL2_nrm (X2 m' c)).trans ?_
  rw [X2_main_arg2, X2_main_arg3, X2_main_arg4, X2_main_arg5, X2_main_arg6, X2_main_arg7, X2_main_arg8, X2_main_v65]
  rfl

/-! ### The results -/

theorem after_v115 :
    StableHlo.after (ops (F := Ideal)) (fun b => m' (c, b)) (Proc.devRef .tc main_v115)
      = tailU (e0R m' c) (nrm1 (spmmOfR m' c) (e0R m' c) (paramsR m' c)) (nrm2 (spmmOfR m' c) (e0R m' c) (paramsR m' c))
          (nrm3 (spmmOfR m' c) (e0R m' c) (paramsR m' c)) (m' ((c.tc : Thread nD τ).loc main_arg9)) := by
  rw [after_ops]
  refine (rT_u (X3 m' c)).trans ?_
  rw [X3_main_v0, X3_main_v35, X3_main_v70, X3_main_v105, X3_main_arg9]
theorem after_v122 :
    StableHlo.after (ops (F := Ideal)) (fun b => m' (c, b)) (Proc.devRef .tc main_v122)
      = tailP (e0R m' c) (nrm1 (spmmOfR m' c) (e0R m' c) (paramsR m' c)) (nrm2 (spmmOfR m' c) (e0R m' c) (paramsR m' c))
          (nrm3 (spmmOfR m' c) (e0R m' c) (paramsR m' c)) (m' ((c.tc : Thread nD τ).loc main_arg10)) := by
  rw [after_ops]
  refine (rT_p (X3 m' c)).trans ?_
  rw [X3_main_v0, X3_main_v35, X3_main_v70, X3_main_v105, X3_main_arg10]
theorem after_v129 :
    StableHlo.after (ops (F := Ideal)) (fun b => m' (c, b)) (Proc.devRef .tc main_v129)
      = tailN (e0R m' c) (nrm1 (spmmOfR m' c) (e0R m' c) (paramsR m' c)) (nrm2 (spmmOfR m' c) (e0R m' c) (paramsR m' c))
          (nrm3 (spmmOfR m' c) (e0R m' c) (paramsR m' c)) (m' ((c.tc : Thread nD τ).loc main_arg11)) := by
  rw [after_ops]
  refine (rT_n (X3 m' c)).trans ?_
  rw [X3_main_v0, X3_main_v35, X3_main_v70, X3_main_v105, X3_main_arg11]

end Cert.ReferenceIdeal.Hand

end
-- ==== Proof.ReadEq.lean ====
/- The host terms of the kernel program and of the reference, named alike on both sides (the stacking of the two
   embedding tables, the sparse product in coordinate form, each layer's slices of the stacked parameters, the
   three gathered results), are the same terms: the two programs spell the same literal shapes and the same
   dimension records, under different names only. -/
import proofs.«152006_j19688130085762_1_alg».proof.Proof.KIRead
import proofs.«152006_j19688130085762_1_alg».proof.Proof.RefLayer

set_option maxRecDepth 16384

noncomputable section

namespace Cert.KernelIdeal.Hand

open Cert.ReferenceIdeal.Hand

/-- The stacking of the two embedding tables is the same term in both programs. -/
theorem concat_eq : concatK = concatR := rfl

/-- The sparse product is the same term in both programs. -/
theorem spmm_eq : spmmK = spmmR := rfl

/-- Each layer's slices of the stacked parameters are the same terms in both programs. -/
theorem w1_eq0 : w1K0 = w1R0 := rfl
theorem b1_eq0 : b1K0 = b1R0 := rfl
theorem w2_eq0 : w2K0 = w2R0 := rfl
theorem b2_eq0 : b2K0 = b2R0 := rfl
theorem w1_eq1 : w1K1 = w1R1 := rfl
theorem b1_eq1 : b1K1 = b1R1 := rfl
theorem w2_eq1 : w2K1 = w2R1 := rfl
theorem b2_eq1 : b2K1 = b2R1 := rfl
theorem w1_eq2 : w1K2 = w1R2 := rfl
theorem b1_eq2 : b1K2 = b1R2 := rfl
theorem w2_eq2 : w2K2 = w2R2 := rfl
theorem b2_eq2 : b2K2 = b2R2 := rfl

/-- The three gathered results are the same terms in both programs. -/
theorem tailU_eq : tailUK = tailU := rfl
theorem tailP_eq : tailPK = tailP := rfl
theorem tailN_eq : tailNK = tailN := rfl

end Cert.KernelIdeal.Hand

end
-- ==== Proof.lean ====
/-
  A three-layer graph-convolution forward pass (300000 nodes, embedding width 64): per layer the neighbourhoods are
  aggregated by a sparse product on the host (gather, scale, scatter-add), and the dense transform — two 64 × 64
  matrix products with biases, a leaky rectification and a row normalization — is done by a kernel over fifty blocks
  of 6000 rows in one program and by whole-array host operations in the other. The three results gather rows of the
  concatenation of the initial embeddings with the three layers' normalized embeddings.

  On the extended reals both dense transforms are one row function (Proof/LayerSpec.lean): a block's matrix product
  and the whole array's are the same sums over the 64 middle positions, the kernel's lane sum and the host's row
  reduction are the same sum, and every other operation is pointwise; the blocks cover the rows. The host operations
  around the transforms are the same operations in both programs, applied to equal arrays. No step uses finiteness
  of the inputs, so the precondition is never opened.

  The three frames: the kernel programs' runs go region by region (Proof/KRun.lean, Proof/KIRun.lean: each region's
  body runs at every grid point and the pipeline writes the two outputs back; the host stretches between regions
  write only their own results), the reference's run is its list of host operations (Proof/RefRun.lean); no
  operation writes an argument. The idealization rewrote nothing, so its statement is `True`.
-/
import proofs.«152006_j19688130085762_1_alg».proof.Defs
import proofs.«152006_j19688130085762_1_alg».proof.Proof.Gen.Pre_finite_inputs
import proofs.«152006_j19688130085762_1_alg».proof.Proof.KRun
import proofs.«152006_j19688130085762_1_alg».proof.Proof.KIRun
import proofs.«152006_j19688130085762_1_alg».proof.Proof.KIChain
import proofs.«152006_j19688130085762_1_alg».proof.Proof.RefRun
import proofs.«152006_j19688130085762_1_alg».proof.Proof.RefChain
import proofs.«152006_j19688130085762_1_alg».proof.Proof.ReadEq

noncomputable section

namespace Cert.Proof

open Idealize.ShloMosaic Idealize.SL.Sem Cert.Layer

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

theorem preserves : Cert.preserves_Kernel_KernelIdeal := trivial

section Agree

open Cert.KernelIdeal.Hand Cert.ReferenceIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From memories that agree on the arguments the two programs start from equal initial embeddings, -/
theorem e0_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    e0R m' c = e0K m c := by
  unfold e0R e0K
  rw [h0, h1, concat_eq]

/-- aggregate neighbourhoods by equal sparse products, -/
theorem spmm_agree
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    spmmOfR m' c = spmmOfK m c := by
  unfold spmmOfR spmmOfK
  rw [h6, h7, h8, spmm_eq]

/-- and use equal weights in every layer. -/
theorem params_agree
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    paramsR m' c = paramsK m c := by
  unfold paramsR paramsK
  rw [h2, h3, h4, h5, w1_eq0, b1_eq0, w2_eq0, b2_eq0, w1_eq1, b1_eq1, w2_eq1, b2_eq1, w1_eq2, b1_eq2, w2_eq2, b2_eq2]

end Agree

/-- Both programs end with the three gathers of the same concatenation. -/
theorem algebraic : Cert.algebraic_KernelIdeal_ReferenceIdeal := by
  intro m ρ m' ρ' _ hagree
  refine ⟨fun c => Cert.KernelIdeal.Hand.tailUK (Cert.KernelIdeal.Hand.e0K m c)
        (nrm1 (Cert.KernelIdeal.Hand.spmmOfK m c) (Cert.KernelIdeal.Hand.e0K m c) (Cert.KernelIdeal.Hand.paramsK m c))
        (nrm2 (Cert.KernelIdeal.Hand.spmmOfK m c) (Cert.KernelIdeal.Hand.e0K m c) (Cert.KernelIdeal.Hand.paramsK m c))
        (nrm3 (Cert.KernelIdeal.Hand.spmmOfK m c) (Cert.KernelIdeal.Hand.e0K m c) (Cert.KernelIdeal.Hand.paramsK m c))
        (m ((c.tc : Thread Cert.KernelIdeal.nD Cert.KernelIdeal.τ).loc Cert.KernelIdeal.main_arg9)),
    fun c => Cert.KernelIdeal.Hand.tailPK (Cert.KernelIdeal.Hand.e0K m c)
        (nrm1 (Cert.KernelIdeal.Hand.spmmOfK m c) (Cert.KernelIdeal.Hand.e0K m c) (Cert.KernelIdeal.Hand.paramsK m c))
        (nrm2 (Cert.KernelIdeal.Hand.spmmOfK m c) (Cert.KernelIdeal.Hand.e0K m c) (Cert.KernelIdeal.Hand.paramsK m c))
        (nrm3 (Cert.KernelIdeal.Hand.spmmOfK m c) (Cert.KernelIdeal.Hand.e0K m c) (Cert.KernelIdeal.Hand.paramsK m c))
        (m ((c.tc : Thread Cert.KernelIdeal.nD Cert.KernelIdeal.τ).loc Cert.KernelIdeal.main_arg10)),
    fun c => Cert.KernelIdeal.Hand.tailNK (Cert.KernelIdeal.Hand.e0K m c)
        (nrm1 (Cert.KernelIdeal.Hand.spmmOfK m c) (Cert.KernelIdeal.Hand.e0K m c) (Cert.KernelIdeal.Hand.paramsK m c))
        (nrm2 (Cert.KernelIdeal.Hand.spmmOfK m c) (Cert.KernelIdeal.Hand.e0K m c) (Cert.KernelIdeal.Hand.paramsK m c))
        (nrm3 (Cert.KernelIdeal.Hand.spmmOfK m c) (Cert.KernelIdeal.Hand.e0K m c) (Cert.KernelIdeal.Hand.paramsK m c))
        (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Hand.run_all m ρ)
    exact ⟨(h c _ (Cert.KernelIdeal.Hand.mem_uc Cert.KernelIdeal.main_v76 (by decide))).trans (Cert.KernelIdeal.Hand.W7_v76 m ρ c),
      (h c _ (Cert.KernelIdeal.Hand.mem_uc Cert.KernelIdeal.main_v83 (by decide))).trans (Cert.KernelIdeal.Hand.W7_v83 m ρ c),
      (h c _ (Cert.KernelIdeal.Hand.mem_uc Cert.KernelIdeal.main_v90 (by decide))).trans (Cert.KernelIdeal.Hand.W7_v90 m ρ c),
      (h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c),
      (h c _ (Cert.KernelIdeal.Hand.mem_uc Cert.KernelIdeal.main_arg6 (by decide))).trans (Cert.KernelIdeal.Hand.W7_main_arg6 m ρ c),
      (h c _ (Cert.KernelIdeal.Hand.mem_uc Cert.KernelIdeal.main_arg7 (by decide))).trans (Cert.KernelIdeal.Hand.W7_main_arg7 m ρ c),
      (h c _ (Cert.KernelIdeal.Hand.mem_uc Cert.KernelIdeal.main_arg8 (by decide))).trans (Cert.KernelIdeal.Hand.W7_main_arg8 m ρ c),
      (h c _ (Cert.KernelIdeal.Hand.mem_uc Cert.KernelIdeal.main_arg9 (by decide))).trans (Cert.KernelIdeal.Hand.W7_main_arg9 m ρ c),
      (h c _ (Cert.KernelIdeal.Hand.mem_uc Cert.KernelIdeal.main_arg10 (by decide))).trans (Cert.KernelIdeal.Hand.W7_main_arg10 m ρ c),
      (h c _ (Cert.KernelIdeal.Hand.mem_uc Cert.KernelIdeal.main_arg11 (by decide))).trans (Cert.KernelIdeal.Hand.W7_main_arg11 m ρ c)⟩
  · refine (θ_run Cert.ReferenceIdeal.defs _ _).mono (fun r h c => ?_) (Cert.ReferenceIdeal.Hand.run_after m' ρ')
    obtain ⟨h0, h1, h2, h3, h4, h5, h6, h7, h8, h9, h10, h11⟩ := hagree c
    have he := e0_agree m m' c h0 h1
    have hs := spmm_agree m m' c h6 h7 h8
    have hp := params_agree m m' c h2 h3 h4 h5
    refine ⟨((h c Cert.ReferenceIdeal.main_v115).trans (Cert.ReferenceIdeal.Hand.after_v115 m' c)).trans ?_,
      ((h c Cert.ReferenceIdeal.main_v122).trans (Cert.ReferenceIdeal.Hand.after_v122 m' c)).trans ?_,
      ((h c Cert.ReferenceIdeal.main_v129).trans (Cert.ReferenceIdeal.Hand.after_v129 m' c)).trans ?_,
      (h c Cert.ReferenceIdeal.main_arg0).trans (Cert.ReferenceIdeal.Hand.after_main_arg0 m' c),
      (h c Cert.ReferenceIdeal.main_arg1).trans (Cert.ReferenceIdeal.Hand.after_main_arg1 m' c),
      (h c Cert.ReferenceIdeal.main_arg2).trans (Cert.ReferenceIdeal.Hand.after_main_arg2 m' c),
      (h c Cert.ReferenceIdeal.main_arg3).trans (Cert.ReferenceIdeal.Hand.after_main_arg3 m' c),
      (h c Cert.ReferenceIdeal.main_arg4).trans (Cert.ReferenceIdeal.Hand.after_main_arg4 m' c),
      (h c Cert.ReferenceIdeal.main_arg5).trans (Cert.ReferenceIdeal.Hand.after_main_arg5 m' c),
      (h c Cert.ReferenceIdeal.main_arg6).trans (Cert.ReferenceIdeal.Hand.after_main_arg6 m' c),
      (h c Cert.ReferenceIdeal.main_arg7).trans (Cert.ReferenceIdeal.Hand.after_main_arg7 m' c),
      (h c Cert.ReferenceIdeal.main_arg8).trans (Cert.ReferenceIdeal.Hand.after_main_arg8 m' c),
      (h c Cert.ReferenceIdeal.main_arg9).trans (Cert.ReferenceIdeal.Hand.after_main_arg9 m' c),
      (h c Cert.ReferenceIdeal.main_arg10).trans (Cert.ReferenceIdeal.Hand.after_main_arg10 m' c),
      (h c Cert.ReferenceIdeal.main_arg11).trans (Cert.ReferenceIdeal.Hand.after_main_arg11 m' c)⟩
    · rw [he, hs, hp, h9, Cert.KernelIdeal.Hand.tailU_eq]
    · rw [he, hs, hp, h10, Cert.KernelIdeal.Hand.tailP_eq]
    · rw [he, hs, hp, h11, Cert.KernelIdeal.Hand.tailN_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
